-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S1x1 : Shape := ⟨2, ![1, 1]⟩
abbrev S1024x128 : Shape := ⟨2, ![1024, 128]⟩
abbrev S1024 : Shape := ⟨1, ![1024]⟩
abbrev S1024x1 : Shape := ⟨2, ![1024, 1]⟩
abbrev S128x1024 : Shape := ⟨2, ![128, 1024]⟩
abbrev S1024x1024 : Shape := ⟨2, ![1024, 1024]⟩
abbrev S1x1024 : Shape := ⟨2, ![1, 1024]⟩
abbrev S1x1024x1024 : Shape := ⟨3, ![1, 1024, 1024]⟩
abbrev S1 : Shape := ⟨1, ![1]⟩
abbrev S1x1x1 : Shape := ⟨3, ![1, 1, 1]⟩
abbrev S_ : Shape := ⟨0, ![]⟩

abbrev nBuf : Space → Nat
  | .hbm => 19
  | .vmem => 18
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x1, .f32⟩
  | .local _ .vmem, ⟨5, _⟩ => ⟨S1x1, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x1, .f32⟩
  | .local _ .vmem, ⟨11, _⟩ => ⟨S1x1, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1x1, .f32⟩
  | .local _ .vmem, ⟨17, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v37 : BitVec 1 := Scalar.cmpi .eq arg0 c7_i32
  let arg1 : BitVec 32 := BitVec.ofNat 32 (i 1).val
  let c7_i32_15 : BitVec 32 := 7#32
  let v38 : BitVec 1 := Scalar.cmpi .eq arg1 c7_i32_15
  let v39 : BitVec 1 := Scalar.andi v37 v38
  let v40 : BitVec 32 := Scalar.extui v39
  let c0_i32_16 : BitVec 32 := 0#32
  let v41 : BitVec 1 := Scalar.cmpi .ne v40 c0_i32_16
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![8, 8], ![false, false]⟩

def k1_cond2 (i : grid1.Coords) : BitVec 1 :=
  let arg0 : BitVec 32 := BitVec.ofNat 32 (i 0).val
  let c7_i32 : BitVec 32 := 7#32
  let v37 : BitVec 1 := Scalar.cmpi .eq arg0 c7_i32
  let arg1 : BitVec 32 := BitVec.ofNat 32 (i 1).val
  let c7_i32_15 : BitVec 32 := 7#32
  let v38 : BitVec 1 := Scalar.cmpi .eq arg1 c7_i32_15
  let v39 : BitVec 1 := Scalar.andi v37 v38
  let v40 : BitVec 32 := Scalar.extui v39
  let c0_i32_16 : BitVec 32 := 0#32
  let v41 : BitVec 1 := Scalar.cmpi .ne v40 c0_i32_16
  v41

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev grid2 : Pipeline.Grid := ⟨2, ![8, 8], ![false, false]⟩

def k2_cond2 (i : grid2.Coords) : BitVec 1 :=
  let arg0 : BitVec 32 := BitVec.ofNat 32 (i 0).val
  let c7_i32 : BitVec 32 := 7#32
  let v37 : BitVec 1 := Scalar.cmpi .eq arg0 c7_i32
  let arg1 : BitVec 32 := BitVec.ofNat 32 (i 1).val
  let c7_i32_15 : BitVec 32 := 7#32
  let v38 : BitVec 1 := Scalar.cmpi .eq arg1 c7_i32_15
  let v39 : BitVec 1 := Scalar.andi v37 v38
  let v40 : BitVec 32 := Scalar.extui v39
  let c0_i32_16 : BitVec 32 := 0#32
  let v41 : BitVec 1 := Scalar.cmpi .ne v40 c0_i32_16
  v41

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  transposes_S1024x128_p1_0_S128x1024 : S1024x128.Transposes [1, 0] S128x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .f32 = 32 ∨ (Rect.block (s := S8192x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg0) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 91
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S128x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x128, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x128, .f32⟩
  | .hbm, ⟨35, _⟩ => ⟨S_, .f32⟩
  | .hbm, ⟨36, _⟩ => ⟨S8192, .f32⟩
  | .hbm, ⟨37, _⟩ => ⟨S1x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S128x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8192x128, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x128, .f32⟩
  | .hbm, ⟨63, _⟩ => ⟨S_, .f32⟩
  | .hbm, ⟨64, _⟩ => ⟨S8192, .f32⟩
  | .hbm, ⟨65, _⟩ => ⟨S1x8192, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S128x8192, .f32⟩
  | .hbm, ⟨70, _⟩ => ⟨S8192x8192, .f32⟩
  | .hbm, ⟨71, _⟩ => ⟨S_, .f32⟩
  | .hbm, ⟨72, _⟩ => ⟨S8192x8192, .f32⟩
  | .hbm, ⟨73, _⟩ => ⟨S8192x8192, .f32⟩
  | .hbm, ⟨74, _⟩ => ⟨S8192x8192, .f32⟩
  | .hbm, ⟨75, _⟩ => ⟨S_, .f32⟩
  | .hbm, ⟨76, _⟩ => ⟨S8192x8192, .f32⟩
  | .hbm, ⟨77, _⟩ => ⟨S8192x8192, .f32⟩
  | .hbm, ⟨78, _⟩ => ⟨S_, .f32⟩
  | .hbm, ⟨79, _⟩ => ⟨S8192x8192, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_v36 : Ref sig .tc := ⟨.hbm, 49, rfl⟩
abbrev main_cst_10 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_cst_12 : Ref sig .tc := ⟨.hbm, 56, rfl⟩
abbrev main_v41 : Ref sig .tc := ⟨.hbm, 57, rfl⟩
abbrev main_v42 : Ref sig .tc := ⟨.hbm, 58, rfl⟩
abbrev main_cst_13 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_14 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_15 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_16 : Ref sig .tc := ⟨.hbm, 75, rfl⟩
abbrev main_v56 : Ref sig .tc := ⟨.hbm, 76, rfl⟩
abbrev main_v57 : Ref sig .tc := ⟨.hbm, 77, rfl⟩
abbrev main_cst_17 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_18 : Ref sig .tc := ⟨.hbm, 82, rfl⟩
abbrev main_v61 : Ref sig .tc := ⟨.hbm, 83, rfl⟩
abbrev main_cst_19 : Ref sig .tc := ⟨.hbm, 84, rfl⟩
abbrev main_v62 : Ref sig .tc := ⟨.hbm, 85, rfl⟩
abbrev main_cst_20 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Conds0.lean ====
/-
  Region 0 of the program: the two branch conditions of the tile body read off the grid point, where the output
  window is idle, and the body run once per control case. The grid is 8 x 8, walked row-major as 64 points; the first
  branch (the accumulator is zeroed) is taken at point 0 only, the second (the accumulator is copied to the output
  block) at point 63 only; at every point the body adds the tile's sum to the accumulator.
-/
import proofs.«149046_j33449205301987_1_alg».proof.Proof.Gen.KernelIdeal.Launch
import proofs.«149046_j33449205301987_1_alg».proof.Proof.Gen.KernelIdeal.Skeleton
import proofs.«149046_j33449205301987_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition at a grid point: both coordinates are zero. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second branch's condition: both coordinates are the last. -/
abbrev cond0_1 (i : grid0.Coords) : Prop := k0_cond2 i = 1#1
theorem hcond0_1 : ∀ t : Fin cfg0.N, cond0_1 (grid0.coords t) ↔ t.val = 63 :=
  (by decide +kernel : ∀ t : Fin grid0.N, cond0_1 (grid0.coords t) ↔ t.val = 63)

/-- The input windows are never idle; the output window is idle at every point but the last, where it is written back. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- The staging memrefs the body is called with at point `t`, the accumulator's memref, and the views their contents are read through. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev scM0 : Memref sig .tc .vmem S1x1 .f32 := Memref.whole cc0_scratch0
abbrev VS0 : View sig .tc .vmem S1x1 .f32 := (scM0).view
abbrev VO0 : View sig .tc .vmem S1x1 .f32 := (Memref.whole cc0_stg2_0 : Memref sig .tc .vmem S1x1 .f32).view

end Cert.KernelIdeal.Frm

end
-- ==== Proof.RunA0.lean ====
/-
  Region 0, the tile body run in one control case: on whole staging buffers holding the two row blocks, and the
  accumulator, the body terminates and hands back the row blocks untouched and the accumulator (and, at the last point,
  the output block) with the stored values written.
-/
import proofs.«149046_j33449205301987_1_alg».proof.Proof.Conds0

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point: the accumulator, whatever it held, is zeroed and the tile's sum added; the output block is left alone. -/
noncomputable def kernelRun0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 : Vec F S1024x128 .f32) :
    { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__kmean_kernel i arg2 harg2 arg3 harg3 arg4 harg4 arg5 harg5) K } := by
  refine ⟨?_, fun xi E K => ?run⟩
  case run =>
    simp only [cc0__kmean_kernel_eq_skeleton]; unfold cc0__kmean_kernel_skel
    simp only [k0_part1_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Frm

end
-- ==== Proof.RunB0.lean ====
/-
  Region 0, the tile body run in one control case: on whole staging buffers holding the two row blocks, and the
  accumulator, the body terminates and hands back the row blocks untouched and the accumulator (and, at the last point,
  the output block) with the stored values written.
-/
import proofs.«149046_j33449205301987_1_alg».proof.Proof.Conds0

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle point: the tile's sum is added to what the accumulator held; the output block is left alone. -/
noncomputable def kernelRun0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 : Vec F S1024x128 .f32) (xs : Vec F S1x1 .f32) :
    { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__kmean_kernel i arg2 harg2 arg3 harg3 arg4 harg4 arg5 harg5) K } := by
  refine ⟨?_, fun xi E K => ?run⟩
  case run =>
    simp only [cc0__kmean_kernel_eq_skeleton]; unfold cc0__kmean_kernel_skel
    simp only [k0_part1_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Frm

end
-- ==== Proof.RunC0.lean ====
/-
  Region 0, the tile body run in one control case: on whole staging buffers holding the two row blocks, and the
  accumulator, the body terminates and hands back the row blocks untouched and the accumulator (and, at the last point,
  the output block) with the stored values written.
-/
import proofs.«149046_j33449205301987_1_alg».proof.Proof.Conds0

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last point: the tile's sum is added to what the accumulator held, and the accumulator is copied to the output block. -/
noncomputable def kernelRun0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S1024x128 .f32) (xs : Vec F S1x1 .f32) :
    Σ' (L2 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__kmean_kernel i arg2 harg2 arg3 harg3 arg4 harg4 arg5 harg5) K } := by
  refine ⟨?_, ?_, fun E K => ?run⟩
  case run =>
    simp only [cc0__kmean_kernel_eq_skeleton]; unfold cc0__kmean_kernel_skel
    simp only [k0_part1_eq_skeleton]
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Frm

end
-- ==== Proof.Outs0.lean ====
/-
  Region 0: what each control case of the tile body leaves in the accumulator and in the output block, as values.
  Every store of the body writes a whole [1,1] block, so the stored pieces cover it and the contents read back are
  the last stored value: at the first point the tile's sum added to zero, at a later point the tile's sum added to
  what the accumulator held, and at the last point the output block holds that same sum.
-/
import proofs.«149046_j33449205301987_1_alg».proof.Proof.RunA0
import proofs.«149046_j33449205301987_1_alg».proof.Proof.RunB0
import proofs.«149046_j33449205301987_1_alg».proof.Proof.RunC0
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz11 : (![0, 0] : Fin S1x1.rank → Nat) = fun _ => 0 := by funext a; fin_cases a <;> rfl
theorem hzT : (![0, 0] : Fin S1024x128.rank → Nat) = fun _ => 0 := by funext a; fin_cases a <;> rfl

theorem scover0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x0 x1 : Vec F S1024x128 .f32) (y : S1x1.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1x1.size (by sl_kernel_rfl) y

/-- The accumulator after the first point. -/
def sout0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x0 x1 : Vec F S1024x128 .f32) : Vec F S1x1 .f32 :=
  VS0.read (Elt F) (VS0.writes (Elt F) VS0.junk (kernelRun0_A c i arg2 harg2 arg3 harg3 arg4 harg4 arg5 harg5 hc0 hc1 x0 x1).1)

theorem sout0_A_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x0 x1 : Vec F S1024x128 .f32) :
    sout0_A c i arg2 harg2 arg3 harg3 arg4 harg4 arg5 harg5 hc0 hc1 x0 x1 = k0_pay2 x0 x1 (k0_pay1 (F := F)) := by
  unfold sout0_A
  rw [View.read_writes_eq_canon _ _ _ (scover0_A c i arg2 harg2 arg3 harg3 arg4 harg4 arg5 harg5 hc0 hc1 x0 x1)]
  unfold kernelRun0_A; dsimp only
  refine (View.canon_cons_unit_zero (S := S1x1) hz11 _ _ _).trans ?_
  sl_unfold_run_names
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : arg5.view.readCov [(⟨Rect.unit ![0, 0] S1x1.size inb_S1x1_S1x1_0_0, k0_pay1 (F := F)⟩ : View.Piece (Elt F) S1x1 .f32)] (Rect.unit ![0, 0] S1x1.size inb_S1x1_S1x1_0_0).toLoadRect = k0_pay1 (F := F) :=
    View.readCov_unit_zero (S := S1x1) arg5.view hz11 inb_S1x1_S1x1_0_0 _
  rw [e0, e1, e2]

theorem scover0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 x1 : Vec F S1024x128 .f32) (xs : Vec F S1x1 .f32) (y : S1x1.Idx) :
    ∃ pc ∈ (kernelRun0_B c i arg2 harg2 arg3 harg3 arg4 harg4 arg5 harg5 hc0 hc1 x0 x1 xs).1, y ∈ pc.1.set :=
  View.cover_of_tiledL (kernelRun0_B c i arg2 harg2 arg3 harg3 arg4 harg4 arg5 harg5 hc0 hc1 x0 x1 xs).1 S1x1.size (by sl_kernel_rfl) y

/-- The accumulator after a middle point. -/
def sout0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 x1 : Vec F S1024x128 .f32) (xs : Vec F S1x1 .f32) : Vec F S1x1 .f32 :=
  VS0.read (Elt F) (VS0.writes (Elt F) VS0.junk (kernelRun0_B c i arg2 harg2 arg3 harg3 arg4 harg4 arg5 harg5 hc0 hc1 x0 x1 xs).1)

theorem sout0_B_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 x1 : Vec F S1024x128 .f32) (xs : Vec F S1x1 .f32) :
    sout0_B c i arg2 harg2 arg3 harg3 arg4 harg4 arg5 harg5 hc0 hc1 x0 x1 xs = k0_pay2 x0 x1 xs := by
  unfold sout0_B
  rw [View.read_writes_eq_canon _ _ _ (scover0_B c i arg2 harg2 arg3 harg3 arg4 harg4 arg5 harg5 hc0 hc1 x0 x1 xs)]
  unfold kernelRun0_B; dsimp only
  refine (View.canon_cons_unit_zero (S := S1x1) hz11 _ _ _).trans ?_
  sl_unfold_run_names
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : View.readAt (Elt F) arg5.view (Rect.unit ![0, 0] S1x1.size inb_S1x1_S1x1_0_0).toLoadRect (harg5.unread xs) = xs := by
    rw [View.readAt_eq_ld, harg5.read_unread]; exact View.ld_unit_zero (S := S1x1) hz11 _ xs
  rw [e0, e1, e2]

theorem scover0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x128 .f32) (xs : Vec F S1x1 .f32) (y : S1x1.Idx) :
    ∃ pc ∈ (kernelRun0_C c i arg2 harg2 arg3 harg3 arg4 harg4 arg5 harg5 hc0 hc1 x0 x1 xs).2.1, y ∈ pc.1.set :=
  View.cover_of_tiledL (kernelRun0_C c i arg2 harg2 arg3 harg3 arg4 harg4 arg5 harg5 hc0 hc1 x0 x1 xs).2.1 S1x1.size (by sl_kernel_rfl) y

/-- The accumulator after the last point. -/
def sout0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x128 .f32) (xs : Vec F S1x1 .f32) : Vec F S1x1 .f32 :=
  VS0.read (Elt F) (VS0.writes (Elt F) VS0.junk (kernelRun0_C c i arg2 harg2 arg3 harg3 arg4 harg4 arg5 harg5 hc0 hc1 x0 x1 xs).2.1)

theorem sout0_C_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x128 .f32) (xs : Vec F S1x1 .f32) :
    sout0_C c i arg2 harg2 arg3 harg3 arg4 harg4 arg5 harg5 hc0 hc1 x0 x1 xs = k0_pay2 x0 x1 xs := by
  unfold sout0_C
  rw [View.read_writes_eq_canon _ _ _ (scover0_C c i arg2 harg2 arg3 harg3 arg4 harg4 arg5 harg5 hc0 hc1 x0 x1 xs)]
  unfold kernelRun0_C; dsimp only
  refine (View.canon_cons_unit_zero (S := S1x1) hz11 _ _ _).trans ?_
  sl_unfold_run_names
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : View.readAt (Elt F) arg5.view (Rect.unit ![0, 0] S1x1.size inb_S1x1_S1x1_0_0).toLoadRect (harg5.unread xs) = xs := by
    rw [View.readAt_eq_ld, harg5.read_unread]; exact View.ld_unit_zero (S := S1x1) hz11 _ xs
  rw [e0, e1, e2]

theorem cover0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x128 .f32) (xs : Vec F S1x1 .f32) (y : S1x1.Idx) :
    ∃ pc ∈ (kernelRun0_C c i arg2 harg2 arg3 harg3 arg4 harg4 arg5 harg5 hc0 hc1 x0 x1 xs).1, y ∈ pc.1.set :=
  View.cover_of_tiledL (kernelRun0_C c i arg2 harg2 arg3 harg3 arg4 harg4 arg5 harg5 hc0 hc1 x0 x1 xs).1 S1x1.size (by sl_kernel_rfl) y

/-- The output block after the last point. -/
def out0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x128 .f32) (xs : Vec F S1x1 .f32) : Vec F S1x1 .f32 :=
  VO0.read (Elt F) (VO0.writes (Elt F) VO0.junk (kernelRun0_C c i arg2 harg2 arg3 harg3 arg4 harg4 arg5 harg5 hc0 hc1 x0 x1 xs).1)

theorem out0_C_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x128 .f32) (xs : Vec F S1x1 .f32) :
    out0_C c i arg2 harg2 arg3 harg3 arg4 harg4 arg5 harg5 hc0 hc1 x0 x1 xs = k0_pay2 x0 x1 xs := by
  unfold out0_C
  rw [View.read_writes_eq_canon _ _ _ (cover0_C c i arg2 harg2 arg3 harg3 arg4 harg4 arg5 harg5 hc0 hc1 x0 x1 xs)]
  unfold kernelRun0_C; dsimp only
  refine (View.canon_cons_unit_zero (S := S1x1) hz11 _ _ _).trans ?_
  sl_unfold_run_names
  refine (View.readCov_unit_zero (S := S1x1) arg5.view hz11 inb_S1x1_S1x1_0_0 _).trans ?_
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : View.readAt (Elt F) arg5.view (Rect.unit ![0, 0] S1x1.size inb_S1x1_S1x1_0_0).toLoadRect (harg5.unread xs) = xs := by
    rw [View.readAt_eq_ld, harg5.read_unread]; exact View.ld_unit_zero (S := S1x1) hz11 _ xs
  rw [e0, e1, e2]

end Cert.KernelIdeal.Frm

end
-- ==== Proof.Dat0.lean ====
/-
  Region 0: the proof data of its pipeline and the body obligation. After the body at point n the accumulator
  holds the sum of the tiles 0..n (each tile's sum added in turn, starting from zero at point 0); the two input
  windows' buffers hold their row blocks at every point; the output block is written at the last point only, with the
  accumulator's value. Between points the invariant keeps the accumulator at that value beside the core's other
  scoped buffers, which this region does not touch.
-/
import proofs.«149046_j33449205301987_1_alg».proof.Proof.Outs0

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION: the accumulator after the body at point `n` — the tile's sum added to zero at point 0, to the previous value afterwards. -/
def accAt0 (c : Dev nD) : (n : ℕ) → n < cfg0.N → Vec F S1x1 .f32
  | 0, hn => k0_pay2 (iblk0 V c 0 ⟨0, hn⟩) (iblk0 V c 1 ⟨0, hn⟩) (k0_pay1 (F := F))
  | n + 1, hn => k0_pay2 (iblk0 V c 0 ⟨n + 1, hn⟩) (iblk0 V c 1 ⟨n + 1, hn⟩) (accAt0 c n (Nat.lt_of_succ_lt hn))

theorem accAt0_first (c : Dev nD) (t : Fin cfg0.N) (h0 : t.val = 0) :
    accAt0 V c t.val t.isLt = k0_pay2 (iblk0 V c 0 t) (iblk0 V c 1 t) (k0_pay1 (F := F)) := by
  obtain ⟨n, hn⟩ := t
  cases n with
  | zero => rfl
  | succ n => exact absurd h0 (Nat.succ_ne_zero n)

theorem accAt0_next (c : Dev nD) (t : Fin cfg0.N) (h0 : t.val ≠ 0) :
    accAt0 V c t.val t.isLt = k0_pay2 (iblk0 V c 0 t) (iblk0 V c 1 t) (accAt0 V c (t.val - 1) (Nat.lt_of_le_of_lt (Nat.sub_le _ _) t.isLt)) := by
  obtain ⟨n, hn⟩ := t
  cases n with
  | zero => exact absurd rfl h0
  | succ n => rfl

/-- The core's scoped buffers other than this region's staging buffers and accumulator, at some contents each. -/
abbrev rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA; rw [Pipeline.scopedRest_split_of_list spec0 c [cc0_scratch0] (by decide) (by decide)]
  simp only [scM0, owns_whole]; rfl

/-- The region invariant before position `n`: before the first point the accumulator holds anything; afterwards what the point before left. -/
def PhiS0 (c : Dev nD) : (n : ℕ) → n ≤ cfg0.N → sProp 𝕄
  | 0, _ => Pipeline.ΦA spec0 c
  | n + 1, hn => iprop((owns (c : Thread nD τ) scM0 fullShare (accAt0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (accAt0 V c n hn) ∗ rest0 (F := F) c) ∗ (∃ r, prngReg c r)) := rfl
theorem PhiS0_pos (c : Dev nD) (n : ℕ) (h : n ≤ cfg0.N) (hz : n ≠ 0) :
    PhiS0 V c n h = iprop((owns (c : Thread nD τ) scM0 fullShare (accAt0 V c (n - 1) (by omega)) ∗ rest0 (F := F) c) ∗ (∃ r, prngReg c r)) := by
  cases n with
  | zero => exact absurd rfl hz
  | succ n => rfl

/-- The proof data of the region's pipeline on core `c`, from the contents `V` the region finds. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the point is the first, the last or neither, which
    decides the two branches; the invariant hands the body the accumulator at what the point before left (at anything
    at the first point) and takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  have hN : t.val < 64 := lt_of_lt_of_eq t.isLt (show cfg0.N = 64 from N_0)
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [PhiS0_castSucc V c t, PhiS0_zero V c _ _ h0, PhiA0_eq]
    rw [accAt0_first V c t h0]
    rw [← sout0_A_eq c (grid0.coords t) (ms0_0 t) (hs0_0 t) (ms0_1 t) (hs0_1 t) (ms0_2 t) (hs0_2 t) scM0 (Memref.isWhole_whole _) hc0 hc1 (iblk0 V c 0 t) (iblk0 V c 1 t)]
    unfold sout0_A
    iintro ⟨⟨⟨HS, HR⟩, Hg⟩, Ho, ⟨%d0, H0⟩, ⟨%d1, H1⟩, ⟨%d2, H2⟩⟩
    iapply ((kernelRun0_A c (grid0.coords t) (ms0_0 t) (hs0_0 t) (ms0_1 t) (hs0_1 t) (ms0_2 t) (hs0_2 t) scM0 (Memref.isWhole_whole _) hc0 hc1 (iblk0 V c 0 t) (iblk0 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS HR Hg]
    · isplitl [HS HR]
      · isplitl [HS]
        · unfold owns; iexists _; isplitr
          swap; · iexact HS
          ipureintro; exact View.read_writes_of_cover _ _ _ _ _ (scover0_A c (grid0.coords t) (ms0_0 t) (hs0_0 t) (ms0_1 t) (hs0_1 t) (ms0_2 t) (hs0_2 t) scM0 (Memref.isWhole_whole _) hc0 hc1 (iblk0 V c 0 t) (iblk0 V c 1 t))
        iexact HR
      iexact Hg
    isplitl [Ho]; · iexact Ho
    isplitl [H0]; · iexact H0
    isplitl [H1]; · iexact H1
    iexists _; iexact H2
  · have hc0 : ¬cond0_0 (grid0.coords t) := fun h => h0 ((hcond0_0 t).mp h)
    by_cases h1 : t.val = 63
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [PhiS0_castSucc V c t, PhiS0_pos V c _ _ h0]
      rw [accAt0_next V c t h0]
      iintro ⟨⟨⟨HS, HR⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0 (Memref.isWhole_whole _) hc0 hc1 (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro
            exact (View.read_writes_of_cover _ _ _ _ _ (scover0_C c (grid0.coords t) (ms0_0 t) (hs0_0 t) (ms0_1 t) (hs0_1 t) (ms0_2 t) (hs0_2 t) scM0 (Memref.isWhole_whole _) hc0 hc1 (iblk0 V c 0 t) (iblk0 V c 1 t) _)).trans (sout0_C_eq c (grid0.coords t) (ms0_0 t) (hs0_0 t) (ms0_1 t) (hs0_1 t) (ms0_2 t) (hs0_2 t) scM0 (Memref.isWhole_whole _) hc0 hc1 (iblk0 V c 0 t) (iblk0 V c 1 t) _)
          iexact HR
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover0_C c (grid0.coords t) (ms0_0 t) (hs0_0 t) (ms0_1 t) (hs0_1 t) (ms0_2 t) (hs0_2 t) scM0 (Memref.isWhole_whole _) hc0 hc1 (iblk0 V c 0 t) (iblk0 V c 1 t) _)).trans (out0_C_eq c (grid0.coords t) (ms0_0 t) (hs0_0 t) (ms0_1 t) (hs0_1 t) (ms0_2 t) (hs0_2 t) scM0 (Memref.isWhole_whole _) hc0 hc1 (iblk0 V c 0 t) (iblk0 V c 1 t) _)
    · have hc1 : ¬cond0_1 (grid0.coords t) := fun h => h1 ((hcond0_1 t).mp h)
      rw [Dat.leavesExact_idle (dat0 V c) 2 t (idleAt0_2 t hc1) (noFlush0_2 t hc1)]
      rw [PhiS0_castSucc V c t, PhiS0_pos V c _ _ h0]
      rw [accAt0_next V c t h0]
      iintro ⟨⟨⟨HS, HR⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0 (Memref.isWhole_whole _) hc0 hc1 (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro
            exact (View.read_writes_of_cover _ _ _ _ _ (scover0_B c (grid0.coords t) (ms0_0 t) (hs0_0 t) (ms0_1 t) (hs0_1 t) (ms0_2 t) (hs0_2 t) scM0 (Memref.isWhole_whole _) hc0 hc1 (iblk0 V c 0 t) (iblk0 V c 1 t) _)).trans (sout0_B_eq c (grid0.coords t) (ms0_0 t) (hs0_0 t) (ms0_1 t) (hs0_1 t) (ms0_2 t) (hs0_2 t) scM0 (Memref.isWhole_whole _) hc0 hc1 (iblk0 V c 0 t) (iblk0 V c 1 t) _)
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, and after the last point the invariant gives it back. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS, HR⟩, Hg⟩
  isplitl [HS HR]
  · isplitl [HS]
    · iexists _; iexact HS
    iexact HR
  iexact Hg

end Cert.KernelIdeal.Frm

end
-- ==== Proof.Edge0.lean ====
/-
  Region 0: how the core's unscoped buffers make the pipeline's arrays at entry and are made of them again at exit.
  Both input windows read the same argument array, so that one buffer, held whole, is dealt to the two windows as the
  two halves of its share at entry and joined again at exit; it is never written. The output array is one [1,1] buffer, whole,
  which the last point's write-back overwrites.
-/
import proofs.«149046_j33449205301987_1_alg».proof.Proof.Dat0
import Idealize.ShloMosaic.Lib.Pipeline.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs0_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop(((((c : Thread nD τ).loc main_arg0)) ↦{fullShare} Vc main_arg0) ∗ ((((c : Thread nD τ).loc main_v0)) ↦{fullShare} Vc main_v0)) := by
  unfold Pipeline.arrBufs
  rw [show (Finset.univ.image (Pipeline.arrRef spec0)) = insert main_arg0 {main_v0} from by decide]
  rw [BI.bigSep_insert (by decide), BI.bigSep_singleton]
  rfl

/-- The pipeline's arrays, window by window, each a whole buffer at its share. -/
theorem arrays0_eq (c : Dev nD) (G : (w : Fin cfg0.W) → Buf (Elt F) ((cfg0.win w).arr.view.loc (c.tc : Thread nD τ))) :
    ((dat0 V c).arrays G : sProp 𝕄)
      = iprop(((((c : Thread nD τ).loc main_arg0)) ↦{fullShare.left} G 0) ∗ ((((c : Thread nD τ).loc main_arg0)) ↦{fullShare.right} G 1) ∗ ((((c : Thread nD τ).loc main_v0)) ↦{fullShare} G 2)) := by
  unfold Dat.arrays; rw [bigSep_W0]
  rw [(arr_whole0 0).set_eq_univ]
  try rw [(arr_whole0 1).set_eq_univ]
  rw [(arr_whole0 2).set_eq_univ]
  rfl

/-- ENTRY: the unscoped buffers at `V` are the arrays at the proof data's entry contents and the rest. -/
theorem enter0 (c : Dev nD) :
    (unscopedBufs c (V c) : sProp 𝕄) ⊢ iprop((dat0 V c).arrays ((dat0 V c).arrAt · 0) ∗ Pipeline.unscopedRest spec0 c (V c)) := by
  rw [show (unscopedBufs c (V c) : sProp 𝕄) = iprop(Pipeline.arrBufs spec0 c (V c) ∗ Pipeline.unscopedRest spec0 c (V c)) from Pipeline.unscopedBufs_split₀ cfgs 0 (by decide) c (V c), arrBufs0_eq, arrays0_eq]
  show iprop(_ ∗ Pipeline.unscopedRest spec0 c (V c)) ⊢ iprop((((((c : Thread nD τ).loc main_arg0)) ↦{fullShare.left} V c main_arg0) ∗ ((((c : Thread nD τ).loc main_arg0)) ↦{fullShare.right} V c main_arg0) ∗ ((((c : Thread nD τ).loc main_v0)) ↦{fullShare} V c main_v0)) ∗ _)
  iintro ⟨⟨HA, HO⟩, HR⟩
  ihave HA' := (pointsTo_share (PosShare.mem_left_op_right fullShare)).1 $$ HA
  icases HA' with ⟨HL, HRt⟩
  isplitr [HR]
  · isplitl [HL]; · iexact HL
    isplitl [HRt]; · iexact HRt
    iexact HO
  iexact HR

/-- EXIT: the arrays at their final contents and the rest at `V` are the unscoped buffers at any valuation that has
    the output array at its final contents and agrees with `V` elsewhere. -/
theorem exit0 (c : Dev nD) (V' : (b : Ref sig .tc) → Buf (Elt F) ((c : Thread nD τ).loc b))
    (hO : V' main_v0 = (dat0 V c).arrAt 2 cfg0.N) (hrest : ∀ b : Ref sig .tc, b ≠ main_v0 → V' b = V c b) :
    iprop((dat0 V c).arrays ((dat0 V c).arrAt · cfg0.N) ∗ Pipeline.unscopedRest spec0 c (V c)) ⊢ (unscopedBufs c V' : sProp 𝕄) := by
  rw [show (unscopedBufs c V' : sProp 𝕄) = iprop(Pipeline.arrBufs spec0 c V' ∗ Pipeline.unscopedRest spec0 c V') from Pipeline.unscopedBufs_split₀ cfgs 0 (by decide) c V', arrBufs0_eq, arrays0_eq]
  have e0 : (dat0 V c).arrAt 0 cfg0.N = V' main_arg0 := ((dat0 V c).arrAt_in 0 rfl _).trans ((A_eq0 V c 0).trans (hrest main_arg0 (by decide)).symm)
  have e1 : (dat0 V c).arrAt 1 cfg0.N = V' main_arg0 := ((dat0 V c).arrAt_in 1 rfl _).trans ((A_eq0 V c 1).trans (hrest main_arg0 (by decide)).symm)
  have er : (Pipeline.unscopedRest (Ix := Unit) (Name := ℕ) (U := UR sig nD τ) (Lvl := ℕ) spec0 c (V c) : sProp 𝕄) = Pipeline.unscopedRest spec0 c V' := by
    unfold Pipeline.unscopedRest
    refine BI.bigSep_congr fun b hb => ?_
    rw [hrest b (fun e => (Finset.mem_sdiff.mp hb).2 (Finset.mem_image.mpr ⟨2, Finset.mem_univ _, e ▸ rfl⟩))]
  rw [er]
  show iprop((((((c : Thread nD τ).loc main_arg0)) ↦{fullShare.left} (dat0 V c).arrAt 0 cfg0.N) ∗ ((((c : Thread nD τ).loc main_arg0)) ↦{fullShare.right} (dat0 V c).arrAt 1 cfg0.N) ∗ ((((c : Thread nD τ).loc main_v0)) ↦{fullShare} (dat0 V c).arrAt 2 cfg0.N)) ∗ _) ⊢ _
  rw [e0, e1, ← hO]
  iintro ⟨⟨HL, HRt, HO⟩, HR⟩
  isplitr [HR]
  · isplitr [HO]
    · iapply (pointsTo_share (PosShare.mem_left_op_right fullShare)).2
      isplitl [HL]; · iexact HL
      iexact HRt
    iexact HO
  iexact HR

end Cert.KernelIdeal.Frm

end
-- ==== Proof.Conds1.lean ====
/-
  Region 1 of the program: the two branch conditions of the tile body read off the grid point, where the output
  window is idle, and the body run once per control case. The grid is 8 x 8, walked row-major as 64 points; the first
  branch (the accumulator is zeroed) is taken at point 0 only, the second (the accumulator is copied to the output
  block) at point 63 only; at every point the body adds the tile's sum to the accumulator.
-/
import proofs.«149046_j33449205301987_1_alg».proof.Proof.Gen.KernelIdeal.Launch
import proofs.«149046_j33449205301987_1_alg».proof.Proof.Gen.KernelIdeal.Skeleton
import proofs.«149046_j33449205301987_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition at a grid point: both coordinates are zero. -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second branch's condition: both coordinates are the last. -/
abbrev cond1_1 (i : grid1.Coords) : Prop := k1_cond2 i = 1#1
theorem hcond1_1 : ∀ t : Fin cfg1.N, cond1_1 (grid1.coords t) ↔ t.val = 63 :=
  (by decide +kernel : ∀ t : Fin grid1.N, cond1_1 (grid1.coords t) ↔ t.val = 63)

/-- The input windows are never idle; the output window is idle at every point but the last, where it is written back. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- The staging memrefs the body is called with at point `t`, the accumulator's memref, and the views their contents are read through. -/
abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev scM1 : Memref sig .tc .vmem S1x1 .f32 := Memref.whole cc1_scratch0
abbrev VS1 : View sig .tc .vmem S1x1 .f32 := (scM1).view
abbrev VO1 : View sig .tc .vmem S1x1 .f32 := (Memref.whole cc1_stg2_0 : Memref sig .tc .vmem S1x1 .f32).view

end Cert.KernelIdeal.Frm

end
-- ==== Proof.RunA1.lean ====
/-
  Region 1, the tile body run in one control case: on whole staging buffers holding the two row blocks, and the
  accumulator, the body terminates and hands back the row blocks untouched and the accumulator (and, at the last point,
  the output block) with the stored values written.
-/
import proofs.«149046_j33449205301987_1_alg».proof.Proof.Conds1

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point: the accumulator, whatever it held, is zeroed and the tile's sum added; the output block is left alone. -/
noncomputable def kernelRun1_A (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 x1 : Vec F S1024x128 .f32) :
    { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__kmean_kernel i arg2 harg2 arg3 harg3 arg4 harg4 arg5 harg5) K } := by
  refine ⟨?_, fun xi E K => ?run⟩
  case run =>
    simp only [cc1__kmean_kernel_eq_skeleton]; unfold cc1__kmean_kernel_skel
    simp only [k1_part1_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Frm

end
-- ==== Proof.RunB1.lean ====
/-
  Region 1, the tile body run in one control case: on whole staging buffers holding the two row blocks, and the
  accumulator, the body terminates and hands back the row blocks untouched and the accumulator (and, at the last point,
  the output block) with the stored values written.
-/
import proofs.«149046_j33449205301987_1_alg».proof.Proof.Conds1

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle point: the tile's sum is added to what the accumulator held; the output block is left alone. -/
noncomputable def kernelRun1_B (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 x1 : Vec F S1024x128 .f32) (xs : Vec F S1x1 .f32) :
    { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__kmean_kernel i arg2 harg2 arg3 harg3 arg4 harg4 arg5 harg5) K } := by
  refine ⟨?_, fun xi E K => ?run⟩
  case run =>
    simp only [cc1__kmean_kernel_eq_skeleton]; unfold cc1__kmean_kernel_skel
    simp only [k1_part1_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Frm

end
-- ==== Proof.RunC1.lean ====
/-
  Region 1, the tile body run in one control case: on whole staging buffers holding the two row blocks, and the
  accumulator, the body terminates and hands back the row blocks untouched and the accumulator (and, at the last point,
  the output block) with the stored values written.
-/
import proofs.«149046_j33449205301987_1_alg».proof.Proof.Conds1

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last point: the tile's sum is added to what the accumulator held, and the accumulator is copied to the output block. -/
noncomputable def kernelRun1_C (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 x1 : Vec F S1024x128 .f32) (xs : Vec F S1x1 .f32) :
    Σ' (L2 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__kmean_kernel i arg2 harg2 arg3 harg3 arg4 harg4 arg5 harg5) K } := by
  refine ⟨?_, ?_, fun E K => ?run⟩
  case run =>
    simp only [cc1__kmean_kernel_eq_skeleton]; unfold cc1__kmean_kernel_skel
    simp only [k1_part1_eq_skeleton]
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Frm

end
-- ==== Proof.Outs1.lean ====
/-
  Region 1: what each control case of the tile body leaves in the accumulator and in the output block, as values.
  Every store of the body writes a whole [1,1] block, so the stored pieces cover it and the contents read back are
  the last stored value: at the first point the tile's sum added to zero, at a later point the tile's sum added to
  what the accumulator held, and at the last point the output block holds that same sum.
-/
import proofs.«149046_j33449205301987_1_alg».proof.Proof.RunA1
import proofs.«149046_j33449205301987_1_alg».proof.Proof.RunB1
import proofs.«149046_j33449205301987_1_alg».proof.Proof.RunC1
import proofs.«149046_j33449205301987_1_alg».proof.Proof.Outs0
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover1_A (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i) (x0 x1 : Vec F S1024x128 .f32) (y : S1x1.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S1x1.size (by sl_kernel_rfl) y

/-- The accumulator after the first point. -/
def sout1_A (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i) (x0 x1 : Vec F S1024x128 .f32) : Vec F S1x1 .f32 :=
  VS1.read (Elt F) (VS1.writes (Elt F) VS1.junk (kernelRun1_A c i arg2 harg2 arg3 harg3 arg4 harg4 arg5 harg5 hc0 hc1 x0 x1).1)

theorem sout1_A_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i) (x0 x1 : Vec F S1024x128 .f32) :
    sout1_A c i arg2 harg2 arg3 harg3 arg4 harg4 arg5 harg5 hc0 hc1 x0 x1 = k1_pay2 x0 x1 (k1_pay1 (F := F)) := by
  unfold sout1_A
  rw [View.read_writes_eq_canon _ _ _ (scover1_A c i arg2 harg2 arg3 harg3 arg4 harg4 arg5 harg5 hc0 hc1 x0 x1)]
  unfold kernelRun1_A; dsimp only
  refine (View.canon_cons_unit_zero (S := S1x1) hz11 _ _ _).trans ?_
  sl_unfold_run_names
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : arg5.view.readCov [(⟨Rect.unit ![0, 0] S1x1.size inb_S1x1_S1x1_0_0, k1_pay1 (F := F)⟩ : View.Piece (Elt F) S1x1 .f32)] (Rect.unit ![0, 0] S1x1.size inb_S1x1_S1x1_0_0).toLoadRect = k1_pay1 (F := F) :=
    View.readCov_unit_zero (S := S1x1) arg5.view hz11 inb_S1x1_S1x1_0_0 _
  rw [e0, e1, e2]

theorem scover1_B (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i) (x0 x1 : Vec F S1024x128 .f32) (xs : Vec F S1x1 .f32) (y : S1x1.Idx) :
    ∃ pc ∈ (kernelRun1_B c i arg2 harg2 arg3 harg3 arg4 harg4 arg5 harg5 hc0 hc1 x0 x1 xs).1, y ∈ pc.1.set :=
  View.cover_of_tiledL (kernelRun1_B c i arg2 harg2 arg3 harg3 arg4 harg4 arg5 harg5 hc0 hc1 x0 x1 xs).1 S1x1.size (by sl_kernel_rfl) y

/-- The accumulator after a middle point. -/
def sout1_B (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i) (x0 x1 : Vec F S1024x128 .f32) (xs : Vec F S1x1 .f32) : Vec F S1x1 .f32 :=
  VS1.read (Elt F) (VS1.writes (Elt F) VS1.junk (kernelRun1_B c i arg2 harg2 arg3 harg3 arg4 harg4 arg5 harg5 hc0 hc1 x0 x1 xs).1)

theorem sout1_B_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i) (x0 x1 : Vec F S1024x128 .f32) (xs : Vec F S1x1 .f32) :
    sout1_B c i arg2 harg2 arg3 harg3 arg4 harg4 arg5 harg5 hc0 hc1 x0 x1 xs = k1_pay2 x0 x1 xs := by
  unfold sout1_B
  rw [View.read_writes_eq_canon _ _ _ (scover1_B c i arg2 harg2 arg3 harg3 arg4 harg4 arg5 harg5 hc0 hc1 x0 x1 xs)]
  unfold kernelRun1_B; dsimp only
  refine (View.canon_cons_unit_zero (S := S1x1) hz11 _ _ _).trans ?_
  sl_unfold_run_names
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : View.readAt (Elt F) arg5.view (Rect.unit ![0, 0] S1x1.size inb_S1x1_S1x1_0_0).toLoadRect (harg5.unread xs) = xs := by
    rw [View.readAt_eq_ld, harg5.read_unread]; exact View.ld_unit_zero (S := S1x1) hz11 _ xs
  rw [e0, e1, e2]

theorem scover1_C (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x128 .f32) (xs : Vec F S1x1 .f32) (y : S1x1.Idx) :
    ∃ pc ∈ (kernelRun1_C c i arg2 harg2 arg3 harg3 arg4 harg4 arg5 harg5 hc0 hc1 x0 x1 xs).2.1, y ∈ pc.1.set :=
  View.cover_of_tiledL (kernelRun1_C c i arg2 harg2 arg3 harg3 arg4 harg4 arg5 harg5 hc0 hc1 x0 x1 xs).2.1 S1x1.size (by sl_kernel_rfl) y

/-- The accumulator after the last point. -/
def sout1_C (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x128 .f32) (xs : Vec F S1x1 .f32) : Vec F S1x1 .f32 :=
  VS1.read (Elt F) (VS1.writes (Elt F) VS1.junk (kernelRun1_C c i arg2 harg2 arg3 harg3 arg4 harg4 arg5 harg5 hc0 hc1 x0 x1 xs).2.1)

theorem sout1_C_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x128 .f32) (xs : Vec F S1x1 .f32) :
    sout1_C c i arg2 harg2 arg3 harg3 arg4 harg4 arg5 harg5 hc0 hc1 x0 x1 xs = k1_pay2 x0 x1 xs := by
  unfold sout1_C
  rw [View.read_writes_eq_canon _ _ _ (scover1_C c i arg2 harg2 arg3 harg3 arg4 harg4 arg5 harg5 hc0 hc1 x0 x1 xs)]
  unfold kernelRun1_C; dsimp only
  refine (View.canon_cons_unit_zero (S := S1x1) hz11 _ _ _).trans ?_
  sl_unfold_run_names
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : View.readAt (Elt F) arg5.view (Rect.unit ![0, 0] S1x1.size inb_S1x1_S1x1_0_0).toLoadRect (harg5.unread xs) = xs := by
    rw [View.readAt_eq_ld, harg5.read_unread]; exact View.ld_unit_zero (S := S1x1) hz11 _ xs
  rw [e0, e1, e2]

theorem cover1_C (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x128 .f32) (xs : Vec F S1x1 .f32) (y : S1x1.Idx) :
    ∃ pc ∈ (kernelRun1_C c i arg2 harg2 arg3 harg3 arg4 harg4 arg5 harg5 hc0 hc1 x0 x1 xs).1, y ∈ pc.1.set :=
  View.cover_of_tiledL (kernelRun1_C c i arg2 harg2 arg3 harg3 arg4 harg4 arg5 harg5 hc0 hc1 x0 x1 xs).1 S1x1.size (by sl_kernel_rfl) y

/-- The output block after the last point. -/
def out1_C (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x128 .f32) (xs : Vec F S1x1 .f32) : Vec F S1x1 .f32 :=
  VO1.read (Elt F) (VO1.writes (Elt F) VO1.junk (kernelRun1_C c i arg2 harg2 arg3 harg3 arg4 harg4 arg5 harg5 hc0 hc1 x0 x1 xs).1)

theorem out1_C_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x128 .f32) (xs : Vec F S1x1 .f32) :
    out1_C c i arg2 harg2 arg3 harg3 arg4 harg4 arg5 harg5 hc0 hc1 x0 x1 xs = k1_pay2 x0 x1 xs := by
  unfold out1_C
  rw [View.read_writes_eq_canon _ _ _ (cover1_C c i arg2 harg2 arg3 harg3 arg4 harg4 arg5 harg5 hc0 hc1 x0 x1 xs)]
  unfold kernelRun1_C; dsimp only
  refine (View.canon_cons_unit_zero (S := S1x1) hz11 _ _ _).trans ?_
  sl_unfold_run_names
  refine (View.readCov_unit_zero (S := S1x1) arg5.view hz11 inb_S1x1_S1x1_0_0 _).trans ?_
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : View.readAt (Elt F) arg5.view (Rect.unit ![0, 0] S1x1.size inb_S1x1_S1x1_0_0).toLoadRect (harg5.unread xs) = xs := by
    rw [View.readAt_eq_ld, harg5.read_unread]; exact View.ld_unit_zero (S := S1x1) hz11 _ xs
  rw [e0, e1, e2]

end Cert.KernelIdeal.Frm

end
-- ==== Proof.Dat1.lean ====
/-
  Region 1: the proof data of its pipeline and the body obligation. After the body at point n the accumulator
  holds the sum of the tiles 0..n (each tile's sum added in turn, starting from zero at point 0); the two input
  windows' buffers hold their row blocks at every point; the output block is written at the last point only, with the
  accumulator's value. Between points the invariant keeps the accumulator at that value beside the core's other
  scoped buffers, which this region does not touch.
-/
import proofs.«149046_j33449205301987_1_alg».proof.Proof.Outs1

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION: the accumulator after the body at point `n` — the tile's sum added to zero at point 0, to the previous value afterwards. -/
def accAt1 (c : Dev nD) : (n : ℕ) → n < cfg1.N → Vec F S1x1 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩) (accAt1 c n (Nat.lt_of_succ_lt hn))

theorem accAt1_first (c : Dev nD) (t : Fin cfg1.N) (h0 : t.val = 0) :
    accAt1 V c t.val t.isLt = k1_pay2 (iblk1 V c 0 t) (iblk1 V c 1 t) (k1_pay1 (F := F)) := by
  obtain ⟨n, hn⟩ := t
  cases n with
  | zero => rfl
  | succ n => exact absurd h0 (Nat.succ_ne_zero n)

theorem accAt1_next (c : Dev nD) (t : Fin cfg1.N) (h0 : t.val ≠ 0) :
    accAt1 V c t.val t.isLt = k1_pay2 (iblk1 V c 0 t) (iblk1 V c 1 t) (accAt1 V c (t.val - 1) (Nat.lt_of_le_of_lt (Nat.sub_le _ _) t.isLt)) := by
  obtain ⟨n, hn⟩ := t
  cases n with
  | zero => exact absurd rfl h0
  | succ n => rfl

/-- The core's scoped buffers other than this region's staging buffers and accumulator, at some contents each. -/
abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(((∃ d, owns (c : Thread nD τ) scM1 fullShare d) ∗ rest1 (F := F) c) ∗ (∃ r, prngReg c r)) := by
  unfold Pipeline.ΦA; rw [Pipeline.scopedRest_split_of_list spec1 c [cc1_scratch0] (by decide) (by decide)]
  simp only [scM1, owns_whole]; rfl

/-- The region invariant before position `n`: before the first point the accumulator holds anything; afterwards what the point before left. -/
def PhiS1 (c : Dev nD) : (n : ℕ) → n ≤ cfg1.N → sProp 𝕄
  | 0, _ => Pipeline.ΦA spec1 c
  | n + 1, hn => iprop((owns (c : Thread nD τ) scM1 fullShare (accAt1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (accAt1 V c n hn) ∗ rest1 (F := F) c) ∗ (∃ r, prngReg c r)) := rfl
theorem PhiS1_pos (c : Dev nD) (n : ℕ) (h : n ≤ cfg1.N) (hz : n ≠ 0) :
    PhiS1 V c n h = iprop((owns (c : Thread nD τ) scM1 fullShare (accAt1 V c (n - 1) (by omega)) ∗ rest1 (F := F) c) ∗ (∃ r, prngReg c r)) := by
  cases n with
  | zero => exact absurd rfl hz
  | succ n => rfl

/-- The proof data of the region's pipeline on core `c`, from the contents `V` the region finds. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the point is the first, the last or neither, which
    decides the two branches; the invariant hands the body the accumulator at what the point before left (at anything
    at the first point) and takes it back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  have hN : t.val < 64 := lt_of_lt_of_eq t.isLt (show cfg1.N = 64 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [PhiS1_castSucc V c t, PhiS1_zero V c _ _ h0, PhiA1_eq]
    rw [accAt1_first V c t h0]
    rw [← sout1_A_eq c (grid1.coords t) (ms1_0 t) (hs1_0 t) (ms1_1 t) (hs1_1 t) (ms1_2 t) (hs1_2 t) scM1 (Memref.isWhole_whole _) hc0 hc1 (iblk1 V c 0 t) (iblk1 V c 1 t)]
    unfold sout1_A
    iintro ⟨⟨⟨HS, HR⟩, Hg⟩, Ho, ⟨%d0, H0⟩, ⟨%d1, H1⟩, ⟨%d2, H2⟩⟩
    iapply ((kernelRun1_A c (grid1.coords t) (ms1_0 t) (hs1_0 t) (ms1_1 t) (hs1_1 t) (ms1_2 t) (hs1_2 t) scM1 (Memref.isWhole_whole _) hc0 hc1 (iblk1 V c 0 t) (iblk1 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS HR Hg]
    · isplitl [HS HR]
      · isplitl [HS]
        · unfold owns; iexists _; isplitr
          swap; · iexact HS
          ipureintro; exact View.read_writes_of_cover _ _ _ _ _ (scover1_A c (grid1.coords t) (ms1_0 t) (hs1_0 t) (ms1_1 t) (hs1_1 t) (ms1_2 t) (hs1_2 t) scM1 (Memref.isWhole_whole _) hc0 hc1 (iblk1 V c 0 t) (iblk1 V c 1 t))
        iexact HR
      iexact Hg
    isplitl [Ho]; · iexact Ho
    isplitl [H0]; · iexact H0
    isplitl [H1]; · iexact H1
    iexists _; iexact H2
  · have hc0 : ¬cond1_0 (grid1.coords t) := fun h => h0 ((hcond1_0 t).mp h)
    by_cases h1 : t.val = 63
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2]
      rw [PhiS1_castSucc V c t, PhiS1_pos V c _ _ h0]
      rw [accAt1_next V c t h0]
      iintro ⟨⟨⟨HS, HR⟩, Hg⟩, Ho, ⟨%d0, H0⟩, ⟨%d1, H1⟩, ⟨%d2, H2⟩⟩
      iapply ((kernelRun1_C c (grid1.coords t) (ms1_0 t) (hs1_0 t) (ms1_1 t) (hs1_1 t) (ms1_2 t) (hs1_2 t) scM1 (Memref.isWhole_whole _) hc0 hc1 (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro
            exact (View.read_writes_of_cover _ _ _ _ _ (scover1_C c (grid1.coords t) (ms1_0 t) (hs1_0 t) (ms1_1 t) (hs1_1 t) (ms1_2 t) (hs1_2 t) scM1 (Memref.isWhole_whole _) hc0 hc1 (iblk1 V c 0 t) (iblk1 V c 1 t) _)).trans (sout1_C_eq c (grid1.coords t) (ms1_0 t) (hs1_0 t) (ms1_1 t) (hs1_1 t) (ms1_2 t) (hs1_2 t) scM1 (Memref.isWhole_whole _) hc0 hc1 (iblk1 V c 0 t) (iblk1 V c 1 t) _)
          iexact HR
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover1_C c (grid1.coords t) (ms1_0 t) (hs1_0 t) (ms1_1 t) (hs1_1 t) (ms1_2 t) (hs1_2 t) scM1 (Memref.isWhole_whole _) hc0 hc1 (iblk1 V c 0 t) (iblk1 V c 1 t) _)).trans (out1_C_eq c (grid1.coords t) (ms1_0 t) (hs1_0 t) (ms1_1 t) (hs1_1 t) (ms1_2 t) (hs1_2 t) scM1 (Memref.isWhole_whole _) hc0 hc1 (iblk1 V c 0 t) (iblk1 V c 1 t) _)
    · have hc1 : ¬cond1_1 (grid1.coords t) := fun h => h1 ((hcond1_1 t).mp h)
      rw [Dat.leavesExact_idle (dat1 V c) 2 t (idleAt1_2 t hc1) (noFlush1_2 t hc1)]
      rw [PhiS1_castSucc V c t, PhiS1_pos V c _ _ h0]
      rw [accAt1_next V c t h0]
      iintro ⟨⟨⟨HS, HR⟩, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1 (Memref.isWhole_whole _) hc0 hc1 (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro
            exact (View.read_writes_of_cover _ _ _ _ _ (scover1_B c (grid1.coords t) (ms1_0 t) (hs1_0 t) (ms1_1 t) (hs1_1 t) (ms1_2 t) (hs1_2 t) scM1 (Memref.isWhole_whole _) hc0 hc1 (iblk1 V c 0 t) (iblk1 V c 1 t) _)).trans (sout1_B_eq c (grid1.coords t) (ms1_0 t) (hs1_0 t) (ms1_1 t) (hs1_1 t) (ms1_2 t) (hs1_2 t) scM1 (Memref.isWhole_whole _) hc0 hc1 (iblk1 V c 0 t) (iblk1 V c 1 t) _)
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, and after the last point the invariant gives it back. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, HR⟩, Hg⟩
  isplitl [HS HR]
  · isplitl [HS]
    · iexists _; iexact HS
    iexact HR
  iexact Hg

end Cert.KernelIdeal.Frm

end
-- ==== Proof.Edge1.lean ====
/-
  Region 1: how the core's unscoped buffers make the pipeline's arrays at entry and are made of them again at exit.
  Both input windows read the same argument array, so that one buffer, held whole, is dealt to the two windows as the
  two halves of its share at entry and joined again at exit; it is never written. The output array is one [1,1] buffer, whole,
  which the last point's write-back overwrites.
-/
import proofs.«149046_j33449205301987_1_alg».proof.Proof.Dat1
import Idealize.ShloMosaic.Lib.Pipeline.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop(((((c : Thread nD τ).loc main_arg1)) ↦{fullShare} Vc main_arg1) ∗ ((((c : Thread nD τ).loc main_v3)) ↦{fullShare} Vc main_v3)) := by
  unfold Pipeline.arrBufs
  rw [show (Finset.univ.image (Pipeline.arrRef spec1)) = insert main_arg1 {main_v3} from by decide]
  rw [BI.bigSep_insert (by decide), BI.bigSep_singleton]
  rfl

/-- The pipeline's arrays, window by window, each a whole buffer at its share. -/
theorem arrays1_eq (c : Dev nD) (G : (w : Fin cfg1.W) → Buf (Elt F) ((cfg1.win w).arr.view.loc (c.tc : Thread nD τ))) :
    ((dat1 V c).arrays G : sProp 𝕄)
      = iprop(((((c : Thread nD τ).loc main_arg1)) ↦{fullShare.left} G 0) ∗ ((((c : Thread nD τ).loc main_arg1)) ↦{fullShare.right} G 1) ∗ ((((c : Thread nD τ).loc main_v3)) ↦{fullShare} G 2)) := by
  unfold Dat.arrays; rw [bigSep_W1]
  rw [(arr_whole1 0).set_eq_univ]
  try rw [(arr_whole1 1).set_eq_univ]
  rw [(arr_whole1 2).set_eq_univ]
  rfl

/-- ENTRY: the unscoped buffers at `V` are the arrays at the proof data's entry contents and the rest. -/
theorem enter1 (c : Dev nD) :
    (unscopedBufs c (V c) : sProp 𝕄) ⊢ iprop((dat1 V c).arrays ((dat1 V c).arrAt · 0) ∗ Pipeline.unscopedRest spec1 c (V c)) := by
  rw [show (unscopedBufs c (V c) : sProp 𝕄) = iprop(Pipeline.arrBufs spec1 c (V c) ∗ Pipeline.unscopedRest spec1 c (V c)) from Pipeline.unscopedBufs_split₀ cfgs 1 (by decide) c (V c), arrBufs1_eq, arrays1_eq]
  show iprop(_ ∗ Pipeline.unscopedRest spec1 c (V c)) ⊢ iprop((((((c : Thread nD τ).loc main_arg1)) ↦{fullShare.left} V c main_arg1) ∗ ((((c : Thread nD τ).loc main_arg1)) ↦{fullShare.right} V c main_arg1) ∗ ((((c : Thread nD τ).loc main_v3)) ↦{fullShare} V c main_v3)) ∗ _)
  iintro ⟨⟨HA, HO⟩, HR⟩
  ihave HA' := (pointsTo_share (PosShare.mem_left_op_right fullShare)).1 $$ HA
  icases HA' with ⟨HL, HRt⟩
  isplitr [HR]
  · isplitl [HL]; · iexact HL
    isplitl [HRt]; · iexact HRt
    iexact HO
  iexact HR

/-- EXIT: the arrays at their final contents and the rest at `V` are the unscoped buffers at any valuation that has
    the output array at its final contents and agrees with `V` elsewhere. -/
theorem exit1 (c : Dev nD) (V' : (b : Ref sig .tc) → Buf (Elt F) ((c : Thread nD τ).loc b))
    (hO : V' main_v3 = (dat1 V c).arrAt 2 cfg1.N) (hrest : ∀ b : Ref sig .tc, b ≠ main_v3 → V' b = V c b) :
    iprop((dat1 V c).arrays ((dat1 V c).arrAt · cfg1.N) ∗ Pipeline.unscopedRest spec1 c (V c)) ⊢ (unscopedBufs c V' : sProp 𝕄) := by
  rw [show (unscopedBufs c V' : sProp 𝕄) = iprop(Pipeline.arrBufs spec1 c V' ∗ Pipeline.unscopedRest spec1 c V') from Pipeline.unscopedBufs_split₀ cfgs 1 (by decide) c V', arrBufs1_eq, arrays1_eq]
  have e0 : (dat1 V c).arrAt 0 cfg1.N = V' main_arg1 := ((dat1 V c).arrAt_in 0 rfl _).trans ((A_eq1 V c 0).trans (hrest main_arg1 (by decide)).symm)
  have e1 : (dat1 V c).arrAt 1 cfg1.N = V' main_arg1 := ((dat1 V c).arrAt_in 1 rfl _).trans ((A_eq1 V c 1).trans (hrest main_arg1 (by decide)).symm)
  have er : (Pipeline.unscopedRest (Ix := Unit) (Name := ℕ) (U := UR sig nD τ) (Lvl := ℕ) spec1 c (V c) : sProp 𝕄) = Pipeline.unscopedRest spec1 c V' := by
    unfold Pipeline.unscopedRest
    refine BI.bigSep_congr fun b hb => ?_
    rw [hrest b (fun e => (Finset.mem_sdiff.mp hb).2 (Finset.mem_image.mpr ⟨2, Finset.mem_univ _, e ▸ rfl⟩))]
  rw [er]
  show iprop((((((c : Thread nD τ).loc main_arg1)) ↦{fullShare.left} (dat1 V c).arrAt 0 cfg1.N) ∗ ((((c : Thread nD τ).loc main_arg1)) ↦{fullShare.right} (dat1 V c).arrAt 1 cfg1.N) ∗ ((((c : Thread nD τ).loc main_v3)) ↦{fullShare} (dat1 V c).arrAt 2 cfg1.N)) ∗ _) ⊢ _
  rw [e0, e1, ← hO]
  iintro ⟨⟨HL, HRt, HO⟩, HR⟩
  isplitr [HR]
  · isplitr [HO]
    · iapply (pointsTo_share (PosShare.mem_left_op_right fullShare)).2
      isplitl [HL]; · iexact HL
      iexact HRt
    iexact HO
  iexact HR

end Cert.KernelIdeal.Frm

end
-- ==== Proof.Conds2.lean ====
/-
  Region 2 of the program: the two branch conditions of the tile body read off the grid point, where the output
  window is idle, and the body run once per control case. The grid is 8 x 8, walked row-major as 64 points; the first
  branch (the accumulator is zeroed) is taken at point 0 only, the second (the accumulator is copied to the output
  block) at point 63 only; at every point the body adds the tile's sum to the accumulator.
-/
import proofs.«149046_j33449205301987_1_alg».proof.Proof.Gen.KernelIdeal.Launch
import proofs.«149046_j33449205301987_1_alg».proof.Proof.Gen.KernelIdeal.Skeleton
import proofs.«149046_j33449205301987_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition at a grid point: both coordinates are zero. -/
abbrev cond2_0 (i : grid2.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond2_0 : ∀ t : Fin cfg2.N, cond2_0 (grid2.coords t) ↔ t.val = 0 :=
  (by decide +kernel : ∀ t : Fin grid2.N, cond2_0 (grid2.coords t) ↔ t.val = 0)

/-- The second branch's condition: both coordinates are the last. -/
abbrev cond2_1 (i : grid2.Coords) : Prop := k2_cond2 i = 1#1
theorem hcond2_1 : ∀ t : Fin cfg2.N, cond2_1 (grid2.coords t) ↔ t.val = 63 :=
  (by decide +kernel : ∀ t : Fin grid2.N, cond2_1 (grid2.coords t) ↔ t.val = 63)

/-- The input windows are never idle; the output window is idle at every point but the last, where it is written back. -/
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-- The staging memrefs the body is called with at point `t`, the accumulator's memref, and the views their contents are read through. -/
abbrev ms2_0 (t : Fin cfg2.N) : Memref sig .tc .vmem S1024x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
abbrev scM2 : Memref sig .tc .vmem S1x1 .f32 := Memref.whole cc2_scratch0
abbrev VS2 : View sig .tc .vmem S1x1 .f32 := (scM2).view
abbrev VO2 : View sig .tc .vmem S1x1 .f32 := (Memref.whole cc2_stg2_0 : Memref sig .tc .vmem S1x1 .f32).view

end Cert.KernelIdeal.Frm

end
-- ==== Proof.RunA2.lean ====
/-
  Region 2, the tile body run in one control case: on whole staging buffers holding the two row blocks, and the
  accumulator, the body terminates and hands back the row blocks untouched and the accumulator (and, at the last point,
  the output block) with the stored values written.
-/
import proofs.«149046_j33449205301987_1_alg».proof.Proof.Conds2

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point: the accumulator, whatever it held, is zeroed and the tile's sum added; the output block is left alone. -/
noncomputable def kernelRun2_A (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond2_0 i) (hc1 : ¬cond2_1 i)
    (x0 x1 : Vec F S1024x128 .f32) :
    { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc2__kmean_kernel i arg2 harg2 arg3 harg3 arg4 harg4 arg5 harg5) K } := by
  refine ⟨?_, fun xi E K => ?run⟩
  case run =>
    simp only [cc2__kmean_kernel_eq_skeleton]; unfold cc2__kmean_kernel_skel
    simp only [k2_part1_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Frm

end
-- ==== Proof.RunB2.lean ====
/-
  Region 2, the tile body run in one control case: on whole staging buffers holding the two row blocks, and the
  accumulator, the body terminates and hands back the row blocks untouched and the accumulator (and, at the last point,
  the output block) with the stored values written.
-/
import proofs.«149046_j33449205301987_1_alg».proof.Proof.Conds2

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle point: the tile's sum is added to what the accumulator held; the output block is left alone. -/
noncomputable def kernelRun2_B (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : ¬cond2_1 i)
    (x0 x1 : Vec F S1024x128 .f32) (xs : Vec F S1x1 .f32) :
    { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc2__kmean_kernel i arg2 harg2 arg3 harg3 arg4 harg4 arg5 harg5) K } := by
  refine ⟨?_, fun xi E K => ?run⟩
  case run =>
    simp only [cc2__kmean_kernel_eq_skeleton]; unfold cc2__kmean_kernel_skel
    simp only [k2_part1_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Frm

end
-- ==== Proof.RunC2.lean ====
/-
  Region 2, the tile body run in one control case: on whole staging buffers holding the two row blocks, and the
  accumulator, the body terminates and hands back the row blocks untouched and the accumulator (and, at the last point,
  the output block) with the stored values written.
-/
import proofs.«149046_j33449205301987_1_alg».proof.Proof.Conds2

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last point: the tile's sum is added to what the accumulator held, and the accumulator is copied to the output block. -/
noncomputable def kernelRun2_C (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i)
    (x0 x1 : Vec F S1024x128 .f32) (xs : Vec F S1x1 .f32) :
    Σ' (L2 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc2__kmean_kernel i arg2 harg2 arg3 harg3 arg4 harg4 arg5 harg5) K } := by
  refine ⟨?_, ?_, fun E K => ?run⟩
  case run =>
    simp only [cc2__kmean_kernel_eq_skeleton]; unfold cc2__kmean_kernel_skel
    simp only [k2_part1_eq_skeleton]
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Frm

end
-- ==== Proof.Outs2.lean ====
/-
  Region 2: what each control case of the tile body leaves in the accumulator and in the output block, as values.
  Every store of the body writes a whole [1,1] block, so the stored pieces cover it and the contents read back are
  the last stored value: at the first point the tile's sum added to zero, at a later point the tile's sum added to
  what the accumulator held, and at the last point the output block holds that same sum.
-/
import proofs.«149046_j33449205301987_1_alg».proof.Proof.RunA2
import proofs.«149046_j33449205301987_1_alg».proof.Proof.RunB2
import proofs.«149046_j33449205301987_1_alg».proof.Proof.RunC2
import proofs.«149046_j33449205301987_1_alg».proof.Proof.Outs0
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover2_A (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond2_0 i) (hc1 : ¬cond2_1 i) (x0 x1 : Vec F S1024x128 .f32) (y : S1x1.Idx) :
    ∃ pc ∈ (kernelRun2_A c i arg2 harg2 arg3 harg3 arg4 harg4 arg5 harg5 hc0 hc1 x0 x1).1, y ∈ pc.1.set :=
  View.cover_of_tiledL (kernelRun2_A c i arg2 harg2 arg3 harg3 arg4 harg4 arg5 harg5 hc0 hc1 x0 x1).1 S1x1.size (by sl_kernel_rfl) y

/-- The accumulator after the first point. -/
def sout2_A (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond2_0 i) (hc1 : ¬cond2_1 i) (x0 x1 : Vec F S1024x128 .f32) : Vec F S1x1 .f32 :=
  VS2.read (Elt F) (VS2.writes (Elt F) VS2.junk (kernelRun2_A c i arg2 harg2 arg3 harg3 arg4 harg4 arg5 harg5 hc0 hc1 x0 x1).1)

theorem sout2_A_eq (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond2_0 i) (hc1 : ¬cond2_1 i) (x0 x1 : Vec F S1024x128 .f32) :
    sout2_A c i arg2 harg2 arg3 harg3 arg4 harg4 arg5 harg5 hc0 hc1 x0 x1 = k2_pay2 x0 x1 (k2_pay1 (F := F)) := by
  unfold sout2_A
  rw [View.read_writes_eq_canon _ _ _ (scover2_A c i arg2 harg2 arg3 harg3 arg4 harg4 arg5 harg5 hc0 hc1 x0 x1)]
  unfold kernelRun2_A; dsimp only
  refine (View.canon_cons_unit_zero (S := S1x1) hz11 _ _ _).trans ?_
  sl_unfold_run_names
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : arg5.view.readCov [(⟨Rect.unit ![0, 0] S1x1.size inb_S1x1_S1x1_0_0, k2_pay1 (F := F)⟩ : View.Piece (Elt F) S1x1 .f32)] (Rect.unit ![0, 0] S1x1.size inb_S1x1_S1x1_0_0).toLoadRect = k2_pay1 (F := F) :=
    View.readCov_unit_zero (S := S1x1) arg5.view hz11 inb_S1x1_S1x1_0_0 _
  rw [e0, e1, e2]

theorem scover2_B (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : ¬cond2_1 i) (x0 x1 : Vec F S1024x128 .f32) (xs : Vec F S1x1 .f32) (y : S1x1.Idx) :
    ∃ pc ∈ (kernelRun2_B c i arg2 harg2 arg3 harg3 arg4 harg4 arg5 harg5 hc0 hc1 x0 x1 xs).1, y ∈ pc.1.set :=
  View.cover_of_tiledL (kernelRun2_B c i arg2 harg2 arg3 harg3 arg4 harg4 arg5 harg5 hc0 hc1 x0 x1 xs).1 S1x1.size (by sl_kernel_rfl) y

/-- The accumulator after a middle point. -/
def sout2_B (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : ¬cond2_1 i) (x0 x1 : Vec F S1024x128 .f32) (xs : Vec F S1x1 .f32) : Vec F S1x1 .f32 :=
  VS2.read (Elt F) (VS2.writes (Elt F) VS2.junk (kernelRun2_B c i arg2 harg2 arg3 harg3 arg4 harg4 arg5 harg5 hc0 hc1 x0 x1 xs).1)

theorem sout2_B_eq (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : ¬cond2_1 i) (x0 x1 : Vec F S1024x128 .f32) (xs : Vec F S1x1 .f32) :
    sout2_B c i arg2 harg2 arg3 harg3 arg4 harg4 arg5 harg5 hc0 hc1 x0 x1 xs = k2_pay2 x0 x1 xs := by
  unfold sout2_B
  rw [View.read_writes_eq_canon _ _ _ (scover2_B c i arg2 harg2 arg3 harg3 arg4 harg4 arg5 harg5 hc0 hc1 x0 x1 xs)]
  unfold kernelRun2_B; dsimp only
  refine (View.canon_cons_unit_zero (S := S1x1) hz11 _ _ _).trans ?_
  sl_unfold_run_names
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : View.readAt (Elt F) arg5.view (Rect.unit ![0, 0] S1x1.size inb_S1x1_S1x1_0_0).toLoadRect (harg5.unread xs) = xs := by
    rw [View.readAt_eq_ld, harg5.read_unread]; exact View.ld_unit_zero (S := S1x1) hz11 _ xs
  rw [e0, e1, e2]

theorem scover2_C (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 x1 : Vec F S1024x128 .f32) (xs : Vec F S1x1 .f32) (y : S1x1.Idx) :
    ∃ pc ∈ (kernelRun2_C c i arg2 harg2 arg3 harg3 arg4 harg4 arg5 harg5 hc0 hc1 x0 x1 xs).2.1, y ∈ pc.1.set :=
  View.cover_of_tiledL (kernelRun2_C c i arg2 harg2 arg3 harg3 arg4 harg4 arg5 harg5 hc0 hc1 x0 x1 xs).2.1 S1x1.size (by sl_kernel_rfl) y

/-- The accumulator after the last point. -/
def sout2_C (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 x1 : Vec F S1024x128 .f32) (xs : Vec F S1x1 .f32) : Vec F S1x1 .f32 :=
  VS2.read (Elt F) (VS2.writes (Elt F) VS2.junk (kernelRun2_C c i arg2 harg2 arg3 harg3 arg4 harg4 arg5 harg5 hc0 hc1 x0 x1 xs).2.1)

theorem sout2_C_eq (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 x1 : Vec F S1024x128 .f32) (xs : Vec F S1x1 .f32) :
    sout2_C c i arg2 harg2 arg3 harg3 arg4 harg4 arg5 harg5 hc0 hc1 x0 x1 xs = k2_pay2 x0 x1 xs := by
  unfold sout2_C
  rw [View.read_writes_eq_canon _ _ _ (scover2_C c i arg2 harg2 arg3 harg3 arg4 harg4 arg5 harg5 hc0 hc1 x0 x1 xs)]
  unfold kernelRun2_C; dsimp only
  refine (View.canon_cons_unit_zero (S := S1x1) hz11 _ _ _).trans ?_
  sl_unfold_run_names
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : View.readAt (Elt F) arg5.view (Rect.unit ![0, 0] S1x1.size inb_S1x1_S1x1_0_0).toLoadRect (harg5.unread xs) = xs := by
    rw [View.readAt_eq_ld, harg5.read_unread]; exact View.ld_unit_zero (S := S1x1) hz11 _ xs
  rw [e0, e1, e2]

theorem cover2_C (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 x1 : Vec F S1024x128 .f32) (xs : Vec F S1x1 .f32) (y : S1x1.Idx) :
    ∃ pc ∈ (kernelRun2_C c i arg2 harg2 arg3 harg3 arg4 harg4 arg5 harg5 hc0 hc1 x0 x1 xs).1, y ∈ pc.1.set :=
  View.cover_of_tiledL (kernelRun2_C c i arg2 harg2 arg3 harg3 arg4 harg4 arg5 harg5 hc0 hc1 x0 x1 xs).1 S1x1.size (by sl_kernel_rfl) y

/-- The output block after the last point. -/
def out2_C (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 x1 : Vec F S1024x128 .f32) (xs : Vec F S1x1 .f32) : Vec F S1x1 .f32 :=
  VO2.read (Elt F) (VO2.writes (Elt F) VO2.junk (kernelRun2_C c i arg2 harg2 arg3 harg3 arg4 harg4 arg5 harg5 hc0 hc1 x0 x1 xs).1)

theorem out2_C_eq (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 x1 : Vec F S1024x128 .f32) (xs : Vec F S1x1 .f32) :
    out2_C c i arg2 harg2 arg3 harg3 arg4 harg4 arg5 harg5 hc0 hc1 x0 x1 xs = k2_pay2 x0 x1 xs := by
  unfold out2_C
  rw [View.read_writes_eq_canon _ _ _ (cover2_C c i arg2 harg2 arg3 harg3 arg4 harg4 arg5 harg5 hc0 hc1 x0 x1 xs)]
  unfold kernelRun2_C; dsimp only
  refine (View.canon_cons_unit_zero (S := S1x1) hz11 _ _ _).trans ?_
  sl_unfold_run_names
  refine (View.readCov_unit_zero (S := S1x1) arg5.view hz11 inb_S1x1_S1x1_0_0 _).trans ?_
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : View.readAt (Elt F) arg5.view (Rect.unit ![0, 0] S1x1.size inb_S1x1_S1x1_0_0).toLoadRect (harg5.unread xs) = xs := by
    rw [View.readAt_eq_ld, harg5.read_unread]; exact View.ld_unit_zero (S := S1x1) hz11 _ xs
  rw [e0, e1, e2]

end Cert.KernelIdeal.Frm

end
-- ==== Proof.Dat2.lean ====
/-
  Region 2: the proof data of its pipeline and the body obligation. After the body at point n the accumulator
  holds the sum of the tiles 0..n (each tile's sum added in turn, starting from zero at point 0); the two input
  windows' buffers hold their row blocks at every point; the output block is written at the last point only, with the
  accumulator's value. Between points the invariant keeps the accumulator at that value beside the core's other
  scoped buffers, which this region does not touch.
-/
import proofs.«149046_j33449205301987_1_alg».proof.Proof.Outs2

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- THE ACCUMULATION: the accumulator after the body at point `n` — the tile's sum added to zero at point 0, to the previous value afterwards. -/
def accAt2 (c : Dev nD) : (n : ℕ) → n < cfg2.N → Vec F S1x1 .f32
  | 0, hn => k2_pay2 (iblk2 V c 0 ⟨0, hn⟩) (iblk2 V c 1 ⟨0, hn⟩) (k2_pay1 (F := F))
  | n + 1, hn => k2_pay2 (iblk2 V c 0 ⟨n + 1, hn⟩) (iblk2 V c 1 ⟨n + 1, hn⟩) (accAt2 c n (Nat.lt_of_succ_lt hn))

theorem accAt2_first (c : Dev nD) (t : Fin cfg2.N) (h0 : t.val = 0) :
    accAt2 V c t.val t.isLt = k2_pay2 (iblk2 V c 0 t) (iblk2 V c 1 t) (k2_pay1 (F := F)) := by
  obtain ⟨n, hn⟩ := t
  cases n with
  | zero => rfl
  | succ n => exact absurd h0 (Nat.succ_ne_zero n)

theorem accAt2_next (c : Dev nD) (t : Fin cfg2.N) (h0 : t.val ≠ 0) :
    accAt2 V c t.val t.isLt = k2_pay2 (iblk2 V c 0 t) (iblk2 V c 1 t) (accAt2 V c (t.val - 1) (Nat.lt_of_le_of_lt (Nat.sub_le _ _) t.isLt)) := by
  obtain ⟨n, hn⟩ := t
  cases n with
  | zero => exact absurd rfl h0
  | succ n => rfl

/-- The core's scoped buffers other than this region's staging buffers and accumulator, at some contents each. -/
abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(((∃ d, owns (c : Thread nD τ) scM2 fullShare d) ∗ rest2 (F := F) c) ∗ (∃ r, prngReg c r)) := by
  unfold Pipeline.ΦA; rw [Pipeline.scopedRest_split_of_list spec2 c [cc2_scratch0] (by decide) (by decide)]
  simp only [scM2, owns_whole]; rfl

/-- The region invariant before position `n`: before the first point the accumulator holds anything; afterwards what the point before left. -/
def PhiS2 (c : Dev nD) : (n : ℕ) → n ≤ cfg2.N → sProp 𝕄
  | 0, _ => Pipeline.ΦA spec2 c
  | n + 1, hn => iprop((owns (c : Thread nD τ) scM2 fullShare (accAt2 V c n hn) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((owns (c : Thread nD τ) scM2 fullShare (accAt2 V c n hn) ∗ rest2 (F := F) c) ∗ (∃ r, prngReg c r)) := rfl
theorem PhiS2_pos (c : Dev nD) (n : ℕ) (h : n ≤ cfg2.N) (hz : n ≠ 0) :
    PhiS2 V c n h = iprop((owns (c : Thread nD τ) scM2 fullShare (accAt2 V c (n - 1) (by omega)) ∗ rest2 (F := F) c) ∗ (∃ r, prngReg c r)) := by
  cases n with
  | zero => exact absurd rfl hz
  | succ n => rfl

/-- The proof data of the region's pipeline on core `c`, from the contents `V` the region finds. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = accAt2 V c t.val t.isLt := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their blocks; the point is the first, the last or neither, which
    decides the two branches; the invariant hands the body the accumulator at what the point before left (at anything
    at the first point) and takes it back at this point's value. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  have hN : t.val < 64 := lt_of_lt_of_eq t.isLt (show cfg2.N = 64 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 2 t (idleAt2_2 t hc1) (noFlush2_2 t hc1)]
    rw [PhiS2_castSucc V c t, PhiS2_zero V c _ _ h0, PhiA2_eq]
    rw [accAt2_first V c t h0]
    rw [← sout2_A_eq c (grid2.coords t) (ms2_0 t) (hs2_0 t) (ms2_1 t) (hs2_1 t) (ms2_2 t) (hs2_2 t) scM2 (Memref.isWhole_whole _) hc0 hc1 (iblk2 V c 0 t) (iblk2 V c 1 t)]
    unfold sout2_A
    iintro ⟨⟨⟨HS, HR⟩, Hg⟩, Ho, ⟨%d0, H0⟩, ⟨%d1, H1⟩, ⟨%d2, H2⟩⟩
    iapply ((kernelRun2_A c (grid2.coords t) (ms2_0 t) (hs2_0 t) (ms2_1 t) (hs2_1 t) (ms2_2 t) (hs2_2 t) scM2 (Memref.isWhole_whole _) hc0 hc1 (iblk2 V c 0 t) (iblk2 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS HR Hg]
    · isplitl [HS HR]
      · isplitl [HS]
        · unfold owns; iexists _; isplitr
          swap; · iexact HS
          ipureintro; exact View.read_writes_of_cover _ _ _ _ _ (scover2_A c (grid2.coords t) (ms2_0 t) (hs2_0 t) (ms2_1 t) (hs2_1 t) (ms2_2 t) (hs2_2 t) scM2 (Memref.isWhole_whole _) hc0 hc1 (iblk2 V c 0 t) (iblk2 V c 1 t))
        iexact HR
      iexact Hg
    isplitl [Ho]; · iexact Ho
    isplitl [H0]; · iexact H0
    isplitl [H1]; · iexact H1
    iexists _; iexact H2
  · have hc0 : ¬cond2_0 (grid2.coords t) := fun h => h0 ((hcond2_0 t).mp h)
    by_cases h1 : t.val = 63
    · have hc1 : cond2_1 (grid2.coords t) := (hcond2_1 t).mpr h1
      rw [show (dat2 V c).leavesExact 2 t = owns (c : Thread nD τ) (ms2_2 t) fullShare ((dat2 V c).after 2 t) from by
        unfold Dat.leavesExact; rw [liveAt2_2 t hc1], after2_2]
      rw [PhiS2_castSucc V c t, PhiS2_pos V c _ _ h0]
      rw [accAt2_next V c t h0]
      iintro ⟨⟨⟨HS, HR⟩, Hg⟩, Ho, ⟨%d0, H0⟩, ⟨%d1, H1⟩, ⟨%d2, H2⟩⟩
      iapply ((kernelRun2_C c (grid2.coords t) (ms2_0 t) (hs2_0 t) (ms2_1 t) (hs2_1 t) (ms2_2 t) (hs2_2 t) scM2 (Memref.isWhole_whole _) hc0 hc1 (iblk2 V c 0 t) (iblk2 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro
            exact (View.read_writes_of_cover _ _ _ _ _ (scover2_C c (grid2.coords t) (ms2_0 t) (hs2_0 t) (ms2_1 t) (hs2_1 t) (ms2_2 t) (hs2_2 t) scM2 (Memref.isWhole_whole _) hc0 hc1 (iblk2 V c 0 t) (iblk2 V c 1 t) _)).trans (sout2_C_eq c (grid2.coords t) (ms2_0 t) (hs2_0 t) (ms2_1 t) (hs2_1 t) (ms2_2 t) (hs2_2 t) scM2 (Memref.isWhole_whole _) hc0 hc1 (iblk2 V c 0 t) (iblk2 V c 1 t) _)
          iexact HR
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover2_C c (grid2.coords t) (ms2_0 t) (hs2_0 t) (ms2_1 t) (hs2_1 t) (ms2_2 t) (hs2_2 t) scM2 (Memref.isWhole_whole _) hc0 hc1 (iblk2 V c 0 t) (iblk2 V c 1 t) _)).trans (out2_C_eq c (grid2.coords t) (ms2_0 t) (hs2_0 t) (ms2_1 t) (hs2_1 t) (ms2_2 t) (hs2_2 t) scM2 (Memref.isWhole_whole _) hc0 hc1 (iblk2 V c 0 t) (iblk2 V c 1 t) _)
    · have hc1 : ¬cond2_1 (grid2.coords t) := fun h => h1 ((hcond2_1 t).mp h)
      rw [Dat.leavesExact_idle (dat2 V c) 2 t (idleAt2_2 t hc1) (noFlush2_2 t hc1)]
      rw [PhiS2_castSucc V c t, PhiS2_pos V c _ _ h0]
      rw [accAt2_next V c t h0]
      iintro ⟨⟨⟨HS, HR⟩, Hg⟩, Ho, ⟨%d0, H0⟩, ⟨%d1, H1⟩, ⟨%d2, H2⟩⟩
      iapply ((kernelRun2_B c (grid2.coords t) (ms2_0 t) (hs2_0 t) (ms2_1 t) (hs2_1 t) (ms2_2 t) (hs2_2 t) scM2 (Memref.isWhole_whole _) hc0 hc1 (iblk2 V c 0 t) (iblk2 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro
            exact (View.read_writes_of_cover _ _ _ _ _ (scover2_B c (grid2.coords t) (ms2_0 t) (hs2_0 t) (ms2_1 t) (hs2_1 t) (ms2_2 t) (hs2_2 t) scM2 (Memref.isWhole_whole _) hc0 hc1 (iblk2 V c 0 t) (iblk2 V c 1 t) _)).trans (sout2_B_eq c (grid2.coords t) (ms2_0 t) (hs2_0 t) (ms2_1 t) (hs2_1 t) (ms2_2 t) (hs2_2 t) scM2 (Memref.isWhole_whole _) hc0 hc1 (iblk2 V c 0 t) (iblk2 V c 1 t) _)
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, and after the last point the invariant gives it back. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨HS, HR⟩, Hg⟩
  isplitl [HS HR]
  · isplitl [HS]
    · iexists _; iexact HS
    iexact HR
  iexact Hg

end Cert.KernelIdeal.Frm

end
-- ==== Proof.Edge2.lean ====
/-
  Region 2: how the core's unscoped buffers make the pipeline's arrays at entry and are made of them again at exit.
  The two input windows read the two argument arrays, which are never written. The output array is one [1,1] buffer, whole,
  which the last point's write-back overwrites.
-/
import proofs.«149046_j33449205301987_1_alg».proof.Proof.Dat2
import Idealize.ShloMosaic.Lib.Pipeline.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs2_eq (c : Dev nD) (Vc : (b : Ref sig .tc) → Buf (Elt F) ((c : Thread nD τ).loc b)) :
    (Pipeline.arrBufs (Ix := Unit) (Name := ℕ) (U := UR sig nD τ) (Lvl := ℕ) spec2 c Vc : sProp 𝕄)
      = iprop(((((c : Thread nD τ).loc main_arg0)) ↦{fullShare} Vc main_arg0) ∗ ((((c : Thread nD τ).loc main_arg1)) ↦{fullShare} Vc main_arg1) ∗ ((((c : Thread nD τ).loc main_v6)) ↦{fullShare} Vc main_v6)) := by
  unfold Pipeline.arrBufs
  rw [show (Finset.univ.image (Pipeline.arrRef spec2)) = insert main_arg0 (insert main_arg1 {main_v6}) from by decide]
  rw [BI.bigSep_insert (by decide), BI.bigSep_insert (by decide), BI.bigSep_singleton]
  rfl

/-- The pipeline's arrays, window by window, each a whole buffer at its share. -/
theorem arrays2_eq (c : Dev nD) (G : (w : Fin cfg2.W) → Buf (Elt F) ((cfg2.win w).arr.view.loc (c.tc : Thread nD τ))) :
    ((dat2 V c).arrays G : sProp 𝕄)
      = iprop(((((c : Thread nD τ).loc main_arg0)) ↦{fullShare} G 0) ∗ ((((c : Thread nD τ).loc main_arg1)) ↦{fullShare} G 1) ∗ ((((c : Thread nD τ).loc main_v6)) ↦{fullShare} G 2)) := by
  unfold Dat.arrays; rw [bigSep_W2]
  rw [(arr_whole2 0).set_eq_univ]
  try rw [(arr_whole2 1).set_eq_univ]
  rw [(arr_whole2 2).set_eq_univ]
  rfl

/-- ENTRY: the unscoped buffers at `V` are the arrays at the proof data's entry contents and the rest. -/
theorem enter2 (c : Dev nD) :
    (unscopedBufs c (V c) : sProp 𝕄) ⊢ iprop((dat2 V c).arrays ((dat2 V c).arrAt · 0) ∗ Pipeline.unscopedRest spec2 c (V c)) := by
  rw [show (unscopedBufs c (V c) : sProp 𝕄) = iprop(Pipeline.arrBufs spec2 c (V c) ∗ Pipeline.unscopedRest spec2 c (V c)) from Pipeline.unscopedBufs_split₀ cfgs 2 (by decide) c (V c), arrBufs2_eq, arrays2_eq]
  show iprop(_ ∗ Pipeline.unscopedRest spec2 c (V c)) ⊢ iprop((((((c : Thread nD τ).loc main_arg0)) ↦{fullShare} V c main_arg0) ∗ ((((c : Thread nD τ).loc main_arg1)) ↦{fullShare} V c main_arg1) ∗ ((((c : Thread nD τ).loc main_v6)) ↦{fullShare} V c main_v6)) ∗ _)
  iintro ⟨⟨HA, HB, HO⟩, HR⟩
  isplitr [HR]
  · isplitl [HA]; · iexact HA
    isplitl [HB]; · iexact HB
    iexact HO
  iexact HR

/-- EXIT: the arrays at their final contents and the rest at `V` are the unscoped buffers at any valuation that has
    the output array at its final contents and agrees with `V` elsewhere. -/
theorem exit2 (c : Dev nD) (V' : (b : Ref sig .tc) → Buf (Elt F) ((c : Thread nD τ).loc b))
    (hO : V' main_v6 = (dat2 V c).arrAt 2 cfg2.N) (hrest : ∀ b : Ref sig .tc, b ≠ main_v6 → V' b = V c b) :
    iprop((dat2 V c).arrays ((dat2 V c).arrAt · cfg2.N) ∗ Pipeline.unscopedRest spec2 c (V c)) ⊢ (unscopedBufs c V' : sProp 𝕄) := by
  rw [show (unscopedBufs c V' : sProp 𝕄) = iprop(Pipeline.arrBufs spec2 c V' ∗ Pipeline.unscopedRest spec2 c V') from Pipeline.unscopedBufs_split₀ cfgs 2 (by decide) c V', arrBufs2_eq, arrays2_eq]
  have e0 : (dat2 V c).arrAt 0 cfg2.N = V' main_arg0 := ((dat2 V c).arrAt_in 0 rfl _).trans ((A_eq2 V c 0).trans (hrest main_arg0 (by decide)).symm)
  have e1 : (dat2 V c).arrAt 1 cfg2.N = V' main_arg1 := ((dat2 V c).arrAt_in 1 rfl _).trans ((A_eq2 V c 1).trans (hrest main_arg1 (by decide)).symm)
  have er : (Pipeline.unscopedRest (Ix := Unit) (Name := ℕ) (U := UR sig nD τ) (Lvl := ℕ) spec2 c (V c) : sProp 𝕄) = Pipeline.unscopedRest spec2 c V' := by
    unfold Pipeline.unscopedRest
    refine BI.bigSep_congr fun b hb => ?_
    rw [hrest b (fun e => (Finset.mem_sdiff.mp hb).2 (Finset.mem_image.mpr ⟨2, Finset.mem_univ _, e ▸ rfl⟩))]
  rw [er]
  show iprop((((((c : Thread nD τ).loc main_arg0)) ↦{fullShare} (dat2 V c).arrAt 0 cfg2.N) ∗ ((((c : Thread nD τ).loc main_arg1)) ↦{fullShare} (dat2 V c).arrAt 1 cfg2.N) ∗ ((((c : Thread nD τ).loc main_v6)) ↦{fullShare} (dat2 V c).arrAt 2 cfg2.N)) ∗ _) ⊢ _
  rw [e0, e1, ← hO]

end Cert.KernelIdeal.Frm

end
-- ==== Proof.Assemble.lean ====
/-
  The whole run of @main assembled from its three kernel regions, with the result buffer read off at the end.

  @main is six items in a row: region 0, a host stretch, region 1, a host stretch, region 2, a last host stretch.
  Between two items each core holds all its unscoped buffers whole at a VALUATION; the chain of valuations is
    W0  the launch contents,
    W1  W0 with the first region's output array `main_v0` replaced by what that region leaves there (`o1`),
    W2  W1 after the first host stretch (reshape the 1×1 array to a scalar, divide by the constant),
    W3  W2 with `main_v3` replaced by what the second region leaves (`o3`),
    W4  W3 after the second host stretch (the same two operations),
    W5  W4 with `main_v6` replaced by what the third region leaves (`o5`),
    W6  W5 after the last host stretch (reshape, divide, double, subtract, add, square root).
  A host stretch changes only the references its operations write, and a region only its output array; neither
  argument is among them, so both arguments hold their launch contents at W6. The result `main_v12` at W6 is the
  closing scalar arithmetic `tailF` of the three regions' outputs, each read as a scalar (`rs`): the last stretch
  reads `main_v2` and `main_v5`, which nothing after the first two stretches writes.

  `run_cond`: given, for each region, a segment record entered from the valuation before it and left at the one after
  it, every weakly fair execution of @main from memory `m` terminates, and the final memory holds the result at
  `W6 … main_v12` and both arguments as launched. The host stretches, the chaining and the launch's first thread state
  are discharged here; at the end every unscoped buffer is read off the last valuation.
-/
import proofs.«149046_j33449205301987_1_alg».proof.Proof.Gen.KernelIdeal.Regions
import Idealize.ShloMosaic.Lib.StableHlo.Run

noncomputable section

namespace Cert.KernelIdeal.Frm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]

/-! ## The closing arithmetic -/

/-- A 1×1 array read as a scalar: what the reshape at the head of each host stretch computes. -/
def rs (x : (⟨S1x1, .f32⟩ : BufTy).Contents (Elt F)) : (⟨S_, .f32⟩ : BufTy).Contents (Elt F) :=
  shapeCast S_ x shapeCasts_S1x1_S_

/-- sqrt (a / K - 2 * (c / K) + b / K) on scalars, K and 2 two fixed words. -/
def tailF (a b c : (⟨S_, .f32⟩ : BufTy).Contents (Elt F)) : (⟨S_, .f32⟩ : BufTy).Contents (Elt F) :=
  Host.sqrt (addf (subf (Host.divf a (constant S_ .f32 0x4C800000#32))
    (mulf (constant S_ .f32 0x40000000#32) (Host.divf c (constant S_ .f32 0x4C800000#32))))
    (Host.divf b (constant S_ .f32 0x4C800000#32)))

/-! ## The chain of valuations -/

variable (m : (ℓ : Loc nD τ sig) → Buf (Elt F) ℓ)
  (o1 : (c : Dev nD) → Buf (Elt F) ((c : Thread nD τ).loc main_v0))
  (o3 : (c : Dev nD) → Buf (Elt F) ((c : Thread nD τ).loc main_v3))
  (o5 : (c : Dev nD) → Buf (Elt F) ((c : Thread nD τ).loc main_v6))

/-- Core `c`'s unscoped buffers at launch. -/
abbrev W0 (c : Dev nD) : Valuation τ sig (Elt F) := fun b => m (c, b)
/-- … after region 0, which may change `main_v0`. -/
abbrev W1 (c : Dev nD) : Valuation τ sig (Elt F) := Function.update (W0 m c) main_v0 (o1 c)
/-- … after the first host stretch. -/
abbrev W2 (c : Dev nD) : Valuation τ sig (Elt F) := StableHlo.after hostOps1 (W1 m o1 c)
/-- … after region 1, which may change `main_v3`. -/
abbrev W3 (c : Dev nD) : Valuation τ sig (Elt F) := Function.update (W2 m o1 c) main_v3 (o3 c)
/-- … after the second host stretch. -/
abbrev W4 (c : Dev nD) : Valuation τ sig (Elt F) := StableHlo.after hostOps2 (W3 m o1 o3 c)
/-- … after region 2, which may change `main_v6`. -/
abbrev W5 (c : Dev nD) : Valuation τ sig (Elt F) := Function.update (W4 m o1 o3 c) main_v6 (o5 c)
/-- … after the last host stretch. -/
abbrev W6 (c : Dev nD) : Valuation τ sig (Elt F) := StableHlo.after hostOps3 (W5 m o1 o3 o5 c)

/-! ## What each item leaves alone -/

theorem W1_off (c : Dev nD) (r : Ref sig .tc) (h : r ∉ ([main_v0] : List (Ref sig .tc))) : W1 m o1 c r = W0 m c r := by
  simp only [W1, Function.update_of_ne (StableHlo.devRef_ne_of_ne (List.ne_of_not_mem_cons h) : (Proc.devRef .tc r : DevRef τ sig) ≠ Proc.devRef .tc main_v0)]
theorem W2_off (c : Dev nD) (r : Ref sig .tc) (h : r ∉ hostOps1_W) : W2 m o1 c r = W1 m o1 c r :=
  StableHlo.after_of_writes_sub hostOps1 _ hostOps1_writes h
theorem W3_off (c : Dev nD) (r : Ref sig .tc) (h : r ∉ ([main_v3] : List (Ref sig .tc))) : W3 m o1 o3 c r = W2 m o1 c r := by
  simp only [W3, Function.update_of_ne (StableHlo.devRef_ne_of_ne (List.ne_of_not_mem_cons h) : (Proc.devRef .tc r : DevRef τ sig) ≠ Proc.devRef .tc main_v3)]
theorem W4_off (c : Dev nD) (r : Ref sig .tc) (h : r ∉ hostOps2_W) : W4 m o1 o3 c r = W3 m o1 o3 c r :=
  StableHlo.after_of_writes_sub hostOps2 _ hostOps2_writes h
theorem W5_off (c : Dev nD) (r : Ref sig .tc) (h : r ∉ ([main_v6] : List (Ref sig .tc))) : W5 m o1 o3 o5 c r = W4 m o1 o3 c r := by
  simp only [W5, Function.update_of_ne (StableHlo.devRef_ne_of_ne (List.ne_of_not_mem_cons h) : (Proc.devRef .tc r : DevRef τ sig) ≠ Proc.devRef .tc main_v6)]
theorem W6_off (c : Dev nD) (r : Ref sig .tc) (h : r ∉ hostOps3_W) : W6 m o1 o3 o5 c r = W5 m o1 o3 o5 c r :=
  StableHlo.after_of_writes_sub hostOps3 _ hostOps3_writes h

/-- No item writes the first argument … -/
theorem W6_arg0 (c : Dev nD) : W6 m o1 o3 o5 c main_arg0 = m ((c : Thread nD τ).loc main_arg0) :=
  (W6_off m o1 o3 o5 c main_arg0 (by decide)).trans <| (W5_off m o1 o3 o5 c main_arg0 (by decide)).trans <|
    (W4_off m o1 o3 c main_arg0 (by decide)).trans <| (W3_off m o1 o3 c main_arg0 (by decide)).trans <|
    (W2_off m o1 c main_arg0 (by decide)).trans <| (W1_off m o1 c main_arg0 (by decide)).trans rfl
/-- … nor the second. -/
theorem W6_arg1 (c : Dev nD) : W6 m o1 o3 o5 c main_arg1 = m ((c : Thread nD τ).loc main_arg1) :=
  (W6_off m o1 o3 o5 c main_arg1 (by decide)).trans <| (W5_off m o1 o3 o5 c main_arg1 (by decide)).trans <|
    (W4_off m o1 o3 c main_arg1 (by decide)).trans <| (W3_off m o1 o3 c main_arg1 (by decide)).trans <|
    (W2_off m o1 c main_arg1 (by decide)).trans <| (W1_off m o1 c main_arg1 (by decide)).trans rfl

/-! ## The result -/

/-- After the first stretch `main_v2` holds the first region's output, as a scalar, over K. -/
theorem W2_v2 (c : Dev nD) :
    W2 m o1 c main_v2 = Host.divf (rs (o1 c)) (constant S_ .f32 0x4C800000#32) := by
  show StableHlo.after hostOps1 (W1 m o1 c) (Proc.devRef .tc main_v2) = _
  after_results
  simp only [W1, Function.update_self]
  rfl

/-- After the second stretch `main_v5` holds the second region's output, as a scalar, over K. -/
theorem W4_v5 (c : Dev nD) :
    W4 m o1 o3 c main_v5 = Host.divf (rs (o3 c)) (constant S_ .f32 0x4C800000#32) := by
  show StableHlo.after hostOps2 (W3 m o1 o3 c) (Proc.devRef .tc main_v5) = _
  after_results
  simp only [W3, Function.update_self]
  rfl

/-- The result buffer at the end is the closing arithmetic of the three regions' outputs. -/
theorem W6_main_v12 (c : Dev nD) :
    W6 m o1 o3 o5 c main_v12 = tailF (rs (o1 c)) (rs (o3 c)) (rs (o5 c)) := by
  have e2 : W5 m o1 o3 o5 c main_v2 = Host.divf (rs (o1 c)) (constant S_ .f32 0x4C800000#32) :=
    (W5_off m o1 o3 o5 c main_v2 (by decide)).trans <| (W4_off m o1 o3 c main_v2 (by decide)).trans <|
      (W3_off m o1 o3 c main_v2 (by decide)).trans (W2_v2 m o1 c)
  have e5 : W5 m o1 o3 o5 c main_v5 = Host.divf (rs (o3 c)) (constant S_ .f32 0x4C800000#32) :=
    (W5_off m o1 o3 o5 c main_v5 (by decide)).trans (W4_v5 m o1 o3 c)
  have e6 : W5 m o1 o3 o5 c main_v6 = o5 c := Function.update_self _ _ _
  show StableHlo.after hostOps3 (W5 m o1 o3 o5 c) (Proc.devRef .tc main_v12) = _
  after_results
  rw [e2, e5, e6]
  rfl

/-! ## The items as segments -/

section Items

variable {Ix : Type} [DecidableEq Ix] {U : Type} [URA U] {Lvl : Type} [Preorder Lvl]
variable (𝒱₀ : Variants) (L : GSem nD τ sig → Finset Ix) (lv : GSem nD τ sig → Ix → Lvl)
variable (E : Fin 4 → Dev nD → sProp (MT nD τ sig Ix (Elt F) ℕ U Lvl))

/-- The first host stretch, run over the unscoped buffers from `W1`; the rest `E 1` rides along. -/
def host1 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m o1) (E 1)
/-- The second host stretch, from `W3`; `E 2` rides along. -/
def host3 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m o1 o3) (E 2)
/-- The last host stretch, from `W5`; `E 3` rides along. -/
def host5 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W5 m o1 o3 o5) (E 3)

end Items

section

variable {Ix : Type} [DecidableEq Ix] {U : Type} [URA U] {Lvl : Type} [Preorder Lvl]

/-- @main's six items on core `c` (the same list on every core): the three regions' given records, the three host
    stretches between and after them. -/
abbrev items (𝒱₀ : Variants) (L : GSem nD τ sig → Finset Ix) (lv : GSem nD τ sig → Ix → Lvl)
    (E : Fin 4 → Dev nD → sProp (MT nD τ sig Ix (Elt F) ℕ U Lvl)) (ι : Ix)
    (pdats : (p : Fin 3) → (c : Dev nD) → Dat τ (Elt F) Ix ℕ U Lvl (cfgs p) c)
    (R0 : RegionSeg (pcfgs (F := F)) adm pdats ι defs₀ 𝒱₀ L lv 0) (R1 : RegionSeg (pcfgs (F := F)) adm pdats ι defs₀ 𝒱₀ L lv 1)
    (R2 : RegionSeg (pcfgs (F := F)) adm pdats ι defs₀ 𝒱₀ L lv 2) (c : Dev nD) :
    List (Seg (pcfgs (F := F)) adm pdats ι defs₀ 𝒱₀ L lv) :=
  [.region R0, .host (host1 m o1 𝒱₀ L lv E), .region R1, .host (host3 m o1 o3 𝒱₀ L lv E), .region R2,
    .host (host5 m o1 o3 o5 𝒱₀ L lv E)]

end

/-! ## The run, given the regions' records -/

-- the library theorem's implicit arguments are found by unifying its conclusion with this one, which takes unfolding
-- plain definitions in a metavariable's type
set_option backward.isDefEq.respectTransparency.types false in
/-- THE RUN. For any user algebra, level assignment, launch dues and ghost resources, any rest states `E` the launch
    makes on every core at once (`hE0`) and that end owing nothing (`hE3`), any contents the regions leave
    (`o1`, `o3`, `o5`) and any proof data: GIVEN, per region K, a segment record entered from the thread state before
    it and left at the one after it, every weakly fair execution of @main from memory `m` with zero counters terminates,
    and every final memory holds the result buffer at the last valuation and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg)
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (W0 m c) ∗ E 0 c) ⊢ R0.pre c)
    (hpost0 : ∀ c : Dev nD, R0.post c ⊢ iprop(StableHlo.held (c : Thread nD τ) (Pipeline.ucRefs τ sig) (W1 m o1 c) ∗ E 1 c))
    (R1 : RegionSeg (pcfgs (F := F)) adm pdats ι defs₀ 𝒱₀ L lv 1)
    (hpre1 : ∀ c : Dev nD, iprop(StableHlo.held (c : Thread nD τ) (Pipeline.ucRefs τ sig) (W2 m o1 c) ∗ E 1 c) ⊢ R1.pre c)
    (hpost1 : ∀ c : Dev nD, R1.post c ⊢ iprop(StableHlo.held (c : Thread nD τ) (Pipeline.ucRefs τ sig) (W3 m o1 o3 c) ∗ E 2 c))
    (R2 : RegionSeg (pcfgs (F := F)) adm pdats ι defs₀ 𝒱₀ L lv 2)
    (hpre2 : ∀ c : Dev nD, iprop(StableHlo.held (c : Thread nD τ) (Pipeline.ucRefs τ sig) (W4 m o1 o3 c) ∗ E 2 c) ⊢ R2.pre c)
    (hpost2 : ∀ c : Dev nD, R2.post c ⊢ iprop(StableHlo.held (c : Thread nD τ) (Pipeline.ucRefs τ sig) (W5 m o1 o3 o5 c) ∗ E 3 c)) :
    θ_run defs (onTc (τ := τ) (main (F := F))) ⟨m, fun _ => 0, ρ⟩ (fun r => ∀ c : Dev nD,
      r.2.mem ((c.tc : Thread nD τ).loc main_v12) = W6 m o1 o3 o5 c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (items m o1 o3 o5 𝒱₀ L lv E ι pdats R0 R1 R2)
    (fun c Q => by
      rewrite [main_chain c, Seg.run_eq_chain,
        show (items m o1 o3 o5 𝒱₀ L lv E ι pdats R0 R1 R2 c).map Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [items, Seg.pipes_host, Seg.pipes_region, Seg.pipes_nil]; decide) O₀ hL G u₀ hu₀
    (T₀ := fun c => iprop(StableHlo.held (c : Thread nD τ) (Pipeline.ucRefs τ sig) (W0 m c) ∗ E 0 c))
    (Tₙ := fun c => StableHlo.held (c : Thread nD τ) (Pipeline.ucRefs τ sig) (W6 m o1 o3 o5 c))
    (hch := fun c => ⟨hpre0 c, hpost0 c, hpre1 c, hpost1 c, hpre2 c, hpost2 c, sep_mono .rfl (hE3 c)⟩)
    (hinit := ?_)
    (QY := fun c s => s.mem ((c.tc : Thread nD τ).loc main_v12) = W6 m o1 o3 o5 c main_v12
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  · -- the launch: the unscoped buffers are held at `W0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (W0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (W0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result and each argument read off the last valuation
    unfold StableHlo.held
    iintro ⟨Hh, HSI⟩
    ihave Hr := (pointsTo_read_all (Pipeline.ucRefs τ sig) (fun b => ((c : Thread nD τ).1, b)) (W6 m o1 o3 o5 c) s') $$ [Hh HSI]
    · isplitl [Hh] <;> iassumption
    icases Hr with ⟨%h, HSI⟩
    imodintro
    isplitr
    · ipureintro
      exact ⟨h (Proc.devRef .tc main_v12) (Finset.mem_filter.mpr ⟨StableHlo.devRef_mem_tcRefs main_v12, by decide⟩),
        (h (Proc.devRef .tc main_arg0) (Finset.mem_filter.mpr ⟨StableHlo.devRef_mem_tcRefs main_arg0, by decide⟩)).trans (W6_arg0 m o1 o3 o5 c),
        (h (Proc.devRef .tc main_arg1) (Finset.mem_filter.mpr ⟨StableHlo.devRef_mem_tcRefs main_arg1, by decide⟩)).trans (W6_arg1 m o1 o3 o5 c)⟩
    · iexact HSI

end Cert.KernelIdeal.Frm

end
-- ==== Proof.Regs.lean ====
/-
  The three regions as segments of the program, and the program's run. Between two items of the program the core
  holds every unscoped buffer at a valuation: the launch memory, then each region's output array overwritten by what
  its last write-back left (the sum of all 64 tiles, as the accumulator held it), then each host stretch applied.
  Each region's proof data are taken at the valuation it is entered from, so that the second and third regions read the
  argument arrays — which nothing writes — through the same chain.
-/
import proofs.«149046_j33449205301987_1_alg».proof.Proof.Edge0
import proofs.«149046_j33449205301987_1_alg».proof.Proof.Edge1
import proofs.«149046_j33449205301987_1_alg».proof.Proof.Edge2
import proofs.«149046_j33449205301987_1_alg».proof.Proof.Assemble
import proofs.«149046_j33449205301987_1_alg».proof.Proof.Gen.KernelIdeal.Regions

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The valuation region 0 is entered from, read at the core's own references; what region 0 leaves in its output array. -/
abbrev Vv0 (c : Dev nD) (b : Ref sig .tc) : Buf (Elt F) ((c : Thread nD τ).loc b) := W0 m c b
def o1 (c : Dev nD) : Buf (Elt F) ((c : Thread nD τ).loc main_v0) := (dat0 (Vv0 m) c).arrAt 2 cfg0.N
/-- The same for region 1, entered after the first host stretch, -/
abbrev Vv2 (c : Dev nD) (b : Ref sig .tc) : Buf (Elt F) ((c : Thread nD τ).loc b) := W2 m (o1 m) c b
def o3 (c : Dev nD) : Buf (Elt F) ((c : Thread nD τ).loc main_v3) := (dat1 (Vv2 m) c).arrAt 2 cfg1.N
/-- and for region 2, entered after the second. -/
abbrev Vv4 (c : Dev nD) (b : Ref sig .tc) : Buf (Elt F) ((c : Thread nD τ).loc b) := W4 m (o1 m) (o3 m) c b
def o5 (c : Dev nD) : Buf (Elt F) ((c : Thread nD τ).loc main_v6) := (dat2 (Vv4 m) c).arrAt 2 cfg2.N

/-- Every pipeline's proof data, each at its region's entry contents. -/
def pdats : (p : Fin 3) → (c : Dev nD) → Dat τ (Elt F) Unit ℕ (UR sig nD τ) ℕ (cfgs p) c
  | ⟨0, _⟩ => fun c => dat0 (Vv0 m) c
  | ⟨1, _⟩ => fun c => dat1 (Vv2 m) c
  | ⟨2, _⟩ => fun c => dat2 (Vv4 m) c

/-- No core owes another anything: no level is assigned. -/
abbrev LL : GSem nD τ sig → Finset Unit := fun _ => ∅
abbrev lvv : GSem nD τ sig → Unit → ℕ := fun _ _ => 0
/-- What rides beside the buffers through every item: the generator register at some state, and nothing owed. -/
abbrev RR (c : Dev nD) : sProp 𝕄 := iprop((∃ r, prngReg c r) ∗ ∃ W, owes (c : Thread nD τ) (0 : CellTallies nD τ sig Unit) W)

set_option backward.isDefEq.respectTransparency.types false in
/-- REGION 0 as a segment of the program: entered with every unscoped buffer at the valuation before it, left with the
    output array at what the last write-back put there and every other buffer unchanged; the generator register and
    the core's empty debts ride along. -/
def reg0 : Pipeline.RegionSeg (pcfgs (F := F)) adm (pdats m) () defs₀ Variants.none LL lvv 0 where
  win := winFacts₀0
  block_pos := block_pos0
  stage_whole := stage_whole0
  K := PEmpty
  osem k := k.elim
  ho := Pipeline.OwnSemFacts.none _
  hbody c := (body_obligation0 (Vv0 m) c).loose
  hwaits := Pipeline.hwaits_of_owed_zero _ _ _ _ LL lvv 0 fun _ _ => rfl
  pre c := iprop(StableHlo.held (c : Thread nD τ) (Pipeline.ucRefs τ sig) (W0 m c) ∗ RR c)
  post c := iprop(StableHlo.held (c : Thread nD τ) (Pipeline.ucRefs τ sig) (W1 m (o1 m) c) ∗ RR c)
  X c := iprop(∃ r, prngReg c r)
  Y c := iprop(∃ r, prngReg c r)
  Z c := Pipeline.unscopedRest (Ix := Unit) (Name := ℕ) (U := UR sig nD τ) (Lvl := ℕ) spec0 c (Vv0 m c)
  hentry c := by
    rw [Pipeline.ownSems0_none]
    have hsplit := enter0 (Vv0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (Vv0 m) c).trans ?_
    unfold Pipeline.ΦA
    iintro ⟨Hr, Hp⟩
    isplitl [Hp]; · iexact Hp
    isplitr; · iempintro
    iexact Hr
  hexit c := by
    have hjoin := exit0 (Vv0 m) c (fun b => W1 m (o1 m) c b)
      (by show Function.update _ _ _ _ = _; rw [Function.update_self]; rfl)
      (fun b hb => Function.update_of_ne (StableHlo.devRef_ne_of_ne hb : (Proc.devRef .tc b : DevRef τ sig) ≠ Proc.devRef .tc main_v0) _ _)
    rw [Pipeline.unscopedBufs_held] at hjoin
    show iprop((dat0 (Vv0 m) c).arrays ((dat0 (Vv0 m) c).arrAt · cfg0.N) ∗ (dat0 (Vv0 m) c).owesAt () (Fin.last cfg0.N) ∗ iprop(∃ r, prngReg c r)
        ∗ Pipeline.unscopedRest (Ix := Unit) (Name := ℕ) (U := UR sig nD τ) (Lvl := ℕ) spec0 c (Vv0 m c))
      ⊢ |={Set.univ}=> iprop(StableHlo.held (c : Thread nD τ) (Pipeline.ucRefs τ sig) (W1 m (o1 m) c) ∗ RR c)
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 1 as a segment of the program: entered with every unscoped buffer at the valuation before it, left with the
    output array at what the last write-back put there and every other buffer unchanged; the generator register and
    the core's empty debts ride along. -/
def reg1 : Pipeline.RegionSeg (pcfgs (F := F)) adm (pdats m) () defs₀ Variants.none LL lvv 1 where
  win := winFacts₀1
  block_pos := block_pos1
  stage_whole := stage_whole1
  K := PEmpty
  osem k := k.elim
  ho := Pipeline.OwnSemFacts.none _
  hbody c := (body_obligation1 (Vv2 m) c).loose
  hwaits := Pipeline.hwaits_of_owed_zero _ _ _ _ LL lvv 1 fun _ _ => rfl
  pre c := iprop(StableHlo.held (c : Thread nD τ) (Pipeline.ucRefs τ sig) (W2 m (o1 m) c) ∗ RR c)
  post c := iprop(StableHlo.held (c : Thread nD τ) (Pipeline.ucRefs τ sig) (W3 m (o1 m) (o3 m) c) ∗ RR c)
  X c := iprop(∃ r, prngReg c r)
  Y c := iprop(∃ r, prngReg c r)
  Z c := Pipeline.unscopedRest (Ix := Unit) (Name := ℕ) (U := UR sig nD τ) (Lvl := ℕ) spec1 c (Vv2 m c)
  hentry c := by
    rw [Pipeline.ownSems0_none]
    have hsplit := enter1 (Vv2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (Vv2 m) c).trans ?_
    unfold Pipeline.ΦA
    iintro ⟨Hr, Hp⟩
    isplitl [Hp]; · iexact Hp
    isplitr; · iempintro
    iexact Hr
  hexit c := by
    have hjoin := exit1 (Vv2 m) c (fun b => W3 m (o1 m) (o3 m) c b)
      (by show Function.update _ _ _ _ = _; rw [Function.update_self]; rfl)
      (fun b hb => Function.update_of_ne (StableHlo.devRef_ne_of_ne hb : (Proc.devRef .tc b : DevRef τ sig) ≠ Proc.devRef .tc main_v3) _ _)
    rw [Pipeline.unscopedBufs_held] at hjoin
    show iprop((dat1 (Vv2 m) c).arrays ((dat1 (Vv2 m) c).arrAt · cfg1.N) ∗ (dat1 (Vv2 m) c).owesAt () (Fin.last cfg1.N) ∗ iprop(∃ r, prngReg c r)
        ∗ Pipeline.unscopedRest (Ix := Unit) (Name := ℕ) (U := UR sig nD τ) (Lvl := ℕ) spec1 c (Vv2 m c))
      ⊢ |={Set.univ}=> iprop(StableHlo.held (c : Thread nD τ) (Pipeline.ucRefs τ sig) (W3 m (o1 m) (o3 m) c) ∗ RR c)
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 2 as a segment of the program: entered with every unscoped buffer at the valuation before it, left with the
    output array at what the last write-back put there and every other buffer unchanged; the generator register and
    the core's empty debts ride along. -/
def reg2 : Pipeline.RegionSeg (pcfgs (F := F)) adm (pdats m) () defs₀ Variants.none LL lvv 2 where
  win := winFacts2.to₀
  block_pos := block_pos2
  stage_whole := stage_whole2
  K := PEmpty
  osem k := k.elim
  ho := Pipeline.OwnSemFacts.none _
  hbody c := (body_obligation2 (Vv4 m) c).loose
  hwaits := Pipeline.hwaits_of_owed_zero _ _ _ _ LL lvv 2 fun _ _ => rfl
  pre c := iprop(StableHlo.held (c : Thread nD τ) (Pipeline.ucRefs τ sig) (W4 m (o1 m) (o3 m) c) ∗ RR c)
  post c := iprop(StableHlo.held (c : Thread nD τ) (Pipeline.ucRefs τ sig) (W5 m (o1 m) (o3 m) (o5 m) c) ∗ RR c)
  X c := iprop(∃ r, prngReg c r)
  Y c := iprop(∃ r, prngReg c r)
  Z c := Pipeline.unscopedRest (Ix := Unit) (Name := ℕ) (U := UR sig nD τ) (Lvl := ℕ) spec2 c (Vv4 m c)
  hentry c := by
    rw [Pipeline.ownSems0_none]
    have hsplit := enter2 (Vv4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from hout2 (Vv4 m) c).trans ?_
    unfold Pipeline.ΦA
    iintro ⟨Hr, Hp⟩
    isplitl [Hp]; · iexact Hp
    isplitr; · iempintro
    iexact Hr
  hexit c := by
    have hjoin := exit2 (Vv4 m) c (fun b => W5 m (o1 m) (o3 m) (o5 m) c b)
      (by show Function.update _ _ _ _ = _; rw [Function.update_self]; rfl)
      (fun b hb => Function.update_of_ne (StableHlo.devRef_ne_of_ne hb : (Proc.devRef .tc b : DevRef τ sig) ≠ Proc.devRef .tc main_v6) _ _)
    rw [Pipeline.unscopedBufs_held] at hjoin
    show iprop((dat2 (Vv4 m) c).arrays ((dat2 (Vv4 m) c).arrAt · cfg2.N) ∗ (dat2 (Vv4 m) c).owesAt () (Fin.last cfg2.N) ∗ iprop(∃ r, prngReg c r)
        ∗ Pipeline.unscopedRest (Ix := Unit) (Name := ℕ) (U := UR sig nD τ) (Lvl := ℕ) spec2 c (Vv4 m c))
      ⊢ |={Set.univ}=> iprop(StableHlo.held (c : Thread nD τ) (Pipeline.ucRefs τ sig) (W5 m (o1 m) (o3 m) (o5 m) c) ∗ RR c)
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

variable (ρ : Dev nD → PrngReg)

set_option backward.isDefEq.respectTransparency.types false in
/-- THE RUN: from any memory with zero counters every weakly fair execution of the program terminates, nothing faulting,
    with the result buffer at the last valuation's contents and both argument arrays as launched. -/
theorem run_main : θ_run defs (onTc (τ := τ) (main (F := F))) ⟨m, fun _ => 0, ρ⟩ (fun r => ∀ c : Dev nD,
      r.2.mem ((c.tc : Thread nD τ).loc main_v12) = W6 m (o1 m) (o3 m) (o5 m) c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m (o1 m) (o3 m) (o5 m) (EP := emb₁) (ι := ()) (𝒱₀ := Variants.none) (L := LL) (lv := lvv) (hL := fun _ _ => rfl) (ρ := ρ)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => RR c)
    (hE0 := by
      refine Pipeline.initEach LL lvv fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

end Cert.KernelIdeal.Frm

end
-- ==== Proof.BConds0.lean ====
/-
  Region 0 of the program: the two branch conditions of the tile body read off the grid point, where the output
  window is idle, and the body run once per control case. The grid is 8 x 8, walked row-major as 64 points; the first
  branch (the accumulator is zeroed) is taken at point 0 only, the second (the accumulator is copied to the output
  block) at point 63 only; at every point the body adds the tile's sum to the accumulator.
-/
import proofs.«149046_j33449205301987_1_alg».proof.Proof.Gen.Kernel.Launch
import proofs.«149046_j33449205301987_1_alg».proof.Proof.Gen.Kernel.Skeleton
import proofs.«149046_j33449205301987_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition at a grid point: both coordinates are zero. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second branch's condition: both coordinates are the last. -/
abbrev cond0_1 (i : grid0.Coords) : Prop := k0_cond2 i = 1#1
theorem hcond0_1 : ∀ t : Fin cfg0.N, cond0_1 (grid0.coords t) ↔ t.val = 63 :=
  (by decide +kernel : ∀ t : Fin grid0.N, cond0_1 (grid0.coords t) ↔ t.val = 63)

/-- The input windows are never idle; the output window is idle at every point but the last, where it is written back. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- The staging memrefs the body is called with at point `t`, the accumulator's memref, and the views their contents are read through. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev scM0 : Memref sig .tc .vmem S1x1 .f32 := Memref.whole cc0_scratch0
abbrev VS0 : View sig .tc .vmem S1x1 .f32 := (scM0).view
abbrev VO0 : View sig .tc .vmem S1x1 .f32 := (Memref.whole cc0_stg2_0 : Memref sig .tc .vmem S1x1 .f32).view

end Cert.Kernel.Frm

end
-- ==== Proof.BRunA0.lean ====
/-
  Region 0, the tile body run in one control case: on whole staging buffers holding the two row blocks, and the
  accumulator, the body terminates and hands back the row blocks untouched and the accumulator (and, at the last point,
  the output block) with the stored values written.
-/
import proofs.«149046_j33449205301987_1_alg».proof.Proof.BConds0

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point: the accumulator, whatever it held, is zeroed and the tile's sum added; the output block is left alone. -/
noncomputable def kernelRun0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 : Vec F S1024x128 .f32) :
    { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__kmean_kernel i arg2 harg2 arg3 harg3 arg4 harg4 arg5 harg5) K } := by
  refine ⟨?_, fun xi E K => ?run⟩
  case run =>
    simp only [cc0__kmean_kernel_eq_skeleton]; unfold cc0__kmean_kernel_skel
    simp only [k0_part1_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Frm

end
-- ==== Proof.BRunB0.lean ====
/-
  Region 0, the tile body run in one control case: on whole staging buffers holding the two row blocks, and the
  accumulator, the body terminates and hands back the row blocks untouched and the accumulator (and, at the last point,
  the output block) with the stored values written.
-/
import proofs.«149046_j33449205301987_1_alg».proof.Proof.BConds0

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle point: the tile's sum is added to what the accumulator held; the output block is left alone. -/
noncomputable def kernelRun0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 : Vec F S1024x128 .f32) (xs : Vec F S1x1 .f32) :
    { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__kmean_kernel i arg2 harg2 arg3 harg3 arg4 harg4 arg5 harg5) K } := by
  refine ⟨?_, fun xi E K => ?run⟩
  case run =>
    simp only [cc0__kmean_kernel_eq_skeleton]; unfold cc0__kmean_kernel_skel
    simp only [k0_part1_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Frm

end
-- ==== Proof.BRunC0.lean ====
/-
  Region 0, the tile body run in one control case: on whole staging buffers holding the two row blocks, and the
  accumulator, the body terminates and hands back the row blocks untouched and the accumulator (and, at the last point,
  the output block) with the stored values written.
-/
import proofs.«149046_j33449205301987_1_alg».proof.Proof.BConds0

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last point: the tile's sum is added to what the accumulator held, and the accumulator is copied to the output block. -/
noncomputable def kernelRun0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S1024x128 .f32) (xs : Vec F S1x1 .f32) :
    Σ' (L2 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__kmean_kernel i arg2 harg2 arg3 harg3 arg4 harg4 arg5 harg5) K } := by
  refine ⟨?_, ?_, fun E K => ?run⟩
  case run =>
    simp only [cc0__kmean_kernel_eq_skeleton]; unfold cc0__kmean_kernel_skel
    simp only [k0_part1_eq_skeleton]
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Frm

end
-- ==== Proof.BOuts0.lean ====
/-
  Region 0: what each control case of the tile body leaves in the accumulator and in the output block, as values.
  Every store of the body writes a whole [1,1] block, so the stored pieces cover it and the contents read back are
  the last stored value: at the first point the tile's sum added to zero, at a later point the tile's sum added to
  what the accumulator held, and at the last point the output block holds that same sum.
-/
import proofs.«149046_j33449205301987_1_alg».proof.Proof.BRunA0
import proofs.«149046_j33449205301987_1_alg».proof.Proof.BRunB0
import proofs.«149046_j33449205301987_1_alg».proof.Proof.BRunC0
import Idealize.ShloMosaic.Lib.Pipeline.Value

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz11 : (![0, 0] : Fin S1x1.rank → Nat) = fun _ => 0 := by funext a; fin_cases a <;> rfl
theorem hzT : (![0, 0] : Fin S1024x128.rank → Nat) = fun _ => 0 := by funext a; fin_cases a <;> rfl

theorem scover0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x0 x1 : Vec F S1024x128 .f32) (y : S1x1.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1x1.size (by sl_kernel_rfl) y

/-- The accumulator after the first point. -/
def sout0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x0 x1 : Vec F S1024x128 .f32) : Vec F S1x1 .f32 :=
  VS0.read (Elt F) (VS0.writes (Elt F) VS0.junk (kernelRun0_A c i arg2 harg2 arg3 harg3 arg4 harg4 arg5 harg5 hc0 hc1 x0 x1).1)

theorem sout0_A_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x0 x1 : Vec F S1024x128 .f32) :
    sout0_A c i arg2 harg2 arg3 harg3 arg4 harg4 arg5 harg5 hc0 hc1 x0 x1 = k0_pay2 x0 x1 (k0_pay1 (F := F)) := by
  unfold sout0_A
  rw [View.read_writes_eq_canon _ _ _ (scover0_A c i arg2 harg2 arg3 harg3 arg4 harg4 arg5 harg5 hc0 hc1 x0 x1)]
  unfold kernelRun0_A; dsimp only
  refine (View.canon_cons_unit_zero (S := S1x1) hz11 _ _ _).trans ?_
  sl_unfold_run_names
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : arg5.view.readCov [(⟨Rect.unit ![0, 0] S1x1.size inb_S1x1_S1x1_0_0, k0_pay1 (F := F)⟩ : View.Piece (Elt F) S1x1 .f32)] (Rect.unit ![0, 0] S1x1.size inb_S1x1_S1x1_0_0).toLoadRect = k0_pay1 (F := F) :=
    View.readCov_unit_zero (S := S1x1) arg5.view hz11 inb_S1x1_S1x1_0_0 _
  rw [e0, e1, e2]

theorem scover0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 x1 : Vec F S1024x128 .f32) (xs : Vec F S1x1 .f32) (y : S1x1.Idx) :
    ∃ pc ∈ (kernelRun0_B c i arg2 harg2 arg3 harg3 arg4 harg4 arg5 harg5 hc0 hc1 x0 x1 xs).1, y ∈ pc.1.set :=
  View.cover_of_tiledL (kernelRun0_B c i arg2 harg2 arg3 harg3 arg4 harg4 arg5 harg5 hc0 hc1 x0 x1 xs).1 S1x1.size (by sl_kernel_rfl) y

/-- The accumulator after a middle point. -/
def sout0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 x1 : Vec F S1024x128 .f32) (xs : Vec F S1x1 .f32) : Vec F S1x1 .f32 :=
  VS0.read (Elt F) (VS0.writes (Elt F) VS0.junk (kernelRun0_B c i arg2 harg2 arg3 harg3 arg4 harg4 arg5 harg5 hc0 hc1 x0 x1 xs).1)

theorem sout0_B_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x0 x1 : Vec F S1024x128 .f32) (xs : Vec F S1x1 .f32) :
    sout0_B c i arg2 harg2 arg3 harg3 arg4 harg4 arg5 harg5 hc0 hc1 x0 x1 xs = k0_pay2 x0 x1 xs := by
  unfold sout0_B
  rw [View.read_writes_eq_canon _ _ _ (scover0_B c i arg2 harg2 arg3 harg3 arg4 harg4 arg5 harg5 hc0 hc1 x0 x1 xs)]
  unfold kernelRun0_B; dsimp only
  refine (View.canon_cons_unit_zero (S := S1x1) hz11 _ _ _).trans ?_
  sl_unfold_run_names
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : View.readAt (Elt F) arg5.view (Rect.unit ![0, 0] S1x1.size inb_S1x1_S1x1_0_0).toLoadRect (harg5.unread xs) = xs := by
    rw [View.readAt_eq_ld, harg5.read_unread]; exact View.ld_unit_zero (S := S1x1) hz11 _ xs
  rw [e0, e1, e2]

theorem scover0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x128 .f32) (xs : Vec F S1x1 .f32) (y : S1x1.Idx) :
    ∃ pc ∈ (kernelRun0_C c i arg2 harg2 arg3 harg3 arg4 harg4 arg5 harg5 hc0 hc1 x0 x1 xs).2.1, y ∈ pc.1.set :=
  View.cover_of_tiledL (kernelRun0_C c i arg2 harg2 arg3 harg3 arg4 harg4 arg5 harg5 hc0 hc1 x0 x1 xs).2.1 S1x1.size (by sl_kernel_rfl) y

/-- The accumulator after the last point. -/
def sout0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x128 .f32) (xs : Vec F S1x1 .f32) : Vec F S1x1 .f32 :=
  VS0.read (Elt F) (VS0.writes (Elt F) VS0.junk (kernelRun0_C c i arg2 harg2 arg3 harg3 arg4 harg4 arg5 harg5 hc0 hc1 x0 x1 xs).2.1)

theorem sout0_C_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x128 .f32) (xs : Vec F S1x1 .f32) :
    sout0_C c i arg2 harg2 arg3 harg3 arg4 harg4 arg5 harg5 hc0 hc1 x0 x1 xs = k0_pay2 x0 x1 xs := by
  unfold sout0_C
  rw [View.read_writes_eq_canon _ _ _ (scover0_C c i arg2 harg2 arg3 harg3 arg4 harg4 arg5 harg5 hc0 hc1 x0 x1 xs)]
  unfold kernelRun0_C; dsimp only
  refine (View.canon_cons_unit_zero (S := S1x1) hz11 _ _ _).trans ?_
  sl_unfold_run_names
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : View.readAt (Elt F) arg5.view (Rect.unit ![0, 0] S1x1.size inb_S1x1_S1x1_0_0).toLoadRect (harg5.unread xs) = xs := by
    rw [View.readAt_eq_ld, harg5.read_unread]; exact View.ld_unit_zero (S := S1x1) hz11 _ xs
  rw [e0, e1, e2]

theorem cover0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x128 .f32) (xs : Vec F S1x1 .f32) (y : S1x1.Idx) :
    ∃ pc ∈ (kernelRun0_C c i arg2 harg2 arg3 harg3 arg4 harg4 arg5 harg5 hc0 hc1 x0 x1 xs).1, y ∈ pc.1.set :=
  View.cover_of_tiledL (kernelRun0_C c i arg2 harg2 arg3 harg3 arg4 harg4 arg5 harg5 hc0 hc1 x0 x1 xs).1 S1x1.size (by sl_kernel_rfl) y

/-- The output block after the last point. -/
def out0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x128 .f32) (xs : Vec F S1x1 .f32) : Vec F S1x1 .f32 :=
  VO0.read (Elt F) (VO0.writes (Elt F) VO0.junk (kernelRun0_C c i arg2 harg2 arg3 harg3 arg4 harg4 arg5 harg5 hc0 hc1 x0 x1 xs).1)

theorem out0_C_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x0 x1 : Vec F S1024x128 .f32) (xs : Vec F S1x1 .f32) :
    out0_C c i arg2 harg2 arg3 harg3 arg4 harg4 arg5 harg5 hc0 hc1 x0 x1 xs = k0_pay2 x0 x1 xs := by
  unfold out0_C
  rw [View.read_writes_eq_canon _ _ _ (cover0_C c i arg2 harg2 arg3 harg3 arg4 harg4 arg5 harg5 hc0 hc1 x0 x1 xs)]
  unfold kernelRun0_C; dsimp only
  refine (View.canon_cons_unit_zero (S := S1x1) hz11 _ _ _).trans ?_
  sl_unfold_run_names
  refine (View.readCov_unit_zero (S := S1x1) arg5.view hz11 inb_S1x1_S1x1_0_0 _).trans ?_
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : View.readAt (Elt F) arg5.view (Rect.unit ![0, 0] S1x1.size inb_S1x1_S1x1_0_0).toLoadRect (harg5.unread xs) = xs := by
    rw [View.readAt_eq_ld, harg5.read_unread]; exact View.ld_unit_zero (S := S1x1) hz11 _ xs
  rw [e0, e1, e2]

end Cert.Kernel.Frm

end
-- ==== Proof.BDat0.lean ====
/-
  Region 0: the proof data of its pipeline and the body obligation. After the body at point n the accumulator
  holds the sum of the tiles 0..n (each tile's sum added in turn, starting from zero at point 0); the two input
  windows' buffers hold their row blocks at every point; the output block is written at the last point only, with the
  accumulator's value. Between points the invariant keeps the accumulator at that value beside the core's other
  scoped buffers, which this region does not touch.
-/
import proofs.«149046_j33449205301987_1_alg».proof.Proof.BOuts0

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION: the accumulator after the body at point `n` — the tile's sum added to zero at point 0, to the previous value afterwards. -/
def accAt0 (c : Dev nD) : (n : ℕ) → n < cfg0.N → Vec F S1x1 .f32
  | 0, hn => k0_pay2 (iblk0 V c 0 ⟨0, hn⟩) (iblk0 V c 1 ⟨0, hn⟩) (k0_pay1 (F := F))
  | n + 1, hn => k0_pay2 (iblk0 V c 0 ⟨n + 1, hn⟩) (iblk0 V c 1 ⟨n + 1, hn⟩) (accAt0 c n (Nat.lt_of_succ_lt hn))

theorem accAt0_first (c : Dev nD) (t : Fin cfg0.N) (h0 : t.val = 0) :
    accAt0 V c t.val t.isLt = k0_pay2 (iblk0 V c 0 t) (iblk0 V c 1 t) (k0_pay1 (F := F)) := by
  obtain ⟨n, hn⟩ := t
  cases n with
  | zero => rfl
  | succ n => exact absurd h0 (Nat.succ_ne_zero n)

theorem accAt0_next (c : Dev nD) (t : Fin cfg0.N) (h0 : t.val ≠ 0) :
    accAt0 V c t.val t.isLt = k0_pay2 (iblk0 V c 0 t) (iblk0 V c 1 t) (accAt0 V c (t.val - 1) (Nat.lt_of_le_of_lt (Nat.sub_le _ _) t.isLt)) := by
  obtain ⟨n, hn⟩ := t
  cases n with
  | zero => exact absurd rfl h0
  | succ n => rfl

/-- The core's scoped buffers other than this region's staging buffers and accumulator, at some contents each. -/
abbrev rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA; rw [Pipeline.scopedRest_split_of_list spec0 c [cc0_scratch0] (by decide) (by decide)]
  simp only [scM0, owns_whole]; rfl

/-- The region invariant before position `n`: before the first point the accumulator holds anything; afterwards what the point before left. -/
def PhiS0 (c : Dev nD) : (n : ℕ) → n ≤ cfg0.N → sProp 𝕄
  | 0, _ => Pipeline.ΦA spec0 c
  | n + 1, hn => iprop((owns (c : Thread nD τ) scM0 fullShare (accAt0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (accAt0 V c n hn) ∗ rest0 (F := F) c) ∗ (∃ r, prngReg c r)) := rfl
theorem PhiS0_pos (c : Dev nD) (n : ℕ) (h : n ≤ cfg0.N) (hz : n ≠ 0) :
    PhiS0 V c n h = iprop((owns (c : Thread nD τ) scM0 fullShare (accAt0 V c (n - 1) (by omega)) ∗ rest0 (F := F) c) ∗ (∃ r, prngReg c r)) := by
  cases n with
  | zero => exact absurd rfl hz
  | succ n => rfl

/-- The proof data of the region's pipeline on core `c`, from the contents `V` the region finds. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the point is the first, the last or neither, which
    decides the two branches; the invariant hands the body the accumulator at what the point before left (at anything
    at the first point) and takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  have hN : t.val < 64 := lt_of_lt_of_eq t.isLt (show cfg0.N = 64 from N_0)
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [PhiS0_castSucc V c t, PhiS0_zero V c _ _ h0, PhiA0_eq]
    rw [accAt0_first V c t h0]
    rw [← sout0_A_eq c (grid0.coords t) (ms0_0 t) (hs0_0 t) (ms0_1 t) (hs0_1 t) (ms0_2 t) (hs0_2 t) scM0 (Memref.isWhole_whole _) hc0 hc1 (iblk0 V c 0 t) (iblk0 V c 1 t)]
    unfold sout0_A
    iintro ⟨⟨⟨HS, HR⟩, Hg⟩, Ho, ⟨%d0, H0⟩, ⟨%d1, H1⟩, ⟨%d2, H2⟩⟩
    iapply ((kernelRun0_A c (grid0.coords t) (ms0_0 t) (hs0_0 t) (ms0_1 t) (hs0_1 t) (ms0_2 t) (hs0_2 t) scM0 (Memref.isWhole_whole _) hc0 hc1 (iblk0 V c 0 t) (iblk0 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS HR Hg]
    · isplitl [HS HR]
      · isplitl [HS]
        · unfold owns; iexists _; isplitr
          swap; · iexact HS
          ipureintro; exact View.read_writes_of_cover _ _ _ _ _ (scover0_A c (grid0.coords t) (ms0_0 t) (hs0_0 t) (ms0_1 t) (hs0_1 t) (ms0_2 t) (hs0_2 t) scM0 (Memref.isWhole_whole _) hc0 hc1 (iblk0 V c 0 t) (iblk0 V c 1 t))
        iexact HR
      iexact Hg
    isplitl [Ho]; · iexact Ho
    isplitl [H0]; · iexact H0
    isplitl [H1]; · iexact H1
    iexists _; iexact H2
  · have hc0 : ¬cond0_0 (grid0.coords t) := fun h => h0 ((hcond0_0 t).mp h)
    by_cases h1 : t.val = 63
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [PhiS0_castSucc V c t, PhiS0_pos V c _ _ h0]
      rw [accAt0_next V c t h0]
      iintro ⟨⟨⟨HS, HR⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0 (Memref.isWhole_whole _) hc0 hc1 (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro
            exact (View.read_writes_of_cover _ _ _ _ _ (scover0_C c (grid0.coords t) (ms0_0 t) (hs0_0 t) (ms0_1 t) (hs0_1 t) (ms0_2 t) (hs0_2 t) scM0 (Memref.isWhole_whole _) hc0 hc1 (iblk0 V c 0 t) (iblk0 V c 1 t) _)).trans (sout0_C_eq c (grid0.coords t) (ms0_0 t) (hs0_0 t) (ms0_1 t) (hs0_1 t) (ms0_2 t) (hs0_2 t) scM0 (Memref.isWhole_whole _) hc0 hc1 (iblk0 V c 0 t) (iblk0 V c 1 t) _)
          iexact HR
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover0_C c (grid0.coords t) (ms0_0 t) (hs0_0 t) (ms0_1 t) (hs0_1 t) (ms0_2 t) (hs0_2 t) scM0 (Memref.isWhole_whole _) hc0 hc1 (iblk0 V c 0 t) (iblk0 V c 1 t) _)).trans (out0_C_eq c (grid0.coords t) (ms0_0 t) (hs0_0 t) (ms0_1 t) (hs0_1 t) (ms0_2 t) (hs0_2 t) scM0 (Memref.isWhole_whole _) hc0 hc1 (iblk0 V c 0 t) (iblk0 V c 1 t) _)
    · have hc1 : ¬cond0_1 (grid0.coords t) := fun h => h1 ((hcond0_1 t).mp h)
      rw [Dat.leavesExact_idle (dat0 V c) 2 t (idleAt0_2 t hc1) (noFlush0_2 t hc1)]
      rw [PhiS0_castSucc V c t, PhiS0_pos V c _ _ h0]
      rw [accAt0_next V c t h0]
      iintro ⟨⟨⟨HS, HR⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0 (Memref.isWhole_whole _) hc0 hc1 (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro
            exact (View.read_writes_of_cover _ _ _ _ _ (scover0_B c (grid0.coords t) (ms0_0 t) (hs0_0 t) (ms0_1 t) (hs0_1 t) (ms0_2 t) (hs0_2 t) scM0 (Memref.isWhole_whole _) hc0 hc1 (iblk0 V c 0 t) (iblk0 V c 1 t) _)).trans (sout0_B_eq c (grid0.coords t) (ms0_0 t) (hs0_0 t) (ms0_1 t) (hs0_1 t) (ms0_2 t) (hs0_2 t) scM0 (Memref.isWhole_whole _) hc0 hc1 (iblk0 V c 0 t) (iblk0 V c 1 t) _)
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, and after the last point the invariant gives it back. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS, HR⟩, Hg⟩
  isplitl [HS HR]
  · isplitl [HS]
    · iexists _; iexact HS
    iexact HR
  iexact Hg

end Cert.Kernel.Frm

end
-- ==== Proof.BEdge0.lean ====
/-
  Region 0: how the core's unscoped buffers make the pipeline's arrays at entry and are made of them again at exit.
  Both input windows read the same argument array, so that one buffer, held whole, is dealt to the two windows as the
  two halves of its share at entry and joined again at exit; it is never written. The output array is one [1,1] buffer, whole,
  which the last point's write-back overwrites.
-/
import proofs.«149046_j33449205301987_1_alg».proof.Proof.BDat0
import Idealize.ShloMosaic.Lib.Pipeline.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs0_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop(((((c : Thread nD τ).loc main_arg0)) ↦{fullShare} Vc main_arg0) ∗ ((((c : Thread nD τ).loc main_v0)) ↦{fullShare} Vc main_v0)) := by
  unfold Pipeline.arrBufs
  rw [show (Finset.univ.image (Pipeline.arrRef spec0)) = insert main_arg0 {main_v0} from by decide]
  rw [BI.bigSep_insert (by decide), BI.bigSep_singleton]
  rfl

/-- The pipeline's arrays, window by window, each a whole buffer at its share. -/
theorem arrays0_eq (c : Dev nD) (G : (w : Fin cfg0.W) → Buf (Elt F) ((cfg0.win w).arr.view.loc (c.tc : Thread nD τ))) :
    ((dat0 V c).arrays G : sProp 𝕄)
      = iprop(((((c : Thread nD τ).loc main_arg0)) ↦{fullShare.left} G 0) ∗ ((((c : Thread nD τ).loc main_arg0)) ↦{fullShare.right} G 1) ∗ ((((c : Thread nD τ).loc main_v0)) ↦{fullShare} G 2)) := by
  unfold Dat.arrays; rw [bigSep_W0]
  rw [(arr_whole0 0).set_eq_univ]
  try rw [(arr_whole0 1).set_eq_univ]
  rw [(arr_whole0 2).set_eq_univ]
  rfl

/-- ENTRY: the unscoped buffers at `V` are the arrays at the proof data's entry contents and the rest. -/
theorem enter0 (c : Dev nD) :
    (unscopedBufs c (V c) : sProp 𝕄) ⊢ iprop((dat0 V c).arrays ((dat0 V c).arrAt · 0) ∗ Pipeline.unscopedRest spec0 c (V c)) := by
  rw [show (unscopedBufs c (V c) : sProp 𝕄) = iprop(Pipeline.arrBufs spec0 c (V c) ∗ Pipeline.unscopedRest spec0 c (V c)) from Pipeline.unscopedBufs_split₀ cfgs 0 (by decide) c (V c), arrBufs0_eq, arrays0_eq]
  show iprop(_ ∗ Pipeline.unscopedRest spec0 c (V c)) ⊢ iprop((((((c : Thread nD τ).loc main_arg0)) ↦{fullShare.left} V c main_arg0) ∗ ((((c : Thread nD τ).loc main_arg0)) ↦{fullShare.right} V c main_arg0) ∗ ((((c : Thread nD τ).loc main_v0)) ↦{fullShare} V c main_v0)) ∗ _)
  iintro ⟨⟨HA, HO⟩, HR⟩
  ihave HA' := (pointsTo_share (PosShare.mem_left_op_right fullShare)).1 $$ HA
  icases HA' with ⟨HL, HRt⟩
  isplitr [HR]
  · isplitl [HL]; · iexact HL
    isplitl [HRt]; · iexact HRt
    iexact HO
  iexact HR

/-- EXIT: the arrays at their final contents and the rest at `V` are the unscoped buffers at any valuation that has
    the output array at its final contents and agrees with `V` elsewhere. -/
theorem exit0 (c : Dev nD) (V' : (b : Ref sig .tc) → Buf (Elt F) ((c : Thread nD τ).loc b))
    (hO : V' main_v0 = (dat0 V c).arrAt 2 cfg0.N) (hrest : ∀ b : Ref sig .tc, b ≠ main_v0 → V' b = V c b) :
    iprop((dat0 V c).arrays ((dat0 V c).arrAt · cfg0.N) ∗ Pipeline.unscopedRest spec0 c (V c)) ⊢ (unscopedBufs c V' : sProp 𝕄) := by
  rw [show (unscopedBufs c V' : sProp 𝕄) = iprop(Pipeline.arrBufs spec0 c V' ∗ Pipeline.unscopedRest spec0 c V') from Pipeline.unscopedBufs_split₀ cfgs 0 (by decide) c V', arrBufs0_eq, arrays0_eq]
  have e0 : (dat0 V c).arrAt 0 cfg0.N = V' main_arg0 := ((dat0 V c).arrAt_in 0 rfl _).trans ((A_eq0 V c 0).trans (hrest main_arg0 (by decide)).symm)
  have e1 : (dat0 V c).arrAt 1 cfg0.N = V' main_arg0 := ((dat0 V c).arrAt_in 1 rfl _).trans ((A_eq0 V c 1).trans (hrest main_arg0 (by decide)).symm)
  have er : (Pipeline.unscopedRest (Ix := Unit) (Name := ℕ) (U := UR sig nD τ) (Lvl := ℕ) spec0 c (V c) : sProp 𝕄) = Pipeline.unscopedRest spec0 c V' := by
    unfold Pipeline.unscopedRest
    refine BI.bigSep_congr fun b hb => ?_
    rw [hrest b (fun e => (Finset.mem_sdiff.mp hb).2 (Finset.mem_image.mpr ⟨2, Finset.mem_univ _, e ▸ rfl⟩))]
  rw [er]
  show iprop((((((c : Thread nD τ).loc main_arg0)) ↦{fullShare.left} (dat0 V c).arrAt 0 cfg0.N) ∗ ((((c : Thread nD τ).loc main_arg0)) ↦{fullShare.right} (dat0 V c).arrAt 1 cfg0.N) ∗ ((((c : Thread nD τ).loc main_v0)) ↦{fullShare} (dat0 V c).arrAt 2 cfg0.N)) ∗ _) ⊢ _
  rw [e0, e1, ← hO]
  iintro ⟨⟨HL, HRt, HO⟩, HR⟩
  isplitr [HR]
  · isplitr [HO]
    · iapply (pointsTo_share (PosShare.mem_left_op_right fullShare)).2
      isplitl [HL]; · iexact HL
      iexact HRt
    iexact HO
  iexact HR

end Cert.Kernel.Frm

end
-- ==== Proof.BConds1.lean ====
/-
  Region 1 of the program: the two branch conditions of the tile body read off the grid point, where the output
  window is idle, and the body run once per control case. The grid is 8 x 8, walked row-major as 64 points; the first
  branch (the accumulator is zeroed) is taken at point 0 only, the second (the accumulator is copied to the output
  block) at point 63 only; at every point the body adds the tile's sum to the accumulator.
-/
import proofs.«149046_j33449205301987_1_alg».proof.Proof.Gen.Kernel.Launch
import proofs.«149046_j33449205301987_1_alg».proof.Proof.Gen.Kernel.Skeleton
import proofs.«149046_j33449205301987_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition at a grid point: both coordinates are zero. -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second branch's condition: both coordinates are the last. -/
abbrev cond1_1 (i : grid1.Coords) : Prop := k1_cond2 i = 1#1
theorem hcond1_1 : ∀ t : Fin cfg1.N, cond1_1 (grid1.coords t) ↔ t.val = 63 :=
  (by decide +kernel : ∀ t : Fin grid1.N, cond1_1 (grid1.coords t) ↔ t.val = 63)

/-- The input windows are never idle; the output window is idle at every point but the last, where it is written back. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- The staging memrefs the body is called with at point `t`, the accumulator's memref, and the views their contents are read through. -/
abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev scM1 : Memref sig .tc .vmem S1x1 .f32 := Memref.whole cc1_scratch0
abbrev VS1 : View sig .tc .vmem S1x1 .f32 := (scM1).view
abbrev VO1 : View sig .tc .vmem S1x1 .f32 := (Memref.whole cc1_stg2_0 : Memref sig .tc .vmem S1x1 .f32).view

end Cert.Kernel.Frm

end
-- ==== Proof.BRunA1.lean ====
/-
  Region 1, the tile body run in one control case: on whole staging buffers holding the two row blocks, and the
  accumulator, the body terminates and hands back the row blocks untouched and the accumulator (and, at the last point,
  the output block) with the stored values written.
-/
import proofs.«149046_j33449205301987_1_alg».proof.Proof.BConds1

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point: the accumulator, whatever it held, is zeroed and the tile's sum added; the output block is left alone. -/
noncomputable def kernelRun1_A (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 x1 : Vec F S1024x128 .f32) :
    { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__kmean_kernel i arg2 harg2 arg3 harg3 arg4 harg4 arg5 harg5) K } := by
  refine ⟨?_, fun xi E K => ?run⟩
  case run =>
    simp only [cc1__kmean_kernel_eq_skeleton]; unfold cc1__kmean_kernel_skel
    simp only [k1_part1_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Frm

end
-- ==== Proof.BRunB1.lean ====
/-
  Region 1, the tile body run in one control case: on whole staging buffers holding the two row blocks, and the
  accumulator, the body terminates and hands back the row blocks untouched and the accumulator (and, at the last point,
  the output block) with the stored values written.
-/
import proofs.«149046_j33449205301987_1_alg».proof.Proof.BConds1

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle point: the tile's sum is added to what the accumulator held; the output block is left alone. -/
noncomputable def kernelRun1_B (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 x1 : Vec F S1024x128 .f32) (xs : Vec F S1x1 .f32) :
    { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc1__kmean_kernel i arg2 harg2 arg3 harg3 arg4 harg4 arg5 harg5) K } := by
  refine ⟨?_, fun xi E K => ?run⟩
  case run =>
    simp only [cc1__kmean_kernel_eq_skeleton]; unfold cc1__kmean_kernel_skel
    simp only [k1_part1_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Frm

end
-- ==== Proof.BRunC1.lean ====
/-
  Region 1, the tile body run in one control case: on whole staging buffers holding the two row blocks, and the
  accumulator, the body terminates and hands back the row blocks untouched and the accumulator (and, at the last point,
  the output block) with the stored values written.
-/
import proofs.«149046_j33449205301987_1_alg».proof.Proof.BConds1

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last point: the tile's sum is added to what the accumulator held, and the accumulator is copied to the output block. -/
noncomputable def kernelRun1_C (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 x1 : Vec F S1024x128 .f32) (xs : Vec F S1x1 .f32) :
    Σ' (L2 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__kmean_kernel i arg2 harg2 arg3 harg3 arg4 harg4 arg5 harg5) K } := by
  refine ⟨?_, ?_, fun E K => ?run⟩
  case run =>
    simp only [cc1__kmean_kernel_eq_skeleton]; unfold cc1__kmean_kernel_skel
    simp only [k1_part1_eq_skeleton]
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Frm

end
-- ==== Proof.BOuts1.lean ====
/-
  Region 1: what each control case of the tile body leaves in the accumulator and in the output block, as values.
  Every store of the body writes a whole [1,1] block, so the stored pieces cover it and the contents read back are
  the last stored value: at the first point the tile's sum added to zero, at a later point the tile's sum added to
  what the accumulator held, and at the last point the output block holds that same sum.
-/
import proofs.«149046_j33449205301987_1_alg».proof.Proof.BRunA1
import proofs.«149046_j33449205301987_1_alg».proof.Proof.BRunB1
import proofs.«149046_j33449205301987_1_alg».proof.Proof.BRunC1
import proofs.«149046_j33449205301987_1_alg».proof.Proof.BOuts0
import Idealize.ShloMosaic.Lib.Pipeline.Value

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover1_A (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i) (x0 x1 : Vec F S1024x128 .f32) (y : S1x1.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S1x1.size (by sl_kernel_rfl) y

/-- The accumulator after the first point. -/
def sout1_A (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i) (x0 x1 : Vec F S1024x128 .f32) : Vec F S1x1 .f32 :=
  VS1.read (Elt F) (VS1.writes (Elt F) VS1.junk (kernelRun1_A c i arg2 harg2 arg3 harg3 arg4 harg4 arg5 harg5 hc0 hc1 x0 x1).1)

theorem sout1_A_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i) (x0 x1 : Vec F S1024x128 .f32) :
    sout1_A c i arg2 harg2 arg3 harg3 arg4 harg4 arg5 harg5 hc0 hc1 x0 x1 = k1_pay2 x0 x1 (k1_pay1 (F := F)) := by
  unfold sout1_A
  rw [View.read_writes_eq_canon _ _ _ (scover1_A c i arg2 harg2 arg3 harg3 arg4 harg4 arg5 harg5 hc0 hc1 x0 x1)]
  unfold kernelRun1_A; dsimp only
  refine (View.canon_cons_unit_zero (S := S1x1) hz11 _ _ _).trans ?_
  sl_unfold_run_names
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : arg5.view.readCov [(⟨Rect.unit ![0, 0] S1x1.size inb_S1x1_S1x1_0_0, k1_pay1 (F := F)⟩ : View.Piece (Elt F) S1x1 .f32)] (Rect.unit ![0, 0] S1x1.size inb_S1x1_S1x1_0_0).toLoadRect = k1_pay1 (F := F) :=
    View.readCov_unit_zero (S := S1x1) arg5.view hz11 inb_S1x1_S1x1_0_0 _
  rw [e0, e1, e2]

theorem scover1_B (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i) (x0 x1 : Vec F S1024x128 .f32) (xs : Vec F S1x1 .f32) (y : S1x1.Idx) :
    ∃ pc ∈ (kernelRun1_B c i arg2 harg2 arg3 harg3 arg4 harg4 arg5 harg5 hc0 hc1 x0 x1 xs).1, y ∈ pc.1.set :=
  View.cover_of_tiledL (kernelRun1_B c i arg2 harg2 arg3 harg3 arg4 harg4 arg5 harg5 hc0 hc1 x0 x1 xs).1 S1x1.size (by sl_kernel_rfl) y

/-- The accumulator after a middle point. -/
def sout1_B (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i) (x0 x1 : Vec F S1024x128 .f32) (xs : Vec F S1x1 .f32) : Vec F S1x1 .f32 :=
  VS1.read (Elt F) (VS1.writes (Elt F) VS1.junk (kernelRun1_B c i arg2 harg2 arg3 harg3 arg4 harg4 arg5 harg5 hc0 hc1 x0 x1 xs).1)

theorem sout1_B_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i) (x0 x1 : Vec F S1024x128 .f32) (xs : Vec F S1x1 .f32) :
    sout1_B c i arg2 harg2 arg3 harg3 arg4 harg4 arg5 harg5 hc0 hc1 x0 x1 xs = k1_pay2 x0 x1 xs := by
  unfold sout1_B
  rw [View.read_writes_eq_canon _ _ _ (scover1_B c i arg2 harg2 arg3 harg3 arg4 harg4 arg5 harg5 hc0 hc1 x0 x1 xs)]
  unfold kernelRun1_B; dsimp only
  refine (View.canon_cons_unit_zero (S := S1x1) hz11 _ _ _).trans ?_
  sl_unfold_run_names
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : View.readAt (Elt F) arg5.view (Rect.unit ![0, 0] S1x1.size inb_S1x1_S1x1_0_0).toLoadRect (harg5.unread xs) = xs := by
    rw [View.readAt_eq_ld, harg5.read_unread]; exact View.ld_unit_zero (S := S1x1) hz11 _ xs
  rw [e0, e1, e2]

theorem scover1_C (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x128 .f32) (xs : Vec F S1x1 .f32) (y : S1x1.Idx) :
    ∃ pc ∈ (kernelRun1_C c i arg2 harg2 arg3 harg3 arg4 harg4 arg5 harg5 hc0 hc1 x0 x1 xs).2.1, y ∈ pc.1.set :=
  View.cover_of_tiledL (kernelRun1_C c i arg2 harg2 arg3 harg3 arg4 harg4 arg5 harg5 hc0 hc1 x0 x1 xs).2.1 S1x1.size (by sl_kernel_rfl) y

/-- The accumulator after the last point. -/
def sout1_C (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x128 .f32) (xs : Vec F S1x1 .f32) : Vec F S1x1 .f32 :=
  VS1.read (Elt F) (VS1.writes (Elt F) VS1.junk (kernelRun1_C c i arg2 harg2 arg3 harg3 arg4 harg4 arg5 harg5 hc0 hc1 x0 x1 xs).2.1)

theorem sout1_C_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x128 .f32) (xs : Vec F S1x1 .f32) :
    sout1_C c i arg2 harg2 arg3 harg3 arg4 harg4 arg5 harg5 hc0 hc1 x0 x1 xs = k1_pay2 x0 x1 xs := by
  unfold sout1_C
  rw [View.read_writes_eq_canon _ _ _ (scover1_C c i arg2 harg2 arg3 harg3 arg4 harg4 arg5 harg5 hc0 hc1 x0 x1 xs)]
  unfold kernelRun1_C; dsimp only
  refine (View.canon_cons_unit_zero (S := S1x1) hz11 _ _ _).trans ?_
  sl_unfold_run_names
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : View.readAt (Elt F) arg5.view (Rect.unit ![0, 0] S1x1.size inb_S1x1_S1x1_0_0).toLoadRect (harg5.unread xs) = xs := by
    rw [View.readAt_eq_ld, harg5.read_unread]; exact View.ld_unit_zero (S := S1x1) hz11 _ xs
  rw [e0, e1, e2]

theorem cover1_C (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x128 .f32) (xs : Vec F S1x1 .f32) (y : S1x1.Idx) :
    ∃ pc ∈ (kernelRun1_C c i arg2 harg2 arg3 harg3 arg4 harg4 arg5 harg5 hc0 hc1 x0 x1 xs).1, y ∈ pc.1.set :=
  View.cover_of_tiledL (kernelRun1_C c i arg2 harg2 arg3 harg3 arg4 harg4 arg5 harg5 hc0 hc1 x0 x1 xs).1 S1x1.size (by sl_kernel_rfl) y

/-- The output block after the last point. -/
def out1_C (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x128 .f32) (xs : Vec F S1x1 .f32) : Vec F S1x1 .f32 :=
  VO1.read (Elt F) (VO1.writes (Elt F) VO1.junk (kernelRun1_C c i arg2 harg2 arg3 harg3 arg4 harg4 arg5 harg5 hc0 hc1 x0 x1 xs).1)

theorem out1_C_eq (c : Dev nD) (i : grid1.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i) (x0 x1 : Vec F S1024x128 .f32) (xs : Vec F S1x1 .f32) :
    out1_C c i arg2 harg2 arg3 harg3 arg4 harg4 arg5 harg5 hc0 hc1 x0 x1 xs = k1_pay2 x0 x1 xs := by
  unfold out1_C
  rw [View.read_writes_eq_canon _ _ _ (cover1_C c i arg2 harg2 arg3 harg3 arg4 harg4 arg5 harg5 hc0 hc1 x0 x1 xs)]
  unfold kernelRun1_C; dsimp only
  refine (View.canon_cons_unit_zero (S := S1x1) hz11 _ _ _).trans ?_
  sl_unfold_run_names
  refine (View.readCov_unit_zero (S := S1x1) arg5.view hz11 inb_S1x1_S1x1_0_0 _).trans ?_
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : View.readAt (Elt F) arg5.view (Rect.unit ![0, 0] S1x1.size inb_S1x1_S1x1_0_0).toLoadRect (harg5.unread xs) = xs := by
    rw [View.readAt_eq_ld, harg5.read_unread]; exact View.ld_unit_zero (S := S1x1) hz11 _ xs
  rw [e0, e1, e2]

end Cert.Kernel.Frm

end
-- ==== Proof.BDat1.lean ====
/-
  Region 1: the proof data of its pipeline and the body obligation. After the body at point n the accumulator
  holds the sum of the tiles 0..n (each tile's sum added in turn, starting from zero at point 0); the two input
  windows' buffers hold their row blocks at every point; the output block is written at the last point only, with the
  accumulator's value. Between points the invariant keeps the accumulator at that value beside the core's other
  scoped buffers, which this region does not touch.
-/
import proofs.«149046_j33449205301987_1_alg».proof.Proof.BOuts1

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION: the accumulator after the body at point `n` — the tile's sum added to zero at point 0, to the previous value afterwards. -/
def accAt1 (c : Dev nD) : (n : ℕ) → n < cfg1.N → Vec F S1x1 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩) (accAt1 c n (Nat.lt_of_succ_lt hn))

theorem accAt1_first (c : Dev nD) (t : Fin cfg1.N) (h0 : t.val = 0) :
    accAt1 V c t.val t.isLt = k1_pay2 (iblk1 V c 0 t) (iblk1 V c 1 t) (k1_pay1 (F := F)) := by
  obtain ⟨n, hn⟩ := t
  cases n with
  | zero => rfl
  | succ n => exact absurd h0 (Nat.succ_ne_zero n)

theorem accAt1_next (c : Dev nD) (t : Fin cfg1.N) (h0 : t.val ≠ 0) :
    accAt1 V c t.val t.isLt = k1_pay2 (iblk1 V c 0 t) (iblk1 V c 1 t) (accAt1 V c (t.val - 1) (Nat.lt_of_le_of_lt (Nat.sub_le _ _) t.isLt)) := by
  obtain ⟨n, hn⟩ := t
  cases n with
  | zero => exact absurd rfl h0
  | succ n => rfl

/-- The core's scoped buffers other than this region's staging buffers and accumulator, at some contents each. -/
abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(((∃ d, owns (c : Thread nD τ) scM1 fullShare d) ∗ rest1 (F := F) c) ∗ (∃ r, prngReg c r)) := by
  unfold Pipeline.ΦA; rw [Pipeline.scopedRest_split_of_list spec1 c [cc1_scratch0] (by decide) (by decide)]
  simp only [scM1, owns_whole]; rfl

/-- The region invariant before position `n`: before the first point the accumulator holds anything; afterwards what the point before left. -/
def PhiS1 (c : Dev nD) : (n : ℕ) → n ≤ cfg1.N → sProp 𝕄
  | 0, _ => Pipeline.ΦA spec1 c
  | n + 1, hn => iprop((owns (c : Thread nD τ) scM1 fullShare (accAt1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (accAt1 V c n hn) ∗ rest1 (F := F) c) ∗ (∃ r, prngReg c r)) := rfl
theorem PhiS1_pos (c : Dev nD) (n : ℕ) (h : n ≤ cfg1.N) (hz : n ≠ 0) :
    PhiS1 V c n h = iprop((owns (c : Thread nD τ) scM1 fullShare (accAt1 V c (n - 1) (by omega)) ∗ rest1 (F := F) c) ∗ (∃ r, prngReg c r)) := by
  cases n with
  | zero => exact absurd rfl hz
  | succ n => rfl

/-- The proof data of the region's pipeline on core `c`, from the contents `V` the region finds. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the point is the first, the last or neither, which
    decides the two branches; the invariant hands the body the accumulator at what the point before left (at anything
    at the first point) and takes it back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  have hN : t.val < 64 := lt_of_lt_of_eq t.isLt (show cfg1.N = 64 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [PhiS1_castSucc V c t, PhiS1_zero V c _ _ h0, PhiA1_eq]
    rw [accAt1_first V c t h0]
    rw [← sout1_A_eq c (grid1.coords t) (ms1_0 t) (hs1_0 t) (ms1_1 t) (hs1_1 t) (ms1_2 t) (hs1_2 t) scM1 (Memref.isWhole_whole _) hc0 hc1 (iblk1 V c 0 t) (iblk1 V c 1 t)]
    unfold sout1_A
    iintro ⟨⟨⟨HS, HR⟩, Hg⟩, Ho, ⟨%d0, H0⟩, ⟨%d1, H1⟩, ⟨%d2, H2⟩⟩
    iapply ((kernelRun1_A c (grid1.coords t) (ms1_0 t) (hs1_0 t) (ms1_1 t) (hs1_1 t) (ms1_2 t) (hs1_2 t) scM1 (Memref.isWhole_whole _) hc0 hc1 (iblk1 V c 0 t) (iblk1 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS HR Hg]
    · isplitl [HS HR]
      · isplitl [HS]
        · unfold owns; iexists _; isplitr
          swap; · iexact HS
          ipureintro; exact View.read_writes_of_cover _ _ _ _ _ (scover1_A c (grid1.coords t) (ms1_0 t) (hs1_0 t) (ms1_1 t) (hs1_1 t) (ms1_2 t) (hs1_2 t) scM1 (Memref.isWhole_whole _) hc0 hc1 (iblk1 V c 0 t) (iblk1 V c 1 t))
        iexact HR
      iexact Hg
    isplitl [Ho]; · iexact Ho
    isplitl [H0]; · iexact H0
    isplitl [H1]; · iexact H1
    iexists _; iexact H2
  · have hc0 : ¬cond1_0 (grid1.coords t) := fun h => h0 ((hcond1_0 t).mp h)
    by_cases h1 : t.val = 63
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2]
      rw [PhiS1_castSucc V c t, PhiS1_pos V c _ _ h0]
      rw [accAt1_next V c t h0]
      iintro ⟨⟨⟨HS, HR⟩, Hg⟩, Ho, ⟨%d0, H0⟩, ⟨%d1, H1⟩, ⟨%d2, H2⟩⟩
      iapply ((kernelRun1_C c (grid1.coords t) (ms1_0 t) (hs1_0 t) (ms1_1 t) (hs1_1 t) (ms1_2 t) (hs1_2 t) scM1 (Memref.isWhole_whole _) hc0 hc1 (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro
            exact (View.read_writes_of_cover _ _ _ _ _ (scover1_C c (grid1.coords t) (ms1_0 t) (hs1_0 t) (ms1_1 t) (hs1_1 t) (ms1_2 t) (hs1_2 t) scM1 (Memref.isWhole_whole _) hc0 hc1 (iblk1 V c 0 t) (iblk1 V c 1 t) _)).trans (sout1_C_eq c (grid1.coords t) (ms1_0 t) (hs1_0 t) (ms1_1 t) (hs1_1 t) (ms1_2 t) (hs1_2 t) scM1 (Memref.isWhole_whole _) hc0 hc1 (iblk1 V c 0 t) (iblk1 V c 1 t) _)
          iexact HR
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover1_C c (grid1.coords t) (ms1_0 t) (hs1_0 t) (ms1_1 t) (hs1_1 t) (ms1_2 t) (hs1_2 t) scM1 (Memref.isWhole_whole _) hc0 hc1 (iblk1 V c 0 t) (iblk1 V c 1 t) _)).trans (out1_C_eq c (grid1.coords t) (ms1_0 t) (hs1_0 t) (ms1_1 t) (hs1_1 t) (ms1_2 t) (hs1_2 t) scM1 (Memref.isWhole_whole _) hc0 hc1 (iblk1 V c 0 t) (iblk1 V c 1 t) _)
    · have hc1 : ¬cond1_1 (grid1.coords t) := fun h => h1 ((hcond1_1 t).mp h)
      rw [Dat.leavesExact_idle (dat1 V c) 2 t (idleAt1_2 t hc1) (noFlush1_2 t hc1)]
      rw [PhiS1_castSucc V c t, PhiS1_pos V c _ _ h0]
      rw [accAt1_next V c t h0]
      iintro ⟨⟨⟨HS, HR⟩, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1 (Memref.isWhole_whole _) hc0 hc1 (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro
            exact (View.read_writes_of_cover _ _ _ _ _ (scover1_B c (grid1.coords t) (ms1_0 t) (hs1_0 t) (ms1_1 t) (hs1_1 t) (ms1_2 t) (hs1_2 t) scM1 (Memref.isWhole_whole _) hc0 hc1 (iblk1 V c 0 t) (iblk1 V c 1 t) _)).trans (sout1_B_eq c (grid1.coords t) (ms1_0 t) (hs1_0 t) (ms1_1 t) (hs1_1 t) (ms1_2 t) (hs1_2 t) scM1 (Memref.isWhole_whole _) hc0 hc1 (iblk1 V c 0 t) (iblk1 V c 1 t) _)
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, and after the last point the invariant gives it back. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, HR⟩, Hg⟩
  isplitl [HS HR]
  · isplitl [HS]
    · iexists _; iexact HS
    iexact HR
  iexact Hg

end Cert.Kernel.Frm

end
-- ==== Proof.BEdge1.lean ====
/-
  Region 1: how the core's unscoped buffers make the pipeline's arrays at entry and are made of them again at exit.
  Both input windows read the same argument array, so that one buffer, held whole, is dealt to the two windows as the
  two halves of its share at entry and joined again at exit; it is never written. The output array is one [1,1] buffer, whole,
  which the last point's write-back overwrites.
-/
import proofs.«149046_j33449205301987_1_alg».proof.Proof.BDat1
import Idealize.ShloMosaic.Lib.Pipeline.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop(((((c : Thread nD τ).loc main_arg1)) ↦{fullShare} Vc main_arg1) ∗ ((((c : Thread nD τ).loc main_v3)) ↦{fullShare} Vc main_v3)) := by
  unfold Pipeline.arrBufs
  rw [show (Finset.univ.image (Pipeline.arrRef spec1)) = insert main_arg1 {main_v3} from by decide]
  rw [BI.bigSep_insert (by decide), BI.bigSep_singleton]
  rfl

/-- The pipeline's arrays, window by window, each a whole buffer at its share. -/
theorem arrays1_eq (c : Dev nD) (G : (w : Fin cfg1.W) → Buf (Elt F) ((cfg1.win w).arr.view.loc (c.tc : Thread nD τ))) :
    ((dat1 V c).arrays G : sProp 𝕄)
      = iprop(((((c : Thread nD τ).loc main_arg1)) ↦{fullShare.left} G 0) ∗ ((((c : Thread nD τ).loc main_arg1)) ↦{fullShare.right} G 1) ∗ ((((c : Thread nD τ).loc main_v3)) ↦{fullShare} G 2)) := by
  unfold Dat.arrays; rw [bigSep_W1]
  rw [(arr_whole1 0).set_eq_univ]
  try rw [(arr_whole1 1).set_eq_univ]
  rw [(arr_whole1 2).set_eq_univ]
  rfl

/-- ENTRY: the unscoped buffers at `V` are the arrays at the proof data's entry contents and the rest. -/
theorem enter1 (c : Dev nD) :
    (unscopedBufs c (V c) : sProp 𝕄) ⊢ iprop((dat1 V c).arrays ((dat1 V c).arrAt · 0) ∗ Pipeline.unscopedRest spec1 c (V c)) := by
  rw [show (unscopedBufs c (V c) : sProp 𝕄) = iprop(Pipeline.arrBufs spec1 c (V c) ∗ Pipeline.unscopedRest spec1 c (V c)) from Pipeline.unscopedBufs_split₀ cfgs 1 (by decide) c (V c), arrBufs1_eq, arrays1_eq]
  show iprop(_ ∗ Pipeline.unscopedRest spec1 c (V c)) ⊢ iprop((((((c : Thread nD τ).loc main_arg1)) ↦{fullShare.left} V c main_arg1) ∗ ((((c : Thread nD τ).loc main_arg1)) ↦{fullShare.right} V c main_arg1) ∗ ((((c : Thread nD τ).loc main_v3)) ↦{fullShare} V c main_v3)) ∗ _)
  iintro ⟨⟨HA, HO⟩, HR⟩
  ihave HA' := (pointsTo_share (PosShare.mem_left_op_right fullShare)).1 $$ HA
  icases HA' with ⟨HL, HRt⟩
  isplitr [HR]
  · isplitl [HL]; · iexact HL
    isplitl [HRt]; · iexact HRt
    iexact HO
  iexact HR

/-- EXIT: the arrays at their final contents and the rest at `V` are the unscoped buffers at any valuation that has
    the output array at its final contents and agrees with `V` elsewhere. -/
theorem exit1 (c : Dev nD) (V' : (b : Ref sig .tc) → Buf (Elt F) ((c : Thread nD τ).loc b))
    (hO : V' main_v3 = (dat1 V c).arrAt 2 cfg1.N) (hrest : ∀ b : Ref sig .tc, b ≠ main_v3 → V' b = V c b) :
    iprop((dat1 V c).arrays ((dat1 V c).arrAt · cfg1.N) ∗ Pipeline.unscopedRest spec1 c (V c)) ⊢ (unscopedBufs c V' : sProp 𝕄) := by
  rw [show (unscopedBufs c V' : sProp 𝕄) = iprop(Pipeline.arrBufs spec1 c V' ∗ Pipeline.unscopedRest spec1 c V') from Pipeline.unscopedBufs_split₀ cfgs 1 (by decide) c V', arrBufs1_eq, arrays1_eq]
  have e0 : (dat1 V c).arrAt 0 cfg1.N = V' main_arg1 := ((dat1 V c).arrAt_in 0 rfl _).trans ((A_eq1 V c 0).trans (hrest main_arg1 (by decide)).symm)
  have e1 : (dat1 V c).arrAt 1 cfg1.N = V' main_arg1 := ((dat1 V c).arrAt_in 1 rfl _).trans ((A_eq1 V c 1).trans (hrest main_arg1 (by decide)).symm)
  have er : (Pipeline.unscopedRest (Ix := Unit) (Name := ℕ) (U := UR sig nD τ) (Lvl := ℕ) spec1 c (V c) : sProp 𝕄) = Pipeline.unscopedRest spec1 c V' := by
    unfold Pipeline.unscopedRest
    refine BI.bigSep_congr fun b hb => ?_
    rw [hrest b (fun e => (Finset.mem_sdiff.mp hb).2 (Finset.mem_image.mpr ⟨2, Finset.mem_univ _, e ▸ rfl⟩))]
  rw [er]
  show iprop((((((c : Thread nD τ).loc main_arg1)) ↦{fullShare.left} (dat1 V c).arrAt 0 cfg1.N) ∗ ((((c : Thread nD τ).loc main_arg1)) ↦{fullShare.right} (dat1 V c).arrAt 1 cfg1.N) ∗ ((((c : Thread nD τ).loc main_v3)) ↦{fullShare} (dat1 V c).arrAt 2 cfg1.N)) ∗ _) ⊢ _
  rw [e0, e1, ← hO]
  iintro ⟨⟨HL, HRt, HO⟩, HR⟩
  isplitr [HR]
  · isplitr [HO]
    · iapply (pointsTo_share (PosShare.mem_left_op_right fullShare)).2
      isplitl [HL]; · iexact HL
      iexact HRt
    iexact HO
  iexact HR

end Cert.Kernel.Frm

end
-- ==== Proof.BConds2.lean ====
/-
  Region 2 of the program: the two branch conditions of the tile body read off the grid point, where the output
  window is idle, and the body run once per control case. The grid is 8 x 8, walked row-major as 64 points; the first
  branch (the accumulator is zeroed) is taken at point 0 only, the second (the accumulator is copied to the output
  block) at point 63 only; at every point the body adds the tile's sum to the accumulator.
-/
import proofs.«149046_j33449205301987_1_alg».proof.Proof.Gen.Kernel.Launch
import proofs.«149046_j33449205301987_1_alg».proof.Proof.Gen.Kernel.Skeleton
import proofs.«149046_j33449205301987_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition at a grid point: both coordinates are zero. -/
abbrev cond2_0 (i : grid2.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond2_0 : ∀ t : Fin cfg2.N, cond2_0 (grid2.coords t) ↔ t.val = 0 :=
  (by decide +kernel : ∀ t : Fin grid2.N, cond2_0 (grid2.coords t) ↔ t.val = 0)

/-- The second branch's condition: both coordinates are the last. -/
abbrev cond2_1 (i : grid2.Coords) : Prop := k2_cond2 i = 1#1
theorem hcond2_1 : ∀ t : Fin cfg2.N, cond2_1 (grid2.coords t) ↔ t.val = 63 :=
  (by decide +kernel : ∀ t : Fin grid2.N, cond2_1 (grid2.coords t) ↔ t.val = 63)

/-- The input windows are never idle; the output window is idle at every point but the last, where it is written back. -/
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-- The staging memrefs the body is called with at point `t`, the accumulator's memref, and the views their contents are read through. -/
abbrev ms2_0 (t : Fin cfg2.N) : Memref sig .tc .vmem S1024x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
abbrev scM2 : Memref sig .tc .vmem S1x1 .f32 := Memref.whole cc2_scratch0
abbrev VS2 : View sig .tc .vmem S1x1 .f32 := (scM2).view
abbrev VO2 : View sig .tc .vmem S1x1 .f32 := (Memref.whole cc2_stg2_0 : Memref sig .tc .vmem S1x1 .f32).view

end Cert.Kernel.Frm

end
-- ==== Proof.BRunA2.lean ====
/-
  Region 2, the tile body run in one control case: on whole staging buffers holding the two row blocks, and the
  accumulator, the body terminates and hands back the row blocks untouched and the accumulator (and, at the last point,
  the output block) with the stored values written.
-/
import proofs.«149046_j33449205301987_1_alg».proof.Proof.BConds2

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point: the accumulator, whatever it held, is zeroed and the tile's sum added; the output block is left alone. -/
noncomputable def kernelRun2_A (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond2_0 i) (hc1 : ¬cond2_1 i)
    (x0 x1 : Vec F S1024x128 .f32) :
    { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc2__kmean_kernel i arg2 harg2 arg3 harg3 arg4 harg4 arg5 harg5) K } := by
  refine ⟨?_, fun xi E K => ?run⟩
  case run =>
    simp only [cc2__kmean_kernel_eq_skeleton]; unfold cc2__kmean_kernel_skel
    simp only [k2_part1_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Frm

end
-- ==== Proof.BRunB2.lean ====
/-
  Region 2, the tile body run in one control case: on whole staging buffers holding the two row blocks, and the
  accumulator, the body terminates and hands back the row blocks untouched and the accumulator (and, at the last point,
  the output block) with the stored values written.
-/
import proofs.«149046_j33449205301987_1_alg».proof.Proof.BConds2

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle point: the tile's sum is added to what the accumulator held; the output block is left alone. -/
noncomputable def kernelRun2_B (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : ¬cond2_1 i)
    (x0 x1 : Vec F S1024x128 .f32) (xs : Vec F S1x1 .f32) :
    { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc2__kmean_kernel i arg2 harg2 arg3 harg3 arg4 harg4 arg5 harg5) K } := by
  refine ⟨?_, fun xi E K => ?run⟩
  case run =>
    simp only [cc2__kmean_kernel_eq_skeleton]; unfold cc2__kmean_kernel_skel
    simp only [k2_part1_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Frm

end
-- ==== Proof.BRunC2.lean ====
/-
  Region 2, the tile body run in one control case: on whole staging buffers holding the two row blocks, and the
  accumulator, the body terminates and hands back the row blocks untouched and the accumulator (and, at the last point,
  the output block) with the stored values written.
-/
import proofs.«149046_j33449205301987_1_alg».proof.Proof.BConds2

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last point: the tile's sum is added to what the accumulator held, and the accumulator is copied to the output block. -/
noncomputable def kernelRun2_C (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i)
    (x0 x1 : Vec F S1024x128 .f32) (xs : Vec F S1x1 .f32) :
    Σ' (L2 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc2__kmean_kernel i arg2 harg2 arg3 harg3 arg4 harg4 arg5 harg5) K } := by
  refine ⟨?_, ?_, fun E K => ?run⟩
  case run =>
    simp only [cc2__kmean_kernel_eq_skeleton]; unfold cc2__kmean_kernel_skel
    simp only [k2_part1_eq_skeleton]
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Frm

end
-- ==== Proof.BOuts2.lean ====
/-
  Region 2: what each control case of the tile body leaves in the accumulator and in the output block, as values.
  Every store of the body writes a whole [1,1] block, so the stored pieces cover it and the contents read back are
  the last stored value: at the first point the tile's sum added to zero, at a later point the tile's sum added to
  what the accumulator held, and at the last point the output block holds that same sum.
-/
import proofs.«149046_j33449205301987_1_alg».proof.Proof.BRunA2
import proofs.«149046_j33449205301987_1_alg».proof.Proof.BRunB2
import proofs.«149046_j33449205301987_1_alg».proof.Proof.BRunC2
import proofs.«149046_j33449205301987_1_alg».proof.Proof.BOuts0
import Idealize.ShloMosaic.Lib.Pipeline.Value

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover2_A (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond2_0 i) (hc1 : ¬cond2_1 i) (x0 x1 : Vec F S1024x128 .f32) (y : S1x1.Idx) :
    ∃ pc ∈ (kernelRun2_A c i arg2 harg2 arg3 harg3 arg4 harg4 arg5 harg5 hc0 hc1 x0 x1).1, y ∈ pc.1.set :=
  View.cover_of_tiledL (kernelRun2_A c i arg2 harg2 arg3 harg3 arg4 harg4 arg5 harg5 hc0 hc1 x0 x1).1 S1x1.size (by sl_kernel_rfl) y

/-- The accumulator after the first point. -/
def sout2_A (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond2_0 i) (hc1 : ¬cond2_1 i) (x0 x1 : Vec F S1024x128 .f32) : Vec F S1x1 .f32 :=
  VS2.read (Elt F) (VS2.writes (Elt F) VS2.junk (kernelRun2_A c i arg2 harg2 arg3 harg3 arg4 harg4 arg5 harg5 hc0 hc1 x0 x1).1)

theorem sout2_A_eq (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond2_0 i) (hc1 : ¬cond2_1 i) (x0 x1 : Vec F S1024x128 .f32) :
    sout2_A c i arg2 harg2 arg3 harg3 arg4 harg4 arg5 harg5 hc0 hc1 x0 x1 = k2_pay2 x0 x1 (k2_pay1 (F := F)) := by
  unfold sout2_A
  rw [View.read_writes_eq_canon _ _ _ (scover2_A c i arg2 harg2 arg3 harg3 arg4 harg4 arg5 harg5 hc0 hc1 x0 x1)]
  unfold kernelRun2_A; dsimp only
  refine (View.canon_cons_unit_zero (S := S1x1) hz11 _ _ _).trans ?_
  sl_unfold_run_names
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : arg5.view.readCov [(⟨Rect.unit ![0, 0] S1x1.size inb_S1x1_S1x1_0_0, k2_pay1 (F := F)⟩ : View.Piece (Elt F) S1x1 .f32)] (Rect.unit ![0, 0] S1x1.size inb_S1x1_S1x1_0_0).toLoadRect = k2_pay1 (F := F) :=
    View.readCov_unit_zero (S := S1x1) arg5.view hz11 inb_S1x1_S1x1_0_0 _
  rw [e0, e1, e2]

theorem scover2_B (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : ¬cond2_1 i) (x0 x1 : Vec F S1024x128 .f32) (xs : Vec F S1x1 .f32) (y : S1x1.Idx) :
    ∃ pc ∈ (kernelRun2_B c i arg2 harg2 arg3 harg3 arg4 harg4 arg5 harg5 hc0 hc1 x0 x1 xs).1, y ∈ pc.1.set :=
  View.cover_of_tiledL (kernelRun2_B c i arg2 harg2 arg3 harg3 arg4 harg4 arg5 harg5 hc0 hc1 x0 x1 xs).1 S1x1.size (by sl_kernel_rfl) y

/-- The accumulator after a middle point. -/
def sout2_B (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : ¬cond2_1 i) (x0 x1 : Vec F S1024x128 .f32) (xs : Vec F S1x1 .f32) : Vec F S1x1 .f32 :=
  VS2.read (Elt F) (VS2.writes (Elt F) VS2.junk (kernelRun2_B c i arg2 harg2 arg3 harg3 arg4 harg4 arg5 harg5 hc0 hc1 x0 x1 xs).1)

theorem sout2_B_eq (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : ¬cond2_1 i) (x0 x1 : Vec F S1024x128 .f32) (xs : Vec F S1x1 .f32) :
    sout2_B c i arg2 harg2 arg3 harg3 arg4 harg4 arg5 harg5 hc0 hc1 x0 x1 xs = k2_pay2 x0 x1 xs := by
  unfold sout2_B
  rw [View.read_writes_eq_canon _ _ _ (scover2_B c i arg2 harg2 arg3 harg3 arg4 harg4 arg5 harg5 hc0 hc1 x0 x1 xs)]
  unfold kernelRun2_B; dsimp only
  refine (View.canon_cons_unit_zero (S := S1x1) hz11 _ _ _).trans ?_
  sl_unfold_run_names
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : View.readAt (Elt F) arg5.view (Rect.unit ![0, 0] S1x1.size inb_S1x1_S1x1_0_0).toLoadRect (harg5.unread xs) = xs := by
    rw [View.readAt_eq_ld, harg5.read_unread]; exact View.ld_unit_zero (S := S1x1) hz11 _ xs
  rw [e0, e1, e2]

theorem scover2_C (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 x1 : Vec F S1024x128 .f32) (xs : Vec F S1x1 .f32) (y : S1x1.Idx) :
    ∃ pc ∈ (kernelRun2_C c i arg2 harg2 arg3 harg3 arg4 harg4 arg5 harg5 hc0 hc1 x0 x1 xs).2.1, y ∈ pc.1.set :=
  View.cover_of_tiledL (kernelRun2_C c i arg2 harg2 arg3 harg3 arg4 harg4 arg5 harg5 hc0 hc1 x0 x1 xs).2.1 S1x1.size (by sl_kernel_rfl) y

/-- The accumulator after the last point. -/
def sout2_C (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 x1 : Vec F S1024x128 .f32) (xs : Vec F S1x1 .f32) : Vec F S1x1 .f32 :=
  VS2.read (Elt F) (VS2.writes (Elt F) VS2.junk (kernelRun2_C c i arg2 harg2 arg3 harg3 arg4 harg4 arg5 harg5 hc0 hc1 x0 x1 xs).2.1)

theorem sout2_C_eq (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 x1 : Vec F S1024x128 .f32) (xs : Vec F S1x1 .f32) :
    sout2_C c i arg2 harg2 arg3 harg3 arg4 harg4 arg5 harg5 hc0 hc1 x0 x1 xs = k2_pay2 x0 x1 xs := by
  unfold sout2_C
  rw [View.read_writes_eq_canon _ _ _ (scover2_C c i arg2 harg2 arg3 harg3 arg4 harg4 arg5 harg5 hc0 hc1 x0 x1 xs)]
  unfold kernelRun2_C; dsimp only
  refine (View.canon_cons_unit_zero (S := S1x1) hz11 _ _ _).trans ?_
  sl_unfold_run_names
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : View.readAt (Elt F) arg5.view (Rect.unit ![0, 0] S1x1.size inb_S1x1_S1x1_0_0).toLoadRect (harg5.unread xs) = xs := by
    rw [View.readAt_eq_ld, harg5.read_unread]; exact View.ld_unit_zero (S := S1x1) hz11 _ xs
  rw [e0, e1, e2]

theorem cover2_C (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 x1 : Vec F S1024x128 .f32) (xs : Vec F S1x1 .f32) (y : S1x1.Idx) :
    ∃ pc ∈ (kernelRun2_C c i arg2 harg2 arg3 harg3 arg4 harg4 arg5 harg5 hc0 hc1 x0 x1 xs).1, y ∈ pc.1.set :=
  View.cover_of_tiledL (kernelRun2_C c i arg2 harg2 arg3 harg3 arg4 harg4 arg5 harg5 hc0 hc1 x0 x1 xs).1 S1x1.size (by sl_kernel_rfl) y

/-- The output block after the last point. -/
def out2_C (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 x1 : Vec F S1024x128 .f32) (xs : Vec F S1x1 .f32) : Vec F S1x1 .f32 :=
  VO2.read (Elt F) (VO2.writes (Elt F) VO2.junk (kernelRun2_C c i arg2 harg2 arg3 harg3 arg4 harg4 arg5 harg5 hc0 hc1 x0 x1 xs).1)

theorem out2_C_eq (c : Dev nD) (i : grid2.Coords) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond2_0 i) (hc1 : cond2_1 i) (x0 x1 : Vec F S1024x128 .f32) (xs : Vec F S1x1 .f32) :
    out2_C c i arg2 harg2 arg3 harg3 arg4 harg4 arg5 harg5 hc0 hc1 x0 x1 xs = k2_pay2 x0 x1 xs := by
  unfold out2_C
  rw [View.read_writes_eq_canon _ _ _ (cover2_C c i arg2 harg2 arg3 harg3 arg4 harg4 arg5 harg5 hc0 hc1 x0 x1 xs)]
  unfold kernelRun2_C; dsimp only
  refine (View.canon_cons_unit_zero (S := S1x1) hz11 _ _ _).trans ?_
  sl_unfold_run_names
  refine (View.readCov_unit_zero (S := S1x1) arg5.view hz11 inb_S1x1_S1x1_0_0 _).trans ?_
  have e0 : View.readAt (Elt F) arg2.view (Rect.unit ![0, 0] ![1024, 128] inb_S1024x128_S1024x128_0_0).toLoadRect (harg2.unread x0) = x0 := by
    rw [View.readAt_eq_ld, harg2.read_unread]; exact View.ld_unit_zero (S := S1024x128) hzT _ x0
  have e1 : View.readAt (Elt F) arg3.view (Rect.unit ![0, 0] ![1024, 128] inb_S1024x128_S1024x128_0_0).toLoadRect (harg3.unread x1) = x1 := by
    rw [View.readAt_eq_ld, harg3.read_unread]; exact View.ld_unit_zero (S := S1024x128) hzT _ x1
  have e2 : View.readAt (Elt F) arg5.view (Rect.unit ![0, 0] S1x1.size inb_S1x1_S1x1_0_0).toLoadRect (harg5.unread xs) = xs := by
    rw [View.readAt_eq_ld, harg5.read_unread]; exact View.ld_unit_zero (S := S1x1) hz11 _ xs
  rw [e0, e1, e2]

end Cert.Kernel.Frm

end
-- ==== Proof.BDat2.lean ====
/-
  Region 2: the proof data of its pipeline and the body obligation. After the body at point n the accumulator
  holds the sum of the tiles 0..n (each tile's sum added in turn, starting from zero at point 0); the two input
  windows' buffers hold their row blocks at every point; the output block is written at the last point only, with the
  accumulator's value. Between points the invariant keeps the accumulator at that value beside the core's other
  scoped buffers, which this region does not touch.
-/
import proofs.«149046_j33449205301987_1_alg».proof.Proof.BOuts2

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- THE ACCUMULATION: the accumulator after the body at point `n` — the tile's sum added to zero at point 0, to the previous value afterwards. -/
def accAt2 (c : Dev nD) : (n : ℕ) → n < cfg2.N → Vec F S1x1 .f32
  | 0, hn => k2_pay2 (iblk2 V c 0 ⟨0, hn⟩) (iblk2 V c 1 ⟨0, hn⟩) (k2_pay1 (F := F))
  | n + 1, hn => k2_pay2 (iblk2 V c 0 ⟨n + 1, hn⟩) (iblk2 V c 1 ⟨n + 1, hn⟩) (accAt2 c n (Nat.lt_of_succ_lt hn))

theorem accAt2_first (c : Dev nD) (t : Fin cfg2.N) (h0 : t.val = 0) :
    accAt2 V c t.val t.isLt = k2_pay2 (iblk2 V c 0 t) (iblk2 V c 1 t) (k2_pay1 (F := F)) := by
  obtain ⟨n, hn⟩ := t
  cases n with
  | zero => rfl
  | succ n => exact absurd h0 (Nat.succ_ne_zero n)

theorem accAt2_next (c : Dev nD) (t : Fin cfg2.N) (h0 : t.val ≠ 0) :
    accAt2 V c t.val t.isLt = k2_pay2 (iblk2 V c 0 t) (iblk2 V c 1 t) (accAt2 V c (t.val - 1) (Nat.lt_of_le_of_lt (Nat.sub_le _ _) t.isLt)) := by
  obtain ⟨n, hn⟩ := t
  cases n with
  | zero => exact absurd rfl h0
  | succ n => rfl

/-- The core's scoped buffers other than this region's staging buffers and accumulator, at some contents each. -/
abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(((∃ d, owns (c : Thread nD τ) scM2 fullShare d) ∗ rest2 (F := F) c) ∗ (∃ r, prngReg c r)) := by
  unfold Pipeline.ΦA; rw [Pipeline.scopedRest_split_of_list spec2 c [cc2_scratch0] (by decide) (by decide)]
  simp only [scM2, owns_whole]; rfl

/-- The region invariant before position `n`: before the first point the accumulator holds anything; afterwards what the point before left. -/
def PhiS2 (c : Dev nD) : (n : ℕ) → n ≤ cfg2.N → sProp 𝕄
  | 0, _ => Pipeline.ΦA spec2 c
  | n + 1, hn => iprop((owns (c : Thread nD τ) scM2 fullShare (accAt2 V c n hn) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((owns (c : Thread nD τ) scM2 fullShare (accAt2 V c n hn) ∗ rest2 (F := F) c) ∗ (∃ r, prngReg c r)) := rfl
theorem PhiS2_pos (c : Dev nD) (n : ℕ) (h : n ≤ cfg2.N) (hz : n ≠ 0) :
    PhiS2 V c n h = iprop((owns (c : Thread nD τ) scM2 fullShare (accAt2 V c (n - 1) (by omega)) ∗ rest2 (F := F) c) ∗ (∃ r, prngReg c r)) := by
  cases n with
  | zero => exact absurd rfl hz
  | succ n => rfl

/-- The proof data of the region's pipeline on core `c`, from the contents `V` the region finds. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = accAt2 V c t.val t.isLt := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their blocks; the point is the first, the last or neither, which
    decides the two branches; the invariant hands the body the accumulator at what the point before left (at anything
    at the first point) and takes it back at this point's value. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  have hN : t.val < 64 := lt_of_lt_of_eq t.isLt (show cfg2.N = 64 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 2 t (idleAt2_2 t hc1) (noFlush2_2 t hc1)]
    rw [PhiS2_castSucc V c t, PhiS2_zero V c _ _ h0, PhiA2_eq]
    rw [accAt2_first V c t h0]
    rw [← sout2_A_eq c (grid2.coords t) (ms2_0 t) (hs2_0 t) (ms2_1 t) (hs2_1 t) (ms2_2 t) (hs2_2 t) scM2 (Memref.isWhole_whole _) hc0 hc1 (iblk2 V c 0 t) (iblk2 V c 1 t)]
    unfold sout2_A
    iintro ⟨⟨⟨HS, HR⟩, Hg⟩, Ho, ⟨%d0, H0⟩, ⟨%d1, H1⟩, ⟨%d2, H2⟩⟩
    iapply ((kernelRun2_A c (grid2.coords t) (ms2_0 t) (hs2_0 t) (ms2_1 t) (hs2_1 t) (ms2_2 t) (hs2_2 t) scM2 (Memref.isWhole_whole _) hc0 hc1 (iblk2 V c 0 t) (iblk2 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS HR Hg]
    · isplitl [HS HR]
      · isplitl [HS]
        · unfold owns; iexists _; isplitr
          swap; · iexact HS
          ipureintro; exact View.read_writes_of_cover _ _ _ _ _ (scover2_A c (grid2.coords t) (ms2_0 t) (hs2_0 t) (ms2_1 t) (hs2_1 t) (ms2_2 t) (hs2_2 t) scM2 (Memref.isWhole_whole _) hc0 hc1 (iblk2 V c 0 t) (iblk2 V c 1 t))
        iexact HR
      iexact Hg
    isplitl [Ho]; · iexact Ho
    isplitl [H0]; · iexact H0
    isplitl [H1]; · iexact H1
    iexists _; iexact H2
  · have hc0 : ¬cond2_0 (grid2.coords t) := fun h => h0 ((hcond2_0 t).mp h)
    by_cases h1 : t.val = 63
    · have hc1 : cond2_1 (grid2.coords t) := (hcond2_1 t).mpr h1
      rw [show (dat2 V c).leavesExact 2 t = owns (c : Thread nD τ) (ms2_2 t) fullShare ((dat2 V c).after 2 t) from by
        unfold Dat.leavesExact; rw [liveAt2_2 t hc1], after2_2]
      rw [PhiS2_castSucc V c t, PhiS2_pos V c _ _ h0]
      rw [accAt2_next V c t h0]
      iintro ⟨⟨⟨HS, HR⟩, Hg⟩, Ho, ⟨%d0, H0⟩, ⟨%d1, H1⟩, ⟨%d2, H2⟩⟩
      iapply ((kernelRun2_C c (grid2.coords t) (ms2_0 t) (hs2_0 t) (ms2_1 t) (hs2_1 t) (ms2_2 t) (hs2_2 t) scM2 (Memref.isWhole_whole _) hc0 hc1 (iblk2 V c 0 t) (iblk2 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro
            exact (View.read_writes_of_cover _ _ _ _ _ (scover2_C c (grid2.coords t) (ms2_0 t) (hs2_0 t) (ms2_1 t) (hs2_1 t) (ms2_2 t) (hs2_2 t) scM2 (Memref.isWhole_whole _) hc0 hc1 (iblk2 V c 0 t) (iblk2 V c 1 t) _)).trans (sout2_C_eq c (grid2.coords t) (ms2_0 t) (hs2_0 t) (ms2_1 t) (hs2_1 t) (ms2_2 t) (hs2_2 t) scM2 (Memref.isWhole_whole _) hc0 hc1 (iblk2 V c 0 t) (iblk2 V c 1 t) _)
          iexact HR
        iexact Hg
      isplitl [Ho]; · iexact Ho
      isplitl [H0]; · iexact H0
      isplitl [H1]; · iexact H1
      unfold owns; iexists _; isplitr
      swap; · iexact H2
      ipureintro
      exact (View.read_writes_of_cover _ _ _ _ _ (cover2_C c (grid2.coords t) (ms2_0 t) (hs2_0 t) (ms2_1 t) (hs2_1 t) (ms2_2 t) (hs2_2 t) scM2 (Memref.isWhole_whole _) hc0 hc1 (iblk2 V c 0 t) (iblk2 V c 1 t) _)).trans (out2_C_eq c (grid2.coords t) (ms2_0 t) (hs2_0 t) (ms2_1 t) (hs2_1 t) (ms2_2 t) (hs2_2 t) scM2 (Memref.isWhole_whole _) hc0 hc1 (iblk2 V c 0 t) (iblk2 V c 1 t) _)
    · have hc1 : ¬cond2_1 (grid2.coords t) := fun h => h1 ((hcond2_1 t).mp h)
      rw [Dat.leavesExact_idle (dat2 V c) 2 t (idleAt2_2 t hc1) (noFlush2_2 t hc1)]
      rw [PhiS2_castSucc V c t, PhiS2_pos V c _ _ h0]
      rw [accAt2_next V c t h0]
      iintro ⟨⟨⟨HS, HR⟩, Hg⟩, Ho, ⟨%d0, H0⟩, ⟨%d1, H1⟩, ⟨%d2, H2⟩⟩
      iapply ((kernelRun2_B c (grid2.coords t) (ms2_0 t) (hs2_0 t) (ms2_1 t) (hs2_1 t) (ms2_2 t) (hs2_2 t) scM2 (Memref.isWhole_whole _) hc0 hc1 (iblk2 V c 0 t) (iblk2 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro
            exact (View.read_writes_of_cover _ _ _ _ _ (scover2_B c (grid2.coords t) (ms2_0 t) (hs2_0 t) (ms2_1 t) (hs2_1 t) (ms2_2 t) (hs2_2 t) scM2 (Memref.isWhole_whole _) hc0 hc1 (iblk2 V c 0 t) (iblk2 V c 1 t) _)).trans (sout2_B_eq c (grid2.coords t) (ms2_0 t) (hs2_0 t) (ms2_1 t) (hs2_1 t) (ms2_2 t) (hs2_2 t) scM2 (Memref.isWhole_whole _) hc0 hc1 (iblk2 V c 0 t) (iblk2 V c 1 t) _)
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, and after the last point the invariant gives it back. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨HS, HR⟩, Hg⟩
  isplitl [HS HR]
  · isplitl [HS]
    · iexists _; iexact HS
    iexact HR
  iexact Hg

end Cert.Kernel.Frm

end
-- ==== Proof.BEdge2.lean ====
/-
  Region 2: how the core's unscoped buffers make the pipeline's arrays at entry and are made of them again at exit.
  The two input windows read the two argument arrays, which are never written. The output array is one [1,1] buffer, whole,
  which the last point's write-back overwrites.
-/
import proofs.«149046_j33449205301987_1_alg».proof.Proof.BDat2
import Idealize.ShloMosaic.Lib.Pipeline.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs2_eq (c : Dev nD) (Vc : (b : Ref sig .tc) → Buf (Elt F) ((c : Thread nD τ).loc b)) :
    (Pipeline.arrBufs (Ix := Unit) (Name := ℕ) (U := UR sig nD τ) (Lvl := ℕ) spec2 c Vc : sProp 𝕄)
      = iprop(((((c : Thread nD τ).loc main_arg0)) ↦{fullShare} Vc main_arg0) ∗ ((((c : Thread nD τ).loc main_arg1)) ↦{fullShare} Vc main_arg1) ∗ ((((c : Thread nD τ).loc main_v6)) ↦{fullShare} Vc main_v6)) := by
  unfold Pipeline.arrBufs
  rw [show (Finset.univ.image (Pipeline.arrRef spec2)) = insert main_arg0 (insert main_arg1 {main_v6}) from by decide]
  rw [BI.bigSep_insert (by decide), BI.bigSep_insert (by decide), BI.bigSep_singleton]
  rfl

/-- The pipeline's arrays, window by window, each a whole buffer at its share. -/
theorem arrays2_eq (c : Dev nD) (G : (w : Fin cfg2.W) → Buf (Elt F) ((cfg2.win w).arr.view.loc (c.tc : Thread nD τ))) :
    ((dat2 V c).arrays G : sProp 𝕄)
      = iprop(((((c : Thread nD τ).loc main_arg0)) ↦{fullShare} G 0) ∗ ((((c : Thread nD τ).loc main_arg1)) ↦{fullShare} G 1) ∗ ((((c : Thread nD τ).loc main_v6)) ↦{fullShare} G 2)) := by
  unfold Dat.arrays; rw [bigSep_W2]
  rw [(arr_whole2 0).set_eq_univ]
  try rw [(arr_whole2 1).set_eq_univ]
  rw [(arr_whole2 2).set_eq_univ]
  rfl

/-- ENTRY: the unscoped buffers at `V` are the arrays at the proof data's entry contents and the rest. -/
theorem enter2 (c : Dev nD) :
    (unscopedBufs c (V c) : sProp 𝕄) ⊢ iprop((dat2 V c).arrays ((dat2 V c).arrAt · 0) ∗ Pipeline.unscopedRest spec2 c (V c)) := by
  rw [show (unscopedBufs c (V c) : sProp 𝕄) = iprop(Pipeline.arrBufs spec2 c (V c) ∗ Pipeline.unscopedRest spec2 c (V c)) from Pipeline.unscopedBufs_split₀ cfgs 2 (by decide) c (V c), arrBufs2_eq, arrays2_eq]
  show iprop(_ ∗ Pipeline.unscopedRest spec2 c (V c)) ⊢ iprop((((((c : Thread nD τ).loc main_arg0)) ↦{fullShare} V c main_arg0) ∗ ((((c : Thread nD τ).loc main_arg1)) ↦{fullShare} V c main_arg1) ∗ ((((c : Thread nD τ).loc main_v6)) ↦{fullShare} V c main_v6)) ∗ _)
  iintro ⟨⟨HA, HB, HO⟩, HR⟩
  isplitr [HR]
  · isplitl [HA]; · iexact HA
    isplitl [HB]; · iexact HB
    iexact HO
  iexact HR

/-- EXIT: the arrays at their final contents and the rest at `V` are the unscoped buffers at any valuation that has
    the output array at its final contents and agrees with `V` elsewhere. -/
theorem exit2 (c : Dev nD) (V' : (b : Ref sig .tc) → Buf (Elt F) ((c : Thread nD τ).loc b))
    (hO : V' main_v6 = (dat2 V c).arrAt 2 cfg2.N) (hrest : ∀ b : Ref sig .tc, b ≠ main_v6 → V' b = V c b) :
    iprop((dat2 V c).arrays ((dat2 V c).arrAt · cfg2.N) ∗ Pipeline.unscopedRest spec2 c (V c)) ⊢ (unscopedBufs c V' : sProp 𝕄) := by
  rw [show (unscopedBufs c V' : sProp 𝕄) = iprop(Pipeline.arrBufs spec2 c V' ∗ Pipeline.unscopedRest spec2 c V') from Pipeline.unscopedBufs_split₀ cfgs 2 (by decide) c V', arrBufs2_eq, arrays2_eq]
  have e0 : (dat2 V c).arrAt 0 cfg2.N = V' main_arg0 := ((dat2 V c).arrAt_in 0 rfl _).trans ((A_eq2 V c 0).trans (hrest main_arg0 (by decide)).symm)
  have e1 : (dat2 V c).arrAt 1 cfg2.N = V' main_arg1 := ((dat2 V c).arrAt_in 1 rfl _).trans ((A_eq2 V c 1).trans (hrest main_arg1 (by decide)).symm)
  have er : (Pipeline.unscopedRest (Ix := Unit) (Name := ℕ) (U := UR sig nD τ) (Lvl := ℕ) spec2 c (V c) : sProp 𝕄) = Pipeline.unscopedRest spec2 c V' := by
    unfold Pipeline.unscopedRest
    refine BI.bigSep_congr fun b hb => ?_
    rw [hrest b (fun e => (Finset.mem_sdiff.mp hb).2 (Finset.mem_image.mpr ⟨2, Finset.mem_univ _, e ▸ rfl⟩))]
  rw [er]
  show iprop((((((c : Thread nD τ).loc main_arg0)) ↦{fullShare} (dat2 V c).arrAt 0 cfg2.N) ∗ ((((c : Thread nD τ).loc main_arg1)) ↦{fullShare} (dat2 V c).arrAt 1 cfg2.N) ∗ ((((c : Thread nD τ).loc main_v6)) ↦{fullShare} (dat2 V c).arrAt 2 cfg2.N)) ∗ _) ⊢ _
  rw [e0, e1, ← hO]

end Cert.Kernel.Frm

end
-- ==== Proof.BAssemble.lean ====
/-
  The whole run of @main assembled from its three kernel regions, with the result buffer read off at the end.

  @main is six items in a row: region 0, a host stretch, region 1, a host stretch, region 2, a last host stretch.
  Between two items each core holds all its unscoped buffers whole at a VALUATION; the chain of valuations is
    W0  the launch contents,
    W1  W0 with the first region's output array `main_v0` replaced by what that region leaves there (`o1`),
    W2  W1 after the first host stretch (reshape the 1×1 array to a scalar, divide by the constant),
    W3  W2 with `main_v3` replaced by what the second region leaves (`o3`),
    W4  W3 after the second host stretch (the same two operations),
    W5  W4 with `main_v6` replaced by what the third region leaves (`o5`),
    W6  W5 after the last host stretch (reshape, divide, double, subtract, add, square root).
  A host stretch changes only the references its operations write, and a region only its output array; neither
  argument is among them, so both arguments hold their launch contents at W6. The result `main_v12` at W6 is the
  closing scalar arithmetic `tailF` of the three regions' outputs, each read as a scalar (`rs`): the last stretch
  reads `main_v2` and `main_v5`, which nothing after the first two stretches writes.

  `run_cond`: given, for each region, a segment record entered from the valuation before it and left at the one after
  it, every weakly fair execution of @main from memory `m` terminates, and the final memory holds the result at
  `W6 … main_v12` and both arguments as launched. The host stretches, the chaining and the launch's first thread state
  are discharged here; at the end every unscoped buffer is read off the last valuation.
-/
import proofs.«149046_j33449205301987_1_alg».proof.Proof.Gen.Kernel.Regions
import Idealize.ShloMosaic.Lib.StableHlo.Run

noncomputable section

namespace Cert.Kernel.Frm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel.Gen

variable {F : FTy → Type} [FloatOps F]

/-! ## The closing arithmetic -/

/-- A 1×1 array read as a scalar: what the reshape at the head of each host stretch computes. -/
def rs (x : (⟨S1x1, .f32⟩ : BufTy).Contents (Elt F)) : (⟨S_, .f32⟩ : BufTy).Contents (Elt F) :=
  shapeCast S_ x shapeCasts_S1x1_S_

/-- sqrt (a / K - 2 * (c / K) + b / K) on scalars, K and 2 two fixed words. -/
def tailF (a b c : (⟨S_, .f32⟩ : BufTy).Contents (Elt F)) : (⟨S_, .f32⟩ : BufTy).Contents (Elt F) :=
  Host.sqrt (addf (subf (Host.divf a (constant S_ .f32 0x4C800000#32))
    (mulf (constant S_ .f32 0x40000000#32) (Host.divf c (constant S_ .f32 0x4C800000#32))))
    (Host.divf b (constant S_ .f32 0x4C800000#32)))

/-! ## The chain of valuations -/

variable (m : (ℓ : Loc nD τ sig) → Buf (Elt F) ℓ)
  (o1 : (c : Dev nD) → Buf (Elt F) ((c : Thread nD τ).loc main_v0))
  (o3 : (c : Dev nD) → Buf (Elt F) ((c : Thread nD τ).loc main_v3))
  (o5 : (c : Dev nD) → Buf (Elt F) ((c : Thread nD τ).loc main_v6))

/-- Core `c`'s unscoped buffers at launch. -/
abbrev W0 (c : Dev nD) : Valuation τ sig (Elt F) := fun b => m (c, b)
/-- … after region 0, which may change `main_v0`. -/
abbrev W1 (c : Dev nD) : Valuation τ sig (Elt F) := Function.update (W0 m c) main_v0 (o1 c)
/-- … after the first host stretch. -/
abbrev W2 (c : Dev nD) : Valuation τ sig (Elt F) := StableHlo.after hostOps1 (W1 m o1 c)
/-- … after region 1, which may change `main_v3`. -/
abbrev W3 (c : Dev nD) : Valuation τ sig (Elt F) := Function.update (W2 m o1 c) main_v3 (o3 c)
/-- … after the second host stretch. -/
abbrev W4 (c : Dev nD) : Valuation τ sig (Elt F) := StableHlo.after hostOps2 (W3 m o1 o3 c)
/-- … after region 2, which may change `main_v6`. -/
abbrev W5 (c : Dev nD) : Valuation τ sig (Elt F) := Function.update (W4 m o1 o3 c) main_v6 (o5 c)
/-- … after the last host stretch. -/
abbrev W6 (c : Dev nD) : Valuation τ sig (Elt F) := StableHlo.after hostOps3 (W5 m o1 o3 o5 c)

/-! ## What each item leaves alone -/

theorem W1_off (c : Dev nD) (r : Ref sig .tc) (h : r ∉ ([main_v0] : List (Ref sig .tc))) : W1 m o1 c r = W0 m c r := by
  simp only [W1, Function.update_of_ne (StableHlo.devRef_ne_of_ne (List.ne_of_not_mem_cons h) : (Proc.devRef .tc r : DevRef τ sig) ≠ Proc.devRef .tc main_v0)]
theorem W2_off (c : Dev nD) (r : Ref sig .tc) (h : r ∉ hostOps1_W) : W2 m o1 c r = W1 m o1 c r :=
  StableHlo.after_of_writes_sub hostOps1 _ hostOps1_writes h
theorem W3_off (c : Dev nD) (r : Ref sig .tc) (h : r ∉ ([main_v3] : List (Ref sig .tc))) : W3 m o1 o3 c r = W2 m o1 c r := by
  simp only [W3, Function.update_of_ne (StableHlo.devRef_ne_of_ne (List.ne_of_not_mem_cons h) : (Proc.devRef .tc r : DevRef τ sig) ≠ Proc.devRef .tc main_v3)]
theorem W4_off (c : Dev nD) (r : Ref sig .tc) (h : r ∉ hostOps2_W) : W4 m o1 o3 c r = W3 m o1 o3 c r :=
  StableHlo.after_of_writes_sub hostOps2 _ hostOps2_writes h
theorem W5_off (c : Dev nD) (r : Ref sig .tc) (h : r ∉ ([main_v6] : List (Ref sig .tc))) : W5 m o1 o3 o5 c r = W4 m o1 o3 c r := by
  simp only [W5, Function.update_of_ne (StableHlo.devRef_ne_of_ne (List.ne_of_not_mem_cons h) : (Proc.devRef .tc r : DevRef τ sig) ≠ Proc.devRef .tc main_v6)]
theorem W6_off (c : Dev nD) (r : Ref sig .tc) (h : r ∉ hostOps3_W) : W6 m o1 o3 o5 c r = W5 m o1 o3 o5 c r :=
  StableHlo.after_of_writes_sub hostOps3 _ hostOps3_writes h

/-- No item writes the first argument … -/
theorem W6_arg0 (c : Dev nD) : W6 m o1 o3 o5 c main_arg0 = m ((c : Thread nD τ).loc main_arg0) :=
  (W6_off m o1 o3 o5 c main_arg0 (by decide)).trans <| (W5_off m o1 o3 o5 c main_arg0 (by decide)).trans <|
    (W4_off m o1 o3 c main_arg0 (by decide)).trans <| (W3_off m o1 o3 c main_arg0 (by decide)).trans <|
    (W2_off m o1 c main_arg0 (by decide)).trans <| (W1_off m o1 c main_arg0 (by decide)).trans rfl
/-- … nor the second. -/
theorem W6_arg1 (c : Dev nD) : W6 m o1 o3 o5 c main_arg1 = m ((c : Thread nD τ).loc main_arg1) :=
  (W6_off m o1 o3 o5 c main_arg1 (by decide)).trans <| (W5_off m o1 o3 o5 c main_arg1 (by decide)).trans <|
    (W4_off m o1 o3 c main_arg1 (by decide)).trans <| (W3_off m o1 o3 c main_arg1 (by decide)).trans <|
    (W2_off m o1 c main_arg1 (by decide)).trans <| (W1_off m o1 c main_arg1 (by decide)).trans rfl

/-! ## The result -/

/-- After the first stretch `main_v2` holds the first region's output, as a scalar, over K. -/
theorem W2_v2 (c : Dev nD) :
    W2 m o1 c main_v2 = Host.divf (rs (o1 c)) (constant S_ .f32 0x4C800000#32) := by
  show StableHlo.after hostOps1 (W1 m o1 c) (Proc.devRef .tc main_v2) = _
  after_results
  simp only [W1, Function.update_self]
  rfl

/-- After the second stretch `main_v5` holds the second region's output, as a scalar, over K. -/
theorem W4_v5 (c : Dev nD) :
    W4 m o1 o3 c main_v5 = Host.divf (rs (o3 c)) (constant S_ .f32 0x4C800000#32) := by
  show StableHlo.after hostOps2 (W3 m o1 o3 c) (Proc.devRef .tc main_v5) = _
  after_results
  simp only [W3, Function.update_self]
  rfl

/-- The result buffer at the end is the closing arithmetic of the three regions' outputs. -/
theorem W6_main_v12 (c : Dev nD) :
    W6 m o1 o3 o5 c main_v12 = tailF (rs (o1 c)) (rs (o3 c)) (rs (o5 c)) := by
  have e2 : W5 m o1 o3 o5 c main_v2 = Host.divf (rs (o1 c)) (constant S_ .f32 0x4C800000#32) :=
    (W5_off m o1 o3 o5 c main_v2 (by decide)).trans <| (W4_off m o1 o3 c main_v2 (by decide)).trans <|
      (W3_off m o1 o3 c main_v2 (by decide)).trans (W2_v2 m o1 c)
  have e5 : W5 m o1 o3 o5 c main_v5 = Host.divf (rs (o3 c)) (constant S_ .f32 0x4C800000#32) :=
    (W5_off m o1 o3 o5 c main_v5 (by decide)).trans (W4_v5 m o1 o3 c)
  have e6 : W5 m o1 o3 o5 c main_v6 = o5 c := Function.update_self _ _ _
  show StableHlo.after hostOps3 (W5 m o1 o3 o5 c) (Proc.devRef .tc main_v12) = _
  after_results
  rw [e2, e5, e6]
  rfl

/-! ## The items as segments -/

section Items

variable {Ix : Type} [DecidableEq Ix] {U : Type} [URA U] {Lvl : Type} [Preorder Lvl]
variable (𝒱₀ : Variants) (L : GSem nD τ sig → Finset Ix) (lv : GSem nD τ sig → Ix → Lvl)
variable (E : Fin 4 → Dev nD → sProp (MT nD τ sig Ix (Elt F) ℕ U Lvl))

/-- The first host stretch, run over the unscoped buffers from `W1`; the rest `E 1` rides along. -/
def host1 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m o1) (E 1)
/-- The second host stretch, from `W3`; `E 2` rides along. -/
def host3 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m o1 o3) (E 2)
/-- The last host stretch, from `W5`; `E 3` rides along. -/
def host5 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W5 m o1 o3 o5) (E 3)

end Items

section

variable {Ix : Type} [DecidableEq Ix] {U : Type} [URA U] {Lvl : Type} [Preorder Lvl]

/-- @main's six items on core `c` (the same list on every core): the three regions' given records, the three host
    stretches between and after them. -/
abbrev items (𝒱₀ : Variants) (L : GSem nD τ sig → Finset Ix) (lv : GSem nD τ sig → Ix → Lvl)
    (E : Fin 4 → Dev nD → sProp (MT nD τ sig Ix (Elt F) ℕ U Lvl)) (ι : Ix)
    (pdats : (p : Fin 3) → (c : Dev nD) → Dat τ (Elt F) Ix ℕ U Lvl (cfgs p) c)
    (R0 : RegionSeg (pcfgs (F := F)) adm pdats ι defs₀ 𝒱₀ L lv 0) (R1 : RegionSeg (pcfgs (F := F)) adm pdats ι defs₀ 𝒱₀ L lv 1)
    (R2 : RegionSeg (pcfgs (F := F)) adm pdats ι defs₀ 𝒱₀ L lv 2) (c : Dev nD) :
    List (Seg (pcfgs (F := F)) adm pdats ι defs₀ 𝒱₀ L lv) :=
  [.region R0, .host (host1 m o1 𝒱₀ L lv E), .region R1, .host (host3 m o1 o3 𝒱₀ L lv E), .region R2,
    .host (host5 m o1 o3 o5 𝒱₀ L lv E)]

end

/-! ## The run, given the regions' records -/

-- the library theorem's implicit arguments are found by unifying its conclusion with this one, which takes unfolding
-- plain definitions in a metavariable's type
set_option backward.isDefEq.respectTransparency.types false in
/-- THE RUN. For any user algebra, level assignment, launch dues and ghost resources, any rest states `E` the launch
    makes on every core at once (`hE0`) and that end owing nothing (`hE3`), any contents the regions leave
    (`o1`, `o3`, `o5`) and any proof data: GIVEN, per region K, a segment record entered from the thread state before
    it and left at the one after it, every weakly fair execution of @main from memory `m` with zero counters terminates,
    and every final memory holds the result buffer at the last valuation and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg)
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (W0 m c) ∗ E 0 c) ⊢ R0.pre c)
    (hpost0 : ∀ c : Dev nD, R0.post c ⊢ iprop(StableHlo.held (c : Thread nD τ) (Pipeline.ucRefs τ sig) (W1 m o1 c) ∗ E 1 c))
    (R1 : RegionSeg (pcfgs (F := F)) adm pdats ι defs₀ 𝒱₀ L lv 1)
    (hpre1 : ∀ c : Dev nD, iprop(StableHlo.held (c : Thread nD τ) (Pipeline.ucRefs τ sig) (W2 m o1 c) ∗ E 1 c) ⊢ R1.pre c)
    (hpost1 : ∀ c : Dev nD, R1.post c ⊢ iprop(StableHlo.held (c : Thread nD τ) (Pipeline.ucRefs τ sig) (W3 m o1 o3 c) ∗ E 2 c))
    (R2 : RegionSeg (pcfgs (F := F)) adm pdats ι defs₀ 𝒱₀ L lv 2)
    (hpre2 : ∀ c : Dev nD, iprop(StableHlo.held (c : Thread nD τ) (Pipeline.ucRefs τ sig) (W4 m o1 o3 c) ∗ E 2 c) ⊢ R2.pre c)
    (hpost2 : ∀ c : Dev nD, R2.post c ⊢ iprop(StableHlo.held (c : Thread nD τ) (Pipeline.ucRefs τ sig) (W5 m o1 o3 o5 c) ∗ E 3 c)) :
    θ_run defs (onTc (τ := τ) (main (F := F))) ⟨m, fun _ => 0, ρ⟩ (fun r => ∀ c : Dev nD,
      r.2.mem ((c.tc : Thread nD τ).loc main_v12) = W6 m o1 o3 o5 c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (items m o1 o3 o5 𝒱₀ L lv E ι pdats R0 R1 R2)
    (fun c Q => by
      rewrite [main_chain c, Seg.run_eq_chain,
        show (items m o1 o3 o5 𝒱₀ L lv E ι pdats R0 R1 R2 c).map Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [items, Seg.pipes_host, Seg.pipes_region, Seg.pipes_nil]; decide) O₀ hL G u₀ hu₀
    (T₀ := fun c => iprop(StableHlo.held (c : Thread nD τ) (Pipeline.ucRefs τ sig) (W0 m c) ∗ E 0 c))
    (Tₙ := fun c => StableHlo.held (c : Thread nD τ) (Pipeline.ucRefs τ sig) (W6 m o1 o3 o5 c))
    (hch := fun c => ⟨hpre0 c, hpost0 c, hpre1 c, hpost1 c, hpre2 c, hpost2 c, sep_mono .rfl (hE3 c)⟩)
    (hinit := ?_)
    (QY := fun c s => s.mem ((c.tc : Thread nD τ).loc main_v12) = W6 m o1 o3 o5 c main_v12
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  · -- the launch: the unscoped buffers are held at `W0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (W0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (W0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result and each argument read off the last valuation
    unfold StableHlo.held
    iintro ⟨Hh, HSI⟩
    ihave Hr := (pointsTo_read_all (Pipeline.ucRefs τ sig) (fun b => ((c : Thread nD τ).1, b)) (W6 m o1 o3 o5 c) s') $$ [Hh HSI]
    · isplitl [Hh] <;> iassumption
    icases Hr with ⟨%h, HSI⟩
    imodintro
    isplitr
    · ipureintro
      exact ⟨h (Proc.devRef .tc main_v12) (Finset.mem_filter.mpr ⟨StableHlo.devRef_mem_tcRefs main_v12, by decide⟩),
        (h (Proc.devRef .tc main_arg0) (Finset.mem_filter.mpr ⟨StableHlo.devRef_mem_tcRefs main_arg0, by decide⟩)).trans (W6_arg0 m o1 o3 o5 c),
        (h (Proc.devRef .tc main_arg1) (Finset.mem_filter.mpr ⟨StableHlo.devRef_mem_tcRefs main_arg1, by decide⟩)).trans (W6_arg1 m o1 o3 o5 c)⟩
    · iexact HSI

end Cert.Kernel.Frm

end
-- ==== Proof.BRegs.lean ====
/-
  The three regions as segments of the program, and the program's run. Between two items of the program the core
  holds every unscoped buffer at a valuation: the launch memory, then each region's output array overwritten by what
  its last write-back left (the sum of all 64 tiles, as the accumulator held it), then each host stretch applied.
  Each region's proof data are taken at the valuation it is entered from, so that the second and third regions read the
  argument arrays — which nothing writes — through the same chain.
-/
import proofs.«149046_j33449205301987_1_alg».proof.Proof.BEdge0
import proofs.«149046_j33449205301987_1_alg».proof.Proof.BEdge1
import proofs.«149046_j33449205301987_1_alg».proof.Proof.BEdge2
import proofs.«149046_j33449205301987_1_alg».proof.Proof.BAssemble
import proofs.«149046_j33449205301987_1_alg».proof.Proof.Gen.Kernel.Regions

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The valuation region 0 is entered from, read at the core's own references; what region 0 leaves in its output array. -/
abbrev Vv0 (c : Dev nD) (b : Ref sig .tc) : Buf (Elt F) ((c : Thread nD τ).loc b) := W0 m c b
def o1 (c : Dev nD) : Buf (Elt F) ((c : Thread nD τ).loc main_v0) := (dat0 (Vv0 m) c).arrAt 2 cfg0.N
/-- The same for region 1, entered after the first host stretch, -/
abbrev Vv2 (c : Dev nD) (b : Ref sig .tc) : Buf (Elt F) ((c : Thread nD τ).loc b) := W2 m (o1 m) c b
def o3 (c : Dev nD) : Buf (Elt F) ((c : Thread nD τ).loc main_v3) := (dat1 (Vv2 m) c).arrAt 2 cfg1.N
/-- and for region 2, entered after the second. -/
abbrev Vv4 (c : Dev nD) (b : Ref sig .tc) : Buf (Elt F) ((c : Thread nD τ).loc b) := W4 m (o1 m) (o3 m) c b
def o5 (c : Dev nD) : Buf (Elt F) ((c : Thread nD τ).loc main_v6) := (dat2 (Vv4 m) c).arrAt 2 cfg2.N

/-- Every pipeline's proof data, each at its region's entry contents. -/
def pdats : (p : Fin 3) → (c : Dev nD) → Dat τ (Elt F) Unit ℕ (UR sig nD τ) ℕ (cfgs p) c
  | ⟨0, _⟩ => fun c => dat0 (Vv0 m) c
  | ⟨1, _⟩ => fun c => dat1 (Vv2 m) c
  | ⟨2, _⟩ => fun c => dat2 (Vv4 m) c

/-- No core owes another anything: no level is assigned. -/
abbrev LL : GSem nD τ sig → Finset Unit := fun _ => ∅
abbrev lvv : GSem nD τ sig → Unit → ℕ := fun _ _ => 0
/-- What rides beside the buffers through every item: the generator register at some state, and nothing owed. -/
abbrev RR (c : Dev nD) : sProp 𝕄 := iprop((∃ r, prngReg c r) ∗ ∃ W, owes (c : Thread nD τ) (0 : CellTallies nD τ sig Unit) W)

set_option backward.isDefEq.respectTransparency.types false in
/-- REGION 0 as a segment of the program: entered with every unscoped buffer at the valuation before it, left with the
    output array at what the last write-back put there and every other buffer unchanged; the generator register and
    the core's empty debts ride along. -/
def reg0 : Pipeline.RegionSeg (pcfgs (F := F)) adm (pdats m) () defs₀ Variants.none LL lvv 0 where
  win := winFacts₀0
  block_pos := block_pos0
  stage_whole := stage_whole0
  K := PEmpty
  osem k := k.elim
  ho := Pipeline.OwnSemFacts.none _
  hbody c := (body_obligation0 (Vv0 m) c).loose
  hwaits := Pipeline.hwaits_of_owed_zero _ _ _ _ LL lvv 0 fun _ _ => rfl
  pre c := iprop(StableHlo.held (c : Thread nD τ) (Pipeline.ucRefs τ sig) (W0 m c) ∗ RR c)
  post c := iprop(StableHlo.held (c : Thread nD τ) (Pipeline.ucRefs τ sig) (W1 m (o1 m) c) ∗ RR c)
  X c := iprop(∃ r, prngReg c r)
  Y c := iprop(∃ r, prngReg c r)
  Z c := Pipeline.unscopedRest (Ix := Unit) (Name := ℕ) (U := UR sig nD τ) (Lvl := ℕ) spec0 c (Vv0 m c)
  hentry c := by
    rw [Pipeline.ownSems0_none]
    have hsplit := enter0 (Vv0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (Vv0 m) c).trans ?_
    unfold Pipeline.ΦA
    iintro ⟨Hr, Hp⟩
    isplitl [Hp]; · iexact Hp
    isplitr; · iempintro
    iexact Hr
  hexit c := by
    have hjoin := exit0 (Vv0 m) c (fun b => W1 m (o1 m) c b)
      (by show Function.update _ _ _ _ = _; rw [Function.update_self]; rfl)
      (fun b hb => Function.update_of_ne (StableHlo.devRef_ne_of_ne hb : (Proc.devRef .tc b : DevRef τ sig) ≠ Proc.devRef .tc main_v0) _ _)
    rw [Pipeline.unscopedBufs_held] at hjoin
    show iprop((dat0 (Vv0 m) c).arrays ((dat0 (Vv0 m) c).arrAt · cfg0.N) ∗ (dat0 (Vv0 m) c).owesAt () (Fin.last cfg0.N) ∗ iprop(∃ r, prngReg c r)
        ∗ Pipeline.unscopedRest (Ix := Unit) (Name := ℕ) (U := UR sig nD τ) (Lvl := ℕ) spec0 c (Vv0 m c))
      ⊢ |={Set.univ}=> iprop(StableHlo.held (c : Thread nD τ) (Pipeline.ucRefs τ sig) (W1 m (o1 m) c) ∗ RR c)
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 1 as a segment of the program: entered with every unscoped buffer at the valuation before it, left with the
    output array at what the last write-back put there and every other buffer unchanged; the generator register and
    the core's empty debts ride along. -/
def reg1 : Pipeline.RegionSeg (pcfgs (F := F)) adm (pdats m) () defs₀ Variants.none LL lvv 1 where
  win := winFacts₀1
  block_pos := block_pos1
  stage_whole := stage_whole1
  K := PEmpty
  osem k := k.elim
  ho := Pipeline.OwnSemFacts.none _
  hbody c := (body_obligation1 (Vv2 m) c).loose
  hwaits := Pipeline.hwaits_of_owed_zero _ _ _ _ LL lvv 1 fun _ _ => rfl
  pre c := iprop(StableHlo.held (c : Thread nD τ) (Pipeline.ucRefs τ sig) (W2 m (o1 m) c) ∗ RR c)
  post c := iprop(StableHlo.held (c : Thread nD τ) (Pipeline.ucRefs τ sig) (W3 m (o1 m) (o3 m) c) ∗ RR c)
  X c := iprop(∃ r, prngReg c r)
  Y c := iprop(∃ r, prngReg c r)
  Z c := Pipeline.unscopedRest (Ix := Unit) (Name := ℕ) (U := UR sig nD τ) (Lvl := ℕ) spec1 c (Vv2 m c)
  hentry c := by
    rw [Pipeline.ownSems0_none]
    have hsplit := enter1 (Vv2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (Vv2 m) c).trans ?_
    unfold Pipeline.ΦA
    iintro ⟨Hr, Hp⟩
    isplitl [Hp]; · iexact Hp
    isplitr; · iempintro
    iexact Hr
  hexit c := by
    have hjoin := exit1 (Vv2 m) c (fun b => W3 m (o1 m) (o3 m) c b)
      (by show Function.update _ _ _ _ = _; rw [Function.update_self]; rfl)
      (fun b hb => Function.update_of_ne (StableHlo.devRef_ne_of_ne hb : (Proc.devRef .tc b : DevRef τ sig) ≠ Proc.devRef .tc main_v3) _ _)
    rw [Pipeline.unscopedBufs_held] at hjoin
    show iprop((dat1 (Vv2 m) c).arrays ((dat1 (Vv2 m) c).arrAt · cfg1.N) ∗ (dat1 (Vv2 m) c).owesAt () (Fin.last cfg1.N) ∗ iprop(∃ r, prngReg c r)
        ∗ Pipeline.unscopedRest (Ix := Unit) (Name := ℕ) (U := UR sig nD τ) (Lvl := ℕ) spec1 c (Vv2 m c))
      ⊢ |={Set.univ}=> iprop(StableHlo.held (c : Thread nD τ) (Pipeline.ucRefs τ sig) (W3 m (o1 m) (o3 m) c) ∗ RR c)
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 2 as a segment of the program: entered with every unscoped buffer at the valuation before it, left with the
    output array at what the last write-back put there and every other buffer unchanged; the generator register and
    the core's empty debts ride along. -/
def reg2 : Pipeline.RegionSeg (pcfgs (F := F)) adm (pdats m) () defs₀ Variants.none LL lvv 2 where
  win := winFacts2.to₀
  block_pos := block_pos2
  stage_whole := stage_whole2
  K := PEmpty
  osem k := k.elim
  ho := Pipeline.OwnSemFacts.none _
  hbody c := (body_obligation2 (Vv4 m) c).loose
  hwaits := Pipeline.hwaits_of_owed_zero _ _ _ _ LL lvv 2 fun _ _ => rfl
  pre c := iprop(StableHlo.held (c : Thread nD τ) (Pipeline.ucRefs τ sig) (W4 m (o1 m) (o3 m) c) ∗ RR c)
  post c := iprop(StableHlo.held (c : Thread nD τ) (Pipeline.ucRefs τ sig) (W5 m (o1 m) (o3 m) (o5 m) c) ∗ RR c)
  X c := iprop(∃ r, prngReg c r)
  Y c := iprop(∃ r, prngReg c r)
  Z c := Pipeline.unscopedRest (Ix := Unit) (Name := ℕ) (U := UR sig nD τ) (Lvl := ℕ) spec2 c (Vv4 m c)
  hentry c := by
    rw [Pipeline.ownSems0_none]
    have hsplit := enter2 (Vv4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from hout2 (Vv4 m) c).trans ?_
    unfold Pipeline.ΦA
    iintro ⟨Hr, Hp⟩
    isplitl [Hp]; · iexact Hp
    isplitr; · iempintro
    iexact Hr
  hexit c := by
    have hjoin := exit2 (Vv4 m) c (fun b => W5 m (o1 m) (o3 m) (o5 m) c b)
      (by show Function.update _ _ _ _ = _; rw [Function.update_self]; rfl)
      (fun b hb => Function.update_of_ne (StableHlo.devRef_ne_of_ne hb : (Proc.devRef .tc b : DevRef τ sig) ≠ Proc.devRef .tc main_v6) _ _)
    rw [Pipeline.unscopedBufs_held] at hjoin
    show iprop((dat2 (Vv4 m) c).arrays ((dat2 (Vv4 m) c).arrAt · cfg2.N) ∗ (dat2 (Vv4 m) c).owesAt () (Fin.last cfg2.N) ∗ iprop(∃ r, prngReg c r)
        ∗ Pipeline.unscopedRest (Ix := Unit) (Name := ℕ) (U := UR sig nD τ) (Lvl := ℕ) spec2 c (Vv4 m c))
      ⊢ |={Set.univ}=> iprop(StableHlo.held (c : Thread nD τ) (Pipeline.ucRefs τ sig) (W5 m (o1 m) (o3 m) (o5 m) c) ∗ RR c)
    iintro ⟨Ha, HO, HY, Hrest⟩
    imodintro
    isplitl [Ha Hrest]
    · iapply hjoin; isplitl [Ha]
      · iexact Ha
      iexact Hrest
    isplitl [HY]; · iexact HY
    unfold Pipeline.Dat.owesAt Pipeline.owesWithin
    icases HO with ⟨%W, -, HO⟩; iexists W; iexact HO

variable (ρ : Dev nD → PrngReg)

set_option backward.isDefEq.respectTransparency.types false in
/-- THE RUN: from any memory with zero counters every weakly fair execution of the program terminates, nothing faulting,
    with the result buffer at the last valuation's contents and both argument arrays as launched. -/
theorem run_main : θ_run defs (onTc (τ := τ) (main (F := F))) ⟨m, fun _ => 0, ρ⟩ (fun r => ∀ c : Dev nD,
      r.2.mem ((c.tc : Thread nD τ).loc main_v12) = W6 m (o1 m) (o3 m) (o5 m) c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m (o1 m) (o3 m) (o5 m) (EP := emb₁) (ι := ()) (𝒱₀ := Variants.none) (L := LL) (lv := lvv) (hL := fun _ _ => rfl) (ρ := ρ)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => RR c)
    (hE0 := by
      refine Pipeline.initEach LL lvv fun c => ?_
      iintro ⟨⟨-, HO, -, Hp, -⟩, -⟩
      imodintro
      isplitl [Hp]; · iexists _; iexact Hp
      iexists ∅; iexact HO)
    (hE3 := fun c => by iintro ⟨-, HO⟩; iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

end Cert.Kernel.Frm

end
-- ==== Proof.LibSumRegroup.lean ====
/-
  Regrouping a finite sum in a commutative monoid: a sum over m·n consecutive positions as a double sum
  over the quotient and the remainder of the position by n, and a sum over a rank-1 index set as the sum
  over its one coordinate. Both hold in any additive commutative monoid — in particular on the extended
  reals, where no finiteness is needed to regroup a sum.
-/
import Idealize.ShloMosaic.PureOps.Ideal
import Idealize.ShloMosaic.Lib.ValueIdx

noncomputable section

open scoped BigOperators

namespace Cert.Lib.SumRegroup

open Idealize.ShloMosaic Idealize.ShloMosaic.ValueIdx

/-- A sum over m·n consecutive positions is the double sum over (c, d) of the position n·c + d. -/
theorem sum_fin_mul {M : Type*} [AddCommMonoid M] (m n N : ℕ) (hN : N = m * n) (f : Fin N → M) :
    ∑ k : Fin N, f k = ∑ c : Fin m, ∑ d : Fin n, f (Fin.cast hN.symm (finProdFinEquiv (c, d))) := by
  subst hN
  rw [← Equiv.sum_comp finProdFinEquiv f, Fintype.sum_prod_type]
  rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.Lib.SumRegroup

end
-- ==== Proof.Spec.lean ====
/-
  The mathematics of the Gaussian-kernel total, stated over abstract arrays of extended reals.

  For two arrays a : [A, 128] and b : [B, 128] the entry at (p, q) is
      exp (g * max (‖a_p‖² + ‖b_q‖² - 2 * ⟨a_p, b_q⟩) 0),
  with ‖a_p‖² = Σ_k a(p,k)², ⟨a_p, b_q⟩ = Σ_k a(p,k) b(q,k), and g, 2 two fixed single-precision words read as
  extended reals (never evaluated). It depends on row p of a and row q of b only.

  `pairSum x y` is the sum of the entries over all 8192 × 8192 pairs of rows of two [8192, 128] arrays;
  `tileSum xa xb` the same over the 1024 × 1024 pairs of rows of two [1024, 128] blocks.

  THE LAW (`pairSum_eq_sum_tiles`): if block t of 64 (t = 8 r + s) of the first family holds rows 1024 r … of x and
  block t of the second family holds rows 1024 s … of y, the total over all pairs is the sum of the 64 tile totals.
  Addition on the extended reals is commutative and associative, so a finite sum may be regrouped freely: the
  row index i = 1024 r + p and the column index j = 1024 s + q split into (r, p) and (s, q), and the two middle
  sums commute. No finiteness is used.

  `tail a b c` is the closing scalar arithmetic sqrt (a / K - 2 * (c / K) + b / K), K a fixed word.
-/
import Idealize.ShloMosaic.PureOps.Ideal
import Idealize.ShloMosaic.PureOps.Ideal.Laws
import Idealize.ShloMosaic.Lib.ValueIdx
import proofs.«149046_j33449205301987_1_alg».proof.Proof.LibSumRegroup

noncomputable section

open scoped BigOperators

namespace Cert.Mmd

open Idealize.ShloMosaic Idealize.ShloMosaic.ValueIdx Cert.Lib.SumRegroup

/-- The whole arrays' shape, [8192, 128]. -/
abbrev SN : Shape := ⟨2, ![8192, 128]⟩
/-- A block's shape, [1024, 128]. -/
abbrev ST : Shape := ⟨2, ![1024, 128]⟩
/-- The scalar shape. -/
abbrev S0 : Shape := ⟨0, ![]⟩

/-- The entry as a function of the two rows u = a_p and v = b_q. -/
def entryRow (u v : Fin 128 → EReal) : EReal :=
  Ideal.exp (Ideal.ofBits .f32 0xBB008040#32
    * max ((∑ k, u k * u k) + (∑ k, v k * v k) - Ideal.ofBits .f32 0x40000000#32 * ∑ k, u k * v k) 0)

/-- The entry at (p, q) of the arrays a and b given by rows. -/
def entry {A B : ℕ} (a : Fin A → Fin 128 → EReal) (b : Fin B → Fin 128 → EReal) (p : Fin A) (q : Fin B) : EReal :=
  entryRow (a p) (b q)

/-- An [A, 128] array as its rows. -/
def rows {A : ℕ} (x : (⟨2, ![A, 128]⟩ : Shape).Idx → EReal) : Fin A → Fin 128 → EReal := fun p k => x (ix2 p k)

/-- The total over the 1024 × 1024 pairs of rows of two blocks. -/
def tileSum (xa xb : ST.Idx → EReal) : EReal :=
  ∑ p : Fin 1024, ∑ q : Fin 1024, entry (rows xa) (rows xb) p q

/-- The total over the 8192 × 8192 pairs of rows of two arrays. -/
def pairSum (x y : SN.Idx → EReal) : EReal :=
  ∑ i : Fin 8192, ∑ j : Fin 8192, entry (rows x) (rows y) i j

/-- The total over all pairs is the sum of the 64 tile totals. -/
theorem pairSum_eq_sum_tiles (x y : SN.Idx → EReal) (bx bz : Fin 64 → ST.Idx → EReal)
    (hx : ∀ (t : Fin 64) (p : Fin 1024) (k : Fin 128),
      bx t (ValueIdx.ix2 p k) = x (ValueIdx.ix2 ⟨1024 * (t.val / 8) + p.val, by omega⟩ k))
    (hz : ∀ (t : Fin 64) (q : Fin 1024) (k : Fin 128),
      bz t (ValueIdx.ix2 q k) = y (ValueIdx.ix2 ⟨1024 * (t.val % 8) + q.val, by omega⟩ k)) :
    pairSum x y = ∑ t : Fin 64, tileSum (bx t) (bz t) := by
  unfold pairSum tileSum
  rw [sum_fin_mul 8 1024 8192 rfl, sum_fin_mul 8 8 64 rfl]
  refine Finset.sum_congr rfl fun r _ => ?_
  -- split the column index, then let the sum over the block's rows p and the sum over the column block s commute
  have hsplit : ∀ p : Fin 1024,
      ∑ j : Fin 8192, entry (rows x) (rows y) (Fin.cast (by norm_num) (finProdFinEquiv (r, p))) j
        = ∑ s : Fin 8, ∑ q : Fin 1024, entry (rows x) (rows y) (Fin.cast (by norm_num) (finProdFinEquiv (r, p)))
            (Fin.cast (by norm_num) (finProdFinEquiv (s, q))) :=
    fun p => sum_fin_mul 8 1024 8192 rfl _
  rw [Finset.sum_congr rfl fun p _ => hsplit p, Finset.sum_comm]
  refine Finset.sum_congr rfl fun s _ => Finset.sum_congr rfl fun p _ => Finset.sum_congr rfl fun q _ => ?_
  -- the two rows are the same rows
  unfold entry
  have hr : (Fin.cast (show 8 * 8 = 64 by norm_num) (finProdFinEquiv (r, s))).val = s.val + 8 * r.val := rfl
  have ea : rows (bx (Fin.cast (by norm_num) (finProdFinEquiv (r, s)))) p
      = rows x (Fin.cast (by norm_num) (finProdFinEquiv (r, p))) := by
    funext k
    unfold rows
    rw [hx]
    refine congrArg x (congrArg (fun a => ix2 a k) (Fin.ext ?_))
    show 1024 * ((Fin.cast (show 8 * 8 = 64 by norm_num) (finProdFinEquiv (r, s))).val / 8) + p.val = p.val + 1024 * r.val
    rw [hr]
    have := s.isLt
    omega
  have eb : rows (bz (Fin.cast (by norm_num) (finProdFinEquiv (r, s)))) q
      = rows y (Fin.cast (by norm_num) (finProdFinEquiv (s, q))) := by
    funext k
    unfold rows
    rw [hz]
    refine congrArg y (congrArg (fun a => ix2 a k) (Fin.ext ?_))
    show 1024 * ((Fin.cast (show 8 * 8 = 64 by norm_num) (finProdFinEquiv (r, s))).val % 8) + q.val = q.val + 1024 * s.val
    rw [hr]
    have := s.isLt
    omega
  rw [ea, eb]

/-- The closing scalar arithmetic: sqrt (a / K - 2 * (c / K) + b / K). -/
def tail (a b c : (⟨S0, .f32⟩ : BufTy).Contents (Elt Ideal)) : (⟨S0, .f32⟩ : BufTy).Contents (Elt Ideal) :=
  Host.sqrt (F := Ideal)
    (addf (F := Ideal)
      (subf (F := Ideal) (Host.divf (F := Ideal) a (constant (F := Ideal) S0 .f32 0x4C800000#32))
        (mulf (F := Ideal) (constant (F := Ideal) S0 .f32 0x40000000#32)
          (Host.divf (F := Ideal) c (constant (F := Ideal) S0 .f32 0x4C800000#32))))
      (Host.divf (F := Ideal) b (constant (F := Ideal) S0 .f32 0x4C800000#32)))

end Cert.Mmd

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibRowReduce.lean ====
/-
  Reductions along the rows of a matrix, read at one row, over the extended reals.

  For an `[a, n]` matrix `Y` reduced over its second axis to an `[a]` vector, entry `p` of the result depends on row
  `p` only:
  * a vector maximum reduction from the accumulator pattern `acc` is the fold of `max` from `acc`'s value over
    `Y (p, 0), …, Y (p, n − 1)`;
  * a vector sum reduction from the zero accumulator is `Σ_j Y (p, j)`;
  * the host's reduce with a maximum body from the initial value `init` is the same fold from `init`.
  The point put back into the reduced index `p` at coordinate `k` of the reduced axis is `(p, k)`.
-/
import Idealize.ShloMosaic.PureOps.Ideal.Laws
import Idealize.ShloMosaic.Lib.ValueIdx

noncomputable section

open scoped BigOperators

namespace Cert.Lib

open Idealize.ShloMosaic Idealize.ShloMosaic.ValueIdx

/-- The reduced index `p` with coordinate `k` of the second axis put back is `(p, k)`. -/
theorem lift_row {a n : ℕ} (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- A vector maximum reduction along the rows, at row `p`: the fold of `max` from the accumulator's value over the row. -/
theorem laneMax_apply {a n : ℕ} (Y : FVec Ideal ⟨2, ![a, n]⟩ .f32) (acc : BitVec 32)
    (h : (⟨2, ![a, n]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) Y acc h hφ hacc (ix1 p)
      = (Finset.univ : Finset (Fin n)).fold max (Ideal.ofBits .f32 acc) (fun j => Y (ix2 p j)) := by
  rw [Ideal.multiReduction_maximumf_single]
  have hf : (Y ∘ h.lift (ix1 p)) = fun k : Fin n => Y (ix2 p k) := funext fun k => congrArg Y (lift_row h p k)
  exact congrArg (fun f => Finset.fold max (Ideal.ofBits .f32 acc) f (Finset.univ : Finset (Fin n))) hf

/-- A vector sum reduction along the rows, at row `p`: the sum of the row. -/
theorem laneSum_apply {a n : ℕ} (Y : FVec Ideal ⟨2, ![a, n]⟩ .f32) (acc : BitVec 32)
    (h : (⟨2, ![a, n]⟩ : Shape).Reduces [1] (⟨1, ![a]⟩ : Shape)) (hφ : FKind.Formats .f32)
    (hacc : acc = FKind.add.neutral .f32 hφ) (p : Fin a) :
    multiReduction .add [1] (⟨1, ![a]⟩ : Shape) Y acc h hφ hacc (ix1 p) = ∑ j : Fin n, Y (ix2 p j) := by
  rw [Ideal.multiReduction_add_single]
  exact Finset.sum_congr rfl fun k _ => congrArg Y (lift_row h p k)

/-- The host's reduce with a maximum body along the rows, at row `p`: the fold of `max` from the initial value over the row. -/
theorem hostMax_apply {a n : ℕ} (Y : FVec Ideal ⟨2, ![a, n]⟩ .f32) (init : (⟨0, ![]⟩ : Shape).Idx → Ideal .f32)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf Y init h' hu (ix1 p)
      = (Finset.univ : Finset (Fin n)).fold max (init (Shape.Idx.first hu)) (fun j => Y (ix2 p j)) := by
  rw [Host.reduce_eq_fold_single FloatOps.maximumf Y _ h' h hu]
  have hf : (Y ∘ h.lift (ix1 p)) = fun k : Fin n => Y (ix2 p k) := funext fun k => congrArg Y (lift_row h p k)
  exact congrArg (fun f => Finset.fold max (init (Shape.Idx.first hu)) f (Finset.univ : Finset (Fin n))) hf

end Cert.Lib

end
-- ==== Proof.LibTotalSum.lean ====
/-
  Totals. A sum over every index of an array survives the operations that only regroup it: a reduction by
  addition along any axes (each source index lands in exactly one fibre), a change of shape (a bijection of
  index sets), and the reading of a one-element array at its only index. Beside these, the one arithmetic
  fact about counting: a wrapping 32-bit sum of zero-or-one words, over fewer than 2^31 indices, read as a
  signed integer, is the number of ones — so it is the sum of the words read one at a time.
-/
import Idealize.ShloMosaic.PureOps.Ideal.Laws
import Idealize.ShloMosaic.PureOps.Reduce
import Idealize.ShloMosaic.Lib.ValueIdx

noncomputable section

namespace TotalSum

open Idealize.ShloMosaic

/-- The real-to-extended-real inclusion commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A reduction by addition keeps the total: summing the reduced array over its indices is summing the
    source over its own, because the fibres of the index projection partition the source's indices. -/
theorem sum_reduceAdd {s t : Shape} {axes : List (Fin s.rank)} (h : s.Reduces axes t) (x : s.Idx → EReal) :
    ∑ j : t.Idx, Ideal.reduceAdd h x j = ∑ i : s.Idx, x i := by
  unfold Ideal.reduceAdd
  exact Finset.sum_fiberwise Finset.univ (fun i => h.drop i) x

/-- The same for the vector reduction as a kernel body prints it, read at the exact instance. -/
theorem sum_multiReduction_add {φ : FTy} {s t : Shape} {axes : List (Fin s.rank)} (src : FVec Ideal s φ)
    (acc : BitVec φ.bits) (h : s.Reduces axes t) (hφ : FKind.Formats φ) (hacc : acc = FKind.add.neutral φ hφ) :
    ∑ j : t.Idx, multiReduction .add axes t src acc h hφ hacc j = ∑ i : s.Idx, src i :=
  sum_reduceAdd h src

/-- The same with the accumulator spelt as a kernel body prints it: the 32-bit zero word, known to be itself. -/
theorem sum_multiReduction_add_zero {s t : Shape} {axes : List (Fin s.rank)} (src : FVec Ideal s .f32)
    (h : s.Reduces axes t) (hacc : (0x00000000#32 : BitVec 32) = 0x00000000#32) :
    ∑ j : t.Idx, multiReduction .add axes t src 0x00000000#32 h (.inl rfl) hacc j = ∑ i : s.Idx, src i :=
  sum_reduceAdd h src

/-- A change of shape keeps the total: it reads the source through a bijection of the index sets. -/
theorem sum_shapeCast {M : Type} [AddCommMonoid M] {s t : Shape} (x : s.Idx → M) (h : s.ShapeCasts t) :
    ∑ j : t.Idx, shapeCast t x h j = ∑ i : s.Idx, x i := by
  unfold shapeCast
  exact Equiv.sum_comp (Shape.reshapeEquiv h) x

/-- Summing `g` of two arrays read through the same change of shape is summing `g` of the arrays. -/
theorem sum_shapeCast₂ {M : Type} [AddCommMonoid M] {α : Type} {s t : Shape} (x y : s.Idx → α) (h : s.ShapeCasts t)
    (g : α → α → M) :
    ∑ j : t.Idx, g (shapeCast t x h j) (shapeCast t y h j) = ∑ i : s.Idx, g (x i) (y i) := by
  unfold shapeCast
  exact Equiv.sum_comp (Shape.reshapeEquiv h) fun i => g (x i) (y i)

/-- An array with one index is, at that index, its own total. -/
theorem eq_sum_of_subsingleton {M : Type*} [AddCommMonoid M] {ι : Type*} [Fintype ι] [Subsingleton ι] (w : ι → M) (i : ι) :
    w i = ∑ j : ι, w j :=
  (Fintype.sum_subsingleton w i).symm

/-- The number of indices of a shape is its number of elements. -/
theorem card_idx (s : Shape) : Fintype.card s.Idx = s.numel := by
  rw [Fintype.card_congr s.rowMajor, Fintype.card_fin]

/-! ## Counting ones in 32-bit words -/

/-- The unsigned value of a wrapping sum of words is the sum of their unsigned values, modulo 2^32. -/
theorem toNat_fold_add {ι : Type*} (s : Finset ι) (f : ι → BitVec 32) :
    (s.fold IntOp.addi 0#32 f).toNat = (∑ i ∈ s, (f i).toNat) % 2 ^ 32 := by
  classical
  induction s using Finset.induction_on with
  | empty => simp
  | insert a s ha ih =>
    rw [Finset.fold_insert ha, Finset.sum_insert ha]
    show (f a + s.fold IntOp.addi 0#32 f).toNat = _
    rw [BitVec.toNat_add, ih]
    omega

/-- A one-bit word widened to 32 bits is 0 or 1, whether read unsigned or signed. -/
theorem toNat_setWidth_le_one (b : BitVec 1) : (b.setWidth 32).toNat ≤ 1 := by
  have := b.isLt
  rw [BitVec.toNat_setWidth]
  have : b.toNat < 2 := by simpa using b.isLt
  omega

theorem toInt_setWidth_eq (b : BitVec 1) : ((b.setWidth 32).toInt : ℝ) = ((b.setWidth 32).toNat : ℝ) := by
  have h := toNat_setWidth_le_one b
  rw [BitVec.toInt_eq_toNat_of_lt (by omega)]
  exact Int.cast_natCast _

/-- COUNTING. Over fewer than 2^31 indices, the wrapping 32-bit sum of widened one-bit words, read as a signed
    integer and then as a real, is the sum of the words each read that way: the true count never reaches the
    sign bit, so nothing wraps. -/
theorem toInt_fold_add_bits {ι : Type*} [Fintype ι] (hcard : Fintype.card ι < 2 ^ 31) (b : ι → BitVec 1) :
    (((Finset.univ.fold IntOp.addi 0#32 fun i => (b i).setWidth 32).toInt : ℝ) : EReal)
      = ∑ i : ι, ((((b i).setWidth 32).toInt : ℝ) : EReal) := by
  have hle : ∑ i : ι, ((b i).setWidth 32).toNat ≤ Fintype.card ι := by
    calc ∑ i : ι, ((b i).setWidth 32).toNat ≤ ∑ _i : ι, 1 := Finset.sum_le_sum fun i _ => toNat_setWidth_le_one (b i)
      _ = Fintype.card ι := by simp
  have hN : (Finset.univ.fold IntOp.addi 0#32 fun i => (b i).setWidth 32).toNat = ∑ i : ι, ((b i).setWidth 32).toNat := by
    rw [toNat_fold_add]
    exact Nat.mod_eq_of_lt (by omega)
  rw [BitVec.toInt_eq_toNat_of_lt (by rw [hN]; omega), hN, ← coe_sum]
  congr 1
  rw [Int.cast_natCast, Nat.cast_sum]
  exact Finset.sum_congr rfl fun i _ => (toInt_setWidth_eq (b i)).symm

end TotalSum

end
-- ==== Proof.KernelTile.lean ====
/-
  One tile of the kernel body, read as mathematics.

  The body takes two [1024, 128] blocks a, b and the running scalar s and stores s + T, where T is the total over the
  1024 × 1024 pairs (p, q) of exp (g * max (‖a_p‖² + ‖b_q‖² - 2 ⟨a_p, b_q⟩, 0)). Read one operation at a time:
  * the squared norms are the row sums of the squares (a lane sum from zero), kept as a [1024, 1] column; the
    second block's column is transposed to a [1, 1024] row; the column is spread along the rows and the row down
    the columns, so entry (p, q) of their sum is ‖a_p‖² + ‖b_q‖²;
  * the inner products are the plain matrix product of a with the transposed b into a zero accumulator:
    entry (p, q) is Σ_k a(p,k) b(q,k);
  * the rest is pointwise, so entry (p, q) of the exponential matrix is `entry` of the two blocks' rows;
  * the total: the matrix is viewed as [1, 1024, 1024], summed over its last two axes into one element, viewed as
    [1, 1, 1] and read at its only position — the sum over every entry, a change of shape being a bijection of
    index sets and a sum over a rank-2 index set being the double sum over its coordinates.
  The first visit stores the zero word, which is 0. The three calls have the same body.
-/
import proofs.«149046_j33449205301987_1_alg».proof.Proof.Spec
import proofs.«149046_j33449205301987_1_alg».proof.Proof.Gen.KernelIdeal.Skeleton
import proofs.«149046_j33449205301987_1_alg».proof.Proof.LibMatmulPlain
import proofs.«149046_j33449205301987_1_alg».proof.Proof.LibColumn
import proofs.«149046_j33449205301987_1_alg».proof.Proof.LibRowReduce
import proofs.«149046_j33449205301987_1_alg».proof.Proof.LibTotalSum
import Idealize.ShloMosaic.Lib.ValueLayout

noncomputable section

open scoped BigOperators

namespace Cert.Mmd

open Cert.KernelIdeal Cert.KernelIdeal.Gen Idealize.ShloMosaic Idealize.ShloMosaic.ValueIdx

variable [Cert.KernelIdeal.Facts]

/-- The squared norms of a block's rows, kept as a column: at (p, u) the sum of the squares of row p. -/
theorem sqnormCol_apply (v : FVec Ideal S1024x128 .f32) (p : Fin 1024) (u : Fin 1) :
    shapeCast S1024x1
        (multiReduction .add [1] S1024 (mulf v v) 0x00000000#32 reduces_S1024x128_S1024 (.inl rfl) rfl)
        shapeCasts_S1024_S1024x1 (ix2 p u)
      = ∑ k : Fin 128, v (ix2 p k) * v (ix2 p k) :=
  (Cert.Lib.shapeCast_a_a1_apply _ _ p u).trans (Cert.Lib.laneSum_apply (mulf v v) _ _ _ _ p)

/-- The exponential matrix of a tile, as the body computes it from the two blocks. -/
def expTile (v5 v6 : FVec Ideal S1024x128 .f32) : FVec Ideal S1024x1024 .f32 :=
  exp (mulf (broadcast S1024x1024 (FloatOps.ofBits (F := Ideal) .f32 0xBB008040#32))
    (maximumf
      (subf
        (addf
          (broadcastTo S1024x1024
            (shapeCast S1024x1
              (multiReduction .add [1] S1024 (mulf v5 v5) 0x00000000#32 reduces_S1024x128_S1024 (.inl rfl) rfl)
              shapeCasts_S1024_S1024x1)
            broadcasts_S1024x1_S1024x1024)
          (broadcastTo S1024x1024
            (transpose S1x1024 [1, 0]
              (shapeCast S1024x1
                (multiReduction .add [1] S1024 (mulf v6 v6) 0x00000000#32 reduces_S1024x128_S1024 (.inl rfl) rfl)
                shapeCasts_S1024_S1024x1)
              transposes_S1024x1_p1_0_S1x1024)
            broadcasts_S1x1024_S1024x1024))
        (mulf (broadcast S1024x1024 (FloatOps.ofBits (F := Ideal) .f32 0x40000000#32))
          (matmul dot_S1024x128_S128x1024_S1024x1024_1_0_0_1_n_n none v5
            (transpose S128x1024 [1, 0] v6 transposes_S1024x128_p1_0_S128x1024)
            (constant S1024x1024 .f32 0x00000000#32))))
      (broadcast S1024x1024 (FloatOps.ofBits (F := Ideal) .f32 0x00000000#32))))

/-- Entry (p, q) of the exponential matrix is the entry of the two blocks' rows. -/
theorem expTile_apply (v5 v6 : FVec Ideal S1024x128 .f32) (p q : Fin 1024) :
    expTile v5 v6 (ix2 p q) = entry (rows v5) (rows v6) p q := by
  have hA : broadcastTo S1024x1024
        (shapeCast S1024x1
          (multiReduction .add [1] S1024 (mulf v5 v5) 0x00000000#32 reduces_S1024x128_S1024 (.inl rfl) rfl)
          shapeCasts_S1024_S1024x1)
        broadcasts_S1024x1_S1024x1024 (ix2 p q)
      = ∑ k : Fin 128, v5 (ix2 p k) * v5 (ix2 p k) :=
    (Cert.Lib.broadcastTo_a1_ab_apply _ _ p q).trans (sqnormCol_apply v5 p 0)
  have hB : broadcastTo S1024x1024
        (transpose S1x1024 [1, 0]
          (shapeCast S1024x1
            (multiReduction .add [1] S1024 (mulf v6 v6) 0x00000000#32 reduces_S1024x128_S1024 (.inl rfl) rfl)
            shapeCasts_S1024_S1024x1)
          transposes_S1024x1_p1_0_S1x1024)
        broadcasts_S1x1024_S1024x1024 (ix2 p q)
      = ∑ k : Fin 128, v6 (ix2 q k) * v6 (ix2 q k) :=
    (broadcastTo_1b_ab_apply _ _ p q).trans ((transpose_ix2_apply _ _ (0 : Fin 1) q).trans (sqnormCol_apply v6 q 0))
  have hC : matmul dot_S1024x128_S128x1024_S1024x1024_1_0_0_1_n_n none v5
        (transpose S128x1024 [1, 0] v6 transposes_S1024x128_p1_0_S128x1024)
        (constant S1024x1024 .f32 0x00000000#32) (ix2 p q)
      = ∑ k : Fin 128, v5 (ix2 p k) * v6 (ix2 q k) :=
    (Cert.Lib.matmul_plain_zero_apply 1024 128 1024 none v5 _ p q).trans
      (Finset.sum_congr rfl fun k _ => congrArg (v5 (ix2 p k) * ·) (transpose_ix2_apply v6 _ k q))
  show Ideal.exp (Ideal.ofBits .f32 0xBB008040#32
      * max ((_ + _) - Ideal.ofBits .f32 0x40000000#32 * _) (Ideal.ofBits .f32 0x00000000#32)) = _
  rw [hA, hB, hC, Ideal.ofBits_zero_f32]
  rfl

/-- The total of a matrix as the body takes it — viewed [1, 1024, 1024], summed over the last two axes into one
    element, viewed [1, 1, 1], read at its only position — is the double sum of its entries. -/
theorem total_apply (w : FVec Ideal S1024x1024 .f32) :
    extractAt ![0, 0, 0]
        (shapeCast S1x1x1
          (multiReduction .add [1, 2] S1 (shapeCast S1x1024x1024 w shapeCasts_S1024x1024_S1x1024x1024) 0x00000000#32
            reduces_S1x1024x1024_S1 (.inl rfl) rfl)
          shapeCasts_S1_S1x1x1)
        inpos_S1x1x1_p0_0_0
      = ∑ p : Fin 1024, ∑ q : Fin 1024, w (ix2 p q) := by
  show multiReduction .add [1, 2] S1 (shapeCast S1x1024x1024 w shapeCasts_S1024x1024_S1x1024x1024) 0x00000000#32
      reduces_S1x1024x1024_S1 (.inl rfl) rfl
      (Shape.reshapeEquiv shapeCasts_S1_S1x1x1 fun a => ⟨![0, 0, 0] a, inpos_S1x1x1_p0_0_0 a⟩) = _
  refine (Ideal.multiReduction_add_total (shapeCast S1x1024x1024 w shapeCasts_S1024x1024_S1x1024x1024) 0x00000000#32
    reduces_S1x1024x1024_S1 (by decide) (.inl rfl) rfl _).trans ?_
  rw [TotalSum.sum_shapeCast, sum_idx2]

/-- The scalar the body adds to the running sum. -/
def tileTotal (v5 v6 : FVec Ideal S1024x128 .f32) : EReal :=
  extractAt ![0, 0, 0]
    (shapeCast S1x1x1
      (multiReduction .add [1, 2] S1 (shapeCast S1x1024x1024 (expTile v5 v6) shapeCasts_S1024x1024_S1x1024x1024)
        0x00000000#32 reduces_S1x1024x1024_S1 (.inl rfl) rfl)
      shapeCasts_S1_S1x1x1)
    inpos_S1x1x1_p0_0_0

/-- It is the tile total. -/
theorem tileTotal_eq (v5 v6 : FVec Ideal S1024x128 .f32) : tileTotal v5 v6 = tileSum v5 v6 := by
  unfold tileTotal tileSum
  rw [total_apply]
  exact Finset.sum_congr rfl fun p _ => Finset.sum_congr rfl fun q _ => expTile_apply v5 v6 p q

/-- The first visit stores zero. -/
theorem pay1_eq (y : S1x1.Idx) : Cert.KernelIdeal.Gen.k0_pay1 (F := Ideal) y = 0 := by
  show Ideal.ofBits .f32 0x00000000#32 = 0
  exact Ideal.ofBits_zero_f32

/-- Every visit stores the running sum plus the tile total. -/
theorem pay2_eq (v5 v6 : Vec Ideal S1024x128 .f32) (v27 : Vec Ideal S1x1 .f32) (y : S1x1.Idx) :
    Cert.KernelIdeal.Gen.k0_pay2 (F := Ideal) v5 v6 v27 y = v27 y + tileSum v5 v6 := by
  have h : Cert.KernelIdeal.Gen.k0_pay2 (F := Ideal) v5 v6 v27
      = shapeCast S1x1 (addf v27 (broadcast S1x1 (tileTotal v5 v6))) shapeCasts_S1x1_S1x1 := rfl
  rw [h, shapeCast_self]
  show v27 y + tileTotal v5 v6 = _
  rw [tileTotal_eq]

/-- The second and third calls have the same body. -/
theorem k1_pay1_eq_k0 : @Cert.KernelIdeal.Gen.k1_pay1 = @Cert.KernelIdeal.Gen.k0_pay1 := rfl
theorem k1_pay2_eq_k0 : @Cert.KernelIdeal.Gen.k1_pay2 = @Cert.KernelIdeal.Gen.k0_pay2 := rfl
theorem k2_pay1_eq_k0 : @Cert.KernelIdeal.Gen.k2_pay1 = @Cert.KernelIdeal.Gen.k0_pay1 := rfl
theorem k2_pay2_eq_k0 : @Cert.KernelIdeal.Gen.k2_pay2 = @Cert.KernelIdeal.Gen.k0_pay2 := rfl

theorem k1_pay1_eq (y : S1x1.Idx) : Cert.KernelIdeal.Gen.k1_pay1 (F := Ideal) y = 0 := pay1_eq y
theorem k2_pay1_eq (y : S1x1.Idx) : Cert.KernelIdeal.Gen.k2_pay1 (F := Ideal) y = 0 := pay1_eq y
theorem k1_pay2_eq (v5 v6 : Vec Ideal S1024x128 .f32) (v27 : Vec Ideal S1x1 .f32) (y : S1x1.Idx) :
    Cert.KernelIdeal.Gen.k1_pay2 (F := Ideal) v5 v6 v27 y = v27 y + tileSum v5 v6 := pay2_eq v5 v6 v27 y
theorem k2_pay2_eq (v5 v6 : Vec Ideal S1024x128 .f32) (v27 : Vec Ideal S1x1 .f32) (y : S1x1.Idx) :
    Cert.KernelIdeal.Gen.k2_pay2 (F := Ideal) v5 v6 v27 y = v27 y + tileSum v5 v6 := pay2_eq v5 v6 v27 y

end Cert.Mmd

end
-- ==== Proof.TailIdeal.lean ====
/-
  At the extended reals the closing scalar arithmetic of the run is the specification's `tail`, and a 1×1 array read
  as a scalar is its one entry: a change of shape reads the source through the bijection of the two index sets, and
  both have exactly one index.
-/
import proofs.«149046_j33449205301987_1_alg».proof.Proof.Assemble
import proofs.«149046_j33449205301987_1_alg».proof.Proof.Spec
import Idealize.ShloMosaic.Lib.Pipeline.Value

noncomputable section

namespace Cert.Mmd

open Idealize.ShloMosaic Cert.KernelIdeal Cert.KernelIdeal.Gen Cert.KernelIdeal.Frm

/-- The run's closing arithmetic, at the extended reals, is `tail`. -/
theorem tailF_ideal : @tailF Ideal _ = Cert.Mmd.tail := rfl

/-- A 1×1 array read as a scalar is its entry (0, 0). -/
theorem rs_apply (x : (⟨S1x1, .f32⟩ : BufTy).Contents (Elt Ideal)) (i : S_.Idx) :
    rs (F := Ideal) x i = x (ValueIdx.ix2 0 0) := by
  obtain rfl := ValueIdx.eq_ix0 i
  exact shapeCast_apply x shapeCasts_S1x1_S_ _ _ (by decide)

end Cert.Mmd

end
-- ==== Proof.Totals.lean ====
/-
  What each region leaves in its output array, read as a scalar: the total over all pairs of rows.

  A region visits the 64 points t = 8 r + s of an 8 × 8 grid in order. At point t its first window holds rows
  1024 r … of its first array and its second window rows 1024 s … of its second array (a block's coordinate in its
  array is the block index times the block's size plus the coordinate inside the block; the index maps are decided
  once over the grid). The accumulator starts at zero at the first point and every point adds its tile's total, so
  after point n it holds the sum of the tile totals of the points 0 … n (induction on n), and after the last point
  the sum of all 64 — which is the total over all 8192 × 8192 pairs, a finite sum on the extended reals regrouping
  freely. The output window is one 1 × 1 block, written back at the last point only, and that block is the whole
  array: so after the region the array holds the accumulator's last value.
-/
import proofs.«149046_j33449205301987_1_alg».proof.Proof.Dat0
import proofs.«149046_j33449205301987_1_alg».proof.Proof.Dat1
import proofs.«149046_j33449205301987_1_alg».proof.Proof.Dat2
import proofs.«149046_j33449205301987_1_alg».proof.Proof.KernelTile
import proofs.«149046_j33449205301987_1_alg».proof.Proof.Spec
import proofs.«149046_j33449205301987_1_alg».proof.Proof.TailIdeal
import Idealize.ShloMosaic.Lib.Pipeline.Value

set_option maxRecDepth 16384

noncomputable section

open scoped BigOperators

namespace Cert.Mmd

open Cert.KernelIdeal Cert.KernelIdeal.Gen Cert.KernelIdeal.Frm
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The first region: rows of `main_arg0` against rows of `main_arg0` -/

/-- The printed index maps over the grid, decided once: at point t the first window's block index is (t / 8, 0), the
    second's (t % 8, 0), the output's (0, 0). -/
theorem index_facts0 : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = 0 :=
  (by decide +kernel : ∀ t : Fin grid0.N, _)

/-- The first window's block at point t holds rows 1024 (t / 8) … of `main_arg0`. -/
theorem rowBlock0 (c : Dev nD) (t : Fin cfg0.N) (p : Fin 1024) (k : Fin 128) :
    iblk0 (F := Ideal) V c 0 t (ix2 p k) = V c main_arg0 (ix2 ⟨1024 * (t.val / 8) + p.val, by have := t.isLt; have : cfg0.N = 64 := N_0; omega⟩ k) := by
  obtain ⟨e0, e1, -, -, -, -⟩ := index_facts0 t
  show V c main_arg0 (((cfg0.win 0).blk t).view.emb (ix2 p k)) = _
  refine congrArg (V c main_arg0) (funext fun a => Fin.ext ?_)
  match a with
  | ⟨0, _⟩ => show win0_0.index t (0 : Fin 2) * 1024 + 1 * p.val = 1024 * (t.val / 8) + p.val; omega
  | ⟨1, _⟩ => show win0_0.index t (1 : Fin 2) * 128 + 1 * k.val = k.val; omega

/-- The second window's block at point t holds rows 1024 (t % 8) … of `main_arg0`. -/
theorem colBlock0 (c : Dev nD) (t : Fin cfg0.N) (q : Fin 1024) (k : Fin 128) :
    iblk0 (F := Ideal) V c 1 t (ix2 q k) = V c main_arg0 (ix2 ⟨1024 * (t.val % 8) + q.val, by omega⟩ k) := by
  obtain ⟨-, -, e0, e1, -, -⟩ := index_facts0 t
  show V c main_arg0 (((cfg0.win 1).blk t).view.emb (ix2 q k)) = _
  refine congrArg (V c main_arg0) (funext fun a => Fin.ext ?_)
  match a with
  | ⟨0, _⟩ => show win0_1.index t (0 : Fin 2) * 1024 + 1 * q.val = 1024 * (t.val % 8) + q.val; omega
  | ⟨1, _⟩ => show win0_1.index t (1 : Fin 2) * 128 + 1 * k.val = k.val; omega

/-- The tile total at point n. -/
def tileAt0 (c : Dev nD) (n : ℕ) (hn : n < cfg0.N) : EReal :=
  tileSum (iblk0 (F := Ideal) V c 0 ⟨n, hn⟩) (iblk0 (F := Ideal) V c 1 ⟨n, hn⟩)

/-- THE ACCUMULATOR after point n is the sum of the tile totals of the points 0 … n: it starts from zero and each
    point adds its tile's total. -/
theorem acc_eq0 (c : Dev nD) : ∀ (n : ℕ) (hn : n < cfg0.N) (y : S1x1.Idx),
    accAt0 (F := Ideal) V c n hn y = ∑ t : Fin (n + 1), tileAt0 V c t.val (lt_of_le_of_lt (Nat.le_of_lt_succ t.isLt) hn)
  | 0, hn, y => by
    show k0_pay2 (F := Ideal) (iblk0 V c 0 ⟨0, hn⟩) (iblk0 V c 1 ⟨0, hn⟩) (k0_pay1 (F := Ideal)) y = _
    rw [pay2_eq, pay1_eq, zero_add, Fin.sum_univ_one]
    rfl
  | n + 1, hn, y => by
    show k0_pay2 (F := Ideal) (iblk0 V c 0 ⟨n + 1, hn⟩) (iblk0 V c 1 ⟨n + 1, hn⟩) (accAt0 V c n (Nat.lt_of_succ_lt hn)) y = _
    rw [pay2_eq, acc_eq0 c n (Nat.lt_of_succ_lt hn) y]
    refine Eq.trans ?_ (Fin.sum_univ_castSucc _).symm
    rfl

/-- After the last point the accumulator is the total over all pairs of rows. -/
theorem acc_last0 (c : Dev nD) (h : 63 < cfg0.N) (y : S1x1.Idx) :
    accAt0 (F := Ideal) V c 63 h y = pairSum (V c main_arg0) (V c main_arg0) := by
  have hN : cfg0.N = 64 := N_0
  rw [acc_eq0 V c 63 h y,
    pairSum_eq_sum_tiles (V c main_arg0) (V c main_arg0)
      (fun t => iblk0 (F := Ideal) V c 0 ⟨t.val, by omega⟩) (fun t => iblk0 (F := Ideal) V c 1 ⟨t.val, by omega⟩)
      (fun t p k => rowBlock0 V c ⟨t.val, by omega⟩ p k) (fun t q k => colBlock0 V c ⟨t.val, by omega⟩ q k)]
  rfl

/-- The 1×1 array has one index. -/
theorem idx_unique0 (a b : S1x1.Idx) : a = b :=
  funext fun d => Fin.ext (by
    match d with
    | ⟨0, _⟩ => have h1 : (a 0).val < 1 := (a 0).isLt; have h2 : (b 0).val < 1 := (b 0).isLt; show (a 0).val = (b 0).val; omega
    | ⟨1, _⟩ => have h1 : (a 1).val < 1 := (a 1).isLt; have h2 : (b 1).val < 1 := (b 1).isLt; show (a 1).val = (b 1).val; omega)

/-- THE OUTPUT ARRAY after the region: only the last point writes its block back, that block is the whole 1×1
    array, and what it writes is the accumulator after the last point. -/
theorem out_eq0 (c : Dev nD) (h : 63 < cfg0.N) :
    (dat0 (F := Ideal) V c).arrAt 2 cfg0.N = accAt0 (F := Ideal) V c 63 h := by
  refine (dat0 (F := Ideal) V c).arrAt_eq_of_cover 2 (accAt0 (F := Ideal) V c 63 h) (fun t hf => ?_) (fun i => ?_)
  · -- the one flushing point is 63, and what it writes back is the accumulator there
    have ht : t.val = 63 := by have := (flush0_2 t).mp hf; have := t.isLt; have : cfg0.N = 64 := N_0; omega
    obtain ⟨n, hn⟩ := t
    obtain rfl : n = 63 := ht
    show (cfg0.win 2).cut (cfg0.grid.coords ⟨63, hn⟩) ((dat0 (F := Ideal) V c).after 2 ⟨63, hn⟩) = _
    rw [after0_2]
    funext j
    exact congrArg (accAt0 (F := Ideal) V c 63 h) (idx_unique0 _ _)
  · -- the array's one index lies in the last point's block
    have hN : cfg0.N = 64 := N_0
    refine ⟨⟨63, h⟩, (flush0_2 _).mpr rfl, ?_⟩
    obtain ⟨-, -, -, -, e0, e1⟩ := index_facts0 ⟨63, h⟩
    show i ∈ ((View.whole main_v0).slice (win0_2.rect ⟨63, h⟩)).set
    rw [View.set_slice_whole, Rect.mem_set_unit]
    intro a
    match a with
    | ⟨0, _⟩ =>
      have hi : (i 0).val < 1 := (i 0).isLt
      show win0_2.index ⟨63, h⟩ (0 : Fin 2) * 1 ≤ (i 0).val ∧ (i 0).val < win0_2.index ⟨63, h⟩ (0 : Fin 2) * 1 + 1
      omega
    | ⟨1, _⟩ =>
      have hi : (i 1).val < 1 := (i 1).isLt
      show win0_2.index ⟨63, h⟩ (1 : Fin 2) * 1 ≤ (i 1).val ∧ (i 1).val < win0_2.index ⟨63, h⟩ (1 : Fin 2) * 1 + 1
      omega

/-- The region's output, read as a scalar, is the total over all pairs of rows of `main_arg0` and `main_arg0`. -/
theorem total0 (c : Dev nD) :
    Cert.KernelIdeal.Frm.rs (F := Ideal) ((dat0 (F := Ideal) V c).arrAt 2 cfg0.N)
      = fun _ => pairSum (V c main_arg0) (V c main_arg0) := by
  have h : 63 < cfg0.N := by have : cfg0.N = 64 := N_0; omega
  funext i
  rw [rs_apply, out_eq0 V c h]
  exact acc_last0 V c h _

/-! ## The second region: rows of `main_arg1` against rows of `main_arg1` -/

/-- The printed index maps over the grid, decided once: at point t the first window's block index is (t / 8, 0), the
    second's (t % 8, 0), the output's (0, 0). -/
theorem index_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = 0 ∧ win1_2.index t (1 : Fin 2) = 0 :=
  (by decide +kernel : ∀ t : Fin grid1.N, _)

/-- The first window's block at point t holds rows 1024 (t / 8) … of `main_arg1`. -/
theorem rowBlock1 (c : Dev nD) (t : Fin cfg1.N) (p : Fin 1024) (k : Fin 128) :
    iblk1 (F := Ideal) V c 0 t (ix2 p k) = V c main_arg1 (ix2 ⟨1024 * (t.val / 8) + p.val, by have := t.isLt; have : cfg1.N = 64 := N_1; omega⟩ k) := by
  obtain ⟨e0, e1, -, -, -, -⟩ := index_facts1 t
  show V c main_arg1 (((cfg1.win 0).blk t).view.emb (ix2 p k)) = _
  refine congrArg (V c main_arg1) (funext fun a => Fin.ext ?_)
  match a with
  | ⟨0, _⟩ => show win1_0.index t (0 : Fin 2) * 1024 + 1 * p.val = 1024 * (t.val / 8) + p.val; omega
  | ⟨1, _⟩ => show win1_0.index t (1 : Fin 2) * 128 + 1 * k.val = k.val; omega

/-- The second window's block at point t holds rows 1024 (t % 8) … of `main_arg1`. -/
theorem colBlock1 (c : Dev nD) (t : Fin cfg1.N) (q : Fin 1024) (k : Fin 128) :
    iblk1 (F := Ideal) V c 1 t (ix2 q k) = V c main_arg1 (ix2 ⟨1024 * (t.val % 8) + q.val, by omega⟩ k) := by
  obtain ⟨-, -, e0, e1, -, -⟩ := index_facts1 t
  show V c main_arg1 (((cfg1.win 1).blk t).view.emb (ix2 q k)) = _
  refine congrArg (V c main_arg1) (funext fun a => Fin.ext ?_)
  match a with
  | ⟨0, _⟩ => show win1_1.index t (0 : Fin 2) * 1024 + 1 * q.val = 1024 * (t.val % 8) + q.val; omega
  | ⟨1, _⟩ => show win1_1.index t (1 : Fin 2) * 128 + 1 * k.val = k.val; omega

/-- The tile total at point n. -/
def tileAt1 (c : Dev nD) (n : ℕ) (hn : n < cfg1.N) : EReal :=
  tileSum (iblk1 (F := Ideal) V c 0 ⟨n, hn⟩) (iblk1 (F := Ideal) V c 1 ⟨n, hn⟩)

/-- THE ACCUMULATOR after point n is the sum of the tile totals of the points 0 … n: it starts from zero and each
    point adds its tile's total. -/
theorem acc_eq1 (c : Dev nD) : ∀ (n : ℕ) (hn : n < cfg1.N) (y : S1x1.Idx),
    accAt1 (F := Ideal) V c n hn y = ∑ t : Fin (n + 1), tileAt1 V c t.val (lt_of_le_of_lt (Nat.le_of_lt_succ t.isLt) hn)
  | 0, hn, y => by
    show k1_pay2 (F := Ideal) (iblk1 V c 0 ⟨0, hn⟩) (iblk1 V c 1 ⟨0, hn⟩) (k1_pay1 (F := Ideal)) y = _
    rw [k1_pay2_eq, k1_pay1_eq, zero_add, Fin.sum_univ_one]
    rfl
  | n + 1, hn, y => by
    show k1_pay2 (F := Ideal) (iblk1 V c 0 ⟨n + 1, hn⟩) (iblk1 V c 1 ⟨n + 1, hn⟩) (accAt1 V c n (Nat.lt_of_succ_lt hn)) y = _
    rw [k1_pay2_eq, acc_eq1 c n (Nat.lt_of_succ_lt hn) y]
    refine Eq.trans ?_ (Fin.sum_univ_castSucc _).symm
    rfl

/-- After the last point the accumulator is the total over all pairs of rows. -/
theorem acc_last1 (c : Dev nD) (h : 63 < cfg1.N) (y : S1x1.Idx) :
    accAt1 (F := Ideal) V c 63 h y = pairSum (V c main_arg1) (V c main_arg1) := by
  have hN : cfg1.N = 64 := N_1
  rw [acc_eq1 V c 63 h y,
    pairSum_eq_sum_tiles (V c main_arg1) (V c main_arg1)
      (fun t => iblk1 (F := Ideal) V c 0 ⟨t.val, by omega⟩) (fun t => iblk1 (F := Ideal) V c 1 ⟨t.val, by omega⟩)
      (fun t p k => rowBlock1 V c ⟨t.val, by omega⟩ p k) (fun t q k => colBlock1 V c ⟨t.val, by omega⟩ q k)]
  rfl

/-- The 1×1 array has one index. -/
theorem idx_unique1 (a b : S1x1.Idx) : a = b :=
  funext fun d => Fin.ext (by
    match d with
    | ⟨0, _⟩ => have h1 : (a 0).val < 1 := (a 0).isLt; have h2 : (b 0).val < 1 := (b 0).isLt; show (a 0).val = (b 0).val; omega
    | ⟨1, _⟩ => have h1 : (a 1).val < 1 := (a 1).isLt; have h2 : (b 1).val < 1 := (b 1).isLt; show (a 1).val = (b 1).val; omega)

/-- THE OUTPUT ARRAY after the region: only the last point writes its block back, that block is the whole 1×1
    array, and what it writes is the accumulator after the last point. -/
theorem out_eq1 (c : Dev nD) (h : 63 < cfg1.N) :
    (dat1 (F := Ideal) V c).arrAt 2 cfg1.N = accAt1 (F := Ideal) V c 63 h := by
  refine (dat1 (F := Ideal) V c).arrAt_eq_of_cover 2 (accAt1 (F := Ideal) V c 63 h) (fun t hf => ?_) (fun i => ?_)
  · -- the one flushing point is 63, and what it writes back is the accumulator there
    have ht : t.val = 63 := by have := (flush1_2 t).mp hf; have := t.isLt; have : cfg1.N = 64 := N_1; omega
    obtain ⟨n, hn⟩ := t
    obtain rfl : n = 63 := ht
    show (cfg1.win 2).cut (cfg1.grid.coords ⟨63, hn⟩) ((dat1 (F := Ideal) V c).after 2 ⟨63, hn⟩) = _
    rw [after1_2]
    funext j
    exact congrArg (accAt1 (F := Ideal) V c 63 h) (idx_unique1 _ _)
  · -- the array's one index lies in the last point's block
    have hN : cfg1.N = 64 := N_1
    refine ⟨⟨63, h⟩, (flush1_2 _).mpr rfl, ?_⟩
    obtain ⟨-, -, -, -, e0, e1⟩ := index_facts1 ⟨63, h⟩
    show i ∈ ((View.whole main_v3).slice (win1_2.rect ⟨63, h⟩)).set
    rw [View.set_slice_whole, Rect.mem_set_unit]
    intro a
    match a with
    | ⟨0, _⟩ =>
      have hi : (i 0).val < 1 := (i 0).isLt
      show win1_2.index ⟨63, h⟩ (0 : Fin 2) * 1 ≤ (i 0).val ∧ (i 0).val < win1_2.index ⟨63, h⟩ (0 : Fin 2) * 1 + 1
      omega
    | ⟨1, _⟩ =>
      have hi : (i 1).val < 1 := (i 1).isLt
      show win1_2.index ⟨63, h⟩ (1 : Fin 2) * 1 ≤ (i 1).val ∧ (i 1).val < win1_2.index ⟨63, h⟩ (1 : Fin 2) * 1 + 1
      omega

/-- The region's output, read as a scalar, is the total over all pairs of rows of `main_arg1` and `main_arg1`. -/
theorem total1 (c : Dev nD) :
    Cert.KernelIdeal.Frm.rs (F := Ideal) ((dat1 (F := Ideal) V c).arrAt 2 cfg1.N)
      = fun _ => pairSum (V c main_arg1) (V c main_arg1) := by
  have h : 63 < cfg1.N := by have : cfg1.N = 64 := N_1; omega
  funext i
  rw [rs_apply, out_eq1 V c h]
  exact acc_last1 V c h _

/-! ## The third region: rows of `main_arg0` against rows of `main_arg1` -/

/-- The printed index maps over the grid, decided once: at point t the first window's block index is (t / 8, 0), the
    second's (t % 8, 0), the output's (0, 0). -/
theorem index_facts2 : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = 0 ∧ win2_2.index t (1 : Fin 2) = 0 :=
  (by decide +kernel : ∀ t : Fin grid2.N, _)

/-- The first window's block at point t holds rows 1024 (t / 8) … of `main_arg0`. -/
theorem rowBlock2 (c : Dev nD) (t : Fin cfg2.N) (p : Fin 1024) (k : Fin 128) :
    iblk2 (F := Ideal) V c 0 t (ix2 p k) = V c main_arg0 (ix2 ⟨1024 * (t.val / 8) + p.val, by have := t.isLt; have : cfg2.N = 64 := N_2; omega⟩ k) := by
  obtain ⟨e0, e1, -, -, -, -⟩ := index_facts2 t
  show V c main_arg0 (((cfg2.win 0).blk t).view.emb (ix2 p k)) = _
  refine congrArg (V c main_arg0) (funext fun a => Fin.ext ?_)
  match a with
  | ⟨0, _⟩ => show win2_0.index t (0 : Fin 2) * 1024 + 1 * p.val = 1024 * (t.val / 8) + p.val; omega
  | ⟨1, _⟩ => show win2_0.index t (1 : Fin 2) * 128 + 1 * k.val = k.val; omega

/-- The second window's block at point t holds rows 1024 (t % 8) … of `main_arg1`. -/
theorem colBlock2 (c : Dev nD) (t : Fin cfg2.N) (q : Fin 1024) (k : Fin 128) :
    iblk2 (F := Ideal) V c 1 t (ix2 q k) = V c main_arg1 (ix2 ⟨1024 * (t.val % 8) + q.val, by omega⟩ k) := by
  obtain ⟨-, -, e0, e1, -, -⟩ := index_facts2 t
  show V c main_arg1 (((cfg2.win 1).blk t).view.emb (ix2 q k)) = _
  refine congrArg (V c main_arg1) (funext fun a => Fin.ext ?_)
  match a with
  | ⟨0, _⟩ => show win2_1.index t (0 : Fin 2) * 1024 + 1 * q.val = 1024 * (t.val % 8) + q.val; omega
  | ⟨1, _⟩ => show win2_1.index t (1 : Fin 2) * 128 + 1 * k.val = k.val; omega

/-- The tile total at point n. -/
def tileAt2 (c : Dev nD) (n : ℕ) (hn : n < cfg2.N) : EReal :=
  tileSum (iblk2 (F := Ideal) V c 0 ⟨n, hn⟩) (iblk2 (F := Ideal) V c 1 ⟨n, hn⟩)

/-- THE ACCUMULATOR after point n is the sum of the tile totals of the points 0 … n: it starts from zero and each
    point adds its tile's total. -/
theorem acc_eq2 (c : Dev nD) : ∀ (n : ℕ) (hn : n < cfg2.N) (y : S1x1.Idx),
    accAt2 (F := Ideal) V c n hn y = ∑ t : Fin (n + 1), tileAt2 V c t.val (lt_of_le_of_lt (Nat.le_of_lt_succ t.isLt) hn)
  | 0, hn, y => by
    show k2_pay2 (F := Ideal) (iblk2 V c 0 ⟨0, hn⟩) (iblk2 V c 1 ⟨0, hn⟩) (k2_pay1 (F := Ideal)) y = _
    rw [k2_pay2_eq, k2_pay1_eq, zero_add, Fin.sum_univ_one]
    rfl
  | n + 1, hn, y => by
    show k2_pay2 (F := Ideal) (iblk2 V c 0 ⟨n + 1, hn⟩) (iblk2 V c 1 ⟨n + 1, hn⟩) (accAt2 V c n (Nat.lt_of_succ_lt hn)) y = _
    rw [k2_pay2_eq, acc_eq2 c n (Nat.lt_of_succ_lt hn) y]
    refine Eq.trans ?_ (Fin.sum_univ_castSucc _).symm
    rfl

/-- After the last point the accumulator is the total over all pairs of rows. -/
theorem acc_last2 (c : Dev nD) (h : 63 < cfg2.N) (y : S1x1.Idx) :
    accAt2 (F := Ideal) V c 63 h y = pairSum (V c main_arg0) (V c main_arg1) := by
  have hN : cfg2.N = 64 := N_2
  rw [acc_eq2 V c 63 h y,
    pairSum_eq_sum_tiles (V c main_arg0) (V c main_arg1)
      (fun t => iblk2 (F := Ideal) V c 0 ⟨t.val, by omega⟩) (fun t => iblk2 (F := Ideal) V c 1 ⟨t.val, by omega⟩)
      (fun t p k => rowBlock2 V c ⟨t.val, by omega⟩ p k) (fun t q k => colBlock2 V c ⟨t.val, by omega⟩ q k)]
  rfl

/-- The 1×1 array has one index. -/
theorem idx_unique2 (a b : S1x1.Idx) : a = b :=
  funext fun d => Fin.ext (by
    match d with
    | ⟨0, _⟩ => have h1 : (a 0).val < 1 := (a 0).isLt; have h2 : (b 0).val < 1 := (b 0).isLt; show (a 0).val = (b 0).val; omega
    | ⟨1, _⟩ => have h1 : (a 1).val < 1 := (a 1).isLt; have h2 : (b 1).val < 1 := (b 1).isLt; show (a 1).val = (b 1).val; omega)

/-- THE OUTPUT ARRAY after the region: only the last point writes its block back, that block is the whole 1×1
    array, and what it writes is the accumulator after the last point. -/
theorem out_eq2 (c : Dev nD) (h : 63 < cfg2.N) :
    (dat2 (F := Ideal) V c).arrAt 2 cfg2.N = accAt2 (F := Ideal) V c 63 h := by
  refine (dat2 (F := Ideal) V c).arrAt_eq_of_cover 2 (accAt2 (F := Ideal) V c 63 h) (fun t hf => ?_) (fun i => ?_)
  · -- the one flushing point is 63, and what it writes back is the accumulator there
    have ht : t.val = 63 := by have := (flush2_2 t).mp hf; have := t.isLt; have : cfg2.N = 64 := N_2; omega
    obtain ⟨n, hn⟩ := t
    obtain rfl : n = 63 := ht
    show (cfg2.win 2).cut (cfg2.grid.coords ⟨63, hn⟩) ((dat2 (F := Ideal) V c).after 2 ⟨63, hn⟩) = _
    rw [after2_2]
    funext j
    exact congrArg (accAt2 (F := Ideal) V c 63 h) (idx_unique2 _ _)
  · -- the array's one index lies in the last point's block
    have hN : cfg2.N = 64 := N_2
    refine ⟨⟨63, h⟩, (flush2_2 _).mpr rfl, ?_⟩
    obtain ⟨-, -, -, -, e0, e1⟩ := index_facts2 ⟨63, h⟩
    show i ∈ ((View.whole main_v6).slice (win2_2.rect ⟨63, h⟩)).set
    rw [View.set_slice_whole, Rect.mem_set_unit]
    intro a
    match a with
    | ⟨0, _⟩ =>
      have hi : (i 0).val < 1 := (i 0).isLt
      show win2_2.index ⟨63, h⟩ (0 : Fin 2) * 1 ≤ (i 0).val ∧ (i 0).val < win2_2.index ⟨63, h⟩ (0 : Fin 2) * 1 + 1
      omega
    | ⟨1, _⟩ =>
      have hi : (i 1).val < 1 := (i 1).isLt
      show win2_2.index ⟨63, h⟩ (1 : Fin 2) * 1 ≤ (i 1).val ∧ (i 1).val < win2_2.index ⟨63, h⟩ (1 : Fin 2) * 1 + 1
      omega

/-- The region's output, read as a scalar, is the total over all pairs of rows of `main_arg0` and `main_arg1`. -/
theorem total2 (c : Dev nD) :
    Cert.KernelIdeal.Frm.rs (F := Ideal) ((dat2 (F := Ideal) V c).arrAt 2 cfg2.N)
      = fun _ => pairSum (V c main_arg0) (V c main_arg1) := by
  have h : 63 < cfg2.N := by have : cfg2.N = 64 := N_2; omega
  funext i
  rw [rs_apply, out_eq2 V c h]
  exact acc_last2 V c h _

end Cert.Mmd

end
-- ==== Proof.RefValue.lean ====
/-
  The reference's three totals are the pair totals, and its closing arithmetic is the closing arithmetic.

  Each of the reference's three stretches (x1 with x1, x2 with x2, x1 with x2) computes, with whole-array operations,
  the matrix exp (g * max (‖a_i‖² + ‖b_j‖² - 2 ⟨a_i, b_j⟩, 0)) over all 8192 × 8192 pairs and sums it from the zero
  word. Read at an entry (i, j): the two squared norms are the row sums of the squares (each from the zero word,
  0 + Σ), spread along the rows and along the columns; the inner product is the contraction of row i of the first
  array with row j of the second (the transposed array read back at its own entry); the rest is pointwise. So the
  entry is `entry` of the two arrays' rows, and the sum over the rank-2 index set is the double sum over its two
  coordinates: the total is `pairSum`.
  The last six operations divide the three totals by K, double the mixed one, subtract, add and take the square root:
  literally `tail`.
-/
import proofs.«149046_j33449205301987_1_alg».proof.Proof.Spec
import proofs.«149046_j33449205301987_1_alg».proof.Proof.Gen.ReferenceIdeal.Read

noncomputable section

open scoped BigOperators

namespace Cert.Mmd

open Cert.ReferenceIdeal Cert.ReferenceIdeal.Gen Cert.ReferenceIdeal.Read Idealize.ShloMosaic Idealize.ShloMosaic.ValueIdx

variable [Cert.ReferenceIdeal.Facts]

/-- The closing arithmetic of the reference is `tail` of its three totals. -/
theorem ref_tail (x0 x1 : (⟨S8192x128, .f32⟩ : BufTy).Contents (Elt Ideal)) :
    val_main_v66 (F := Ideal) x0 x1
      = tail (val_main_v19 (F := Ideal) x0) (val_main_v40 (F := Ideal) x1) (val_main_v61 (F := Ideal) x0 x1) := rfl

/-- The first operand's squared-norm sum reads row `a`. -/
private theorem v19_ia (a b : Fin 8192) (k : Fin 128) :
    idx_main_v1 (idx_main_v2 (idx_main_v6 (ix2 a b))) k = ix2 a k :=
  funext fun d => Fin.ext (by match d with | ⟨0, _⟩ => rfl | ⟨1, _⟩ => rfl)
/-- The second operand's squared-norm sum reads row `b`. -/
private theorem v19_ib (a b : Fin 8192) (k : Fin 128) :
    idx_main_v4 (idx_main_v5 (idx_main_v7 (ix2 a b))) k = ix2 b k :=
  funext fun d => Fin.ext (by match d with | ⟨0, _⟩ => rfl | ⟨1, _⟩ => rfl)
/-- The product's left factor reads row `a` … -/
private theorem v19_il (a b : Fin 8192) (k : Fin 128) : lidx_main_v10 (ix2 a b) k = ix2 a k :=
  funext fun d => Fin.ext (by match d with | ⟨0, _⟩ => rfl | ⟨1, _⟩ => rfl)
/-- … and its right factor, through the transpose, row `b`. -/
private theorem v19_ir (a b : Fin 8192) (k : Fin 128) : idx_main_v9 (ridx_main_v10 (ix2 a b) k) = ix2 b k :=
  funext fun d => Fin.ext (by match d with | ⟨0, _⟩ => rfl | ⟨1, _⟩ => rfl)

theorem v19_eq (x0 : (⟨S8192x128, .f32⟩ : BufTy).Contents (Elt Ideal)) (i : S_.Idx) :
    val_main_v19 (F := Ideal) x0 i = pairSum x0 x0 := by
  rw [val_main_v19_apply, val_main_cst_4_apply, Ideal.ofBits_def, Ideal.ofBits_zero_f32, zero_add, sum_idx2]
  unfold pairSum
  refine Finset.sum_congr rfl fun a _ => Finset.sum_congr rfl fun b _ => ?_
  rw [val_main_v18_apply, val_main_v17_apply, val_main_v16_apply, val_main_cst_3_apply, val_main_v15_apply, val_main_v14_apply, val_main_cst_2_apply,
    val_main_v13_apply, val_main_v8_apply, val_main_v6_apply, val_main_v2_apply, val_main_v1_apply, val_main_cst_apply,
    val_main_v7_apply, val_main_v5_apply, val_main_v4_apply, val_main_cst_0_apply,
    val_main_v12_apply, val_main_v11_apply, val_main_cst_1_apply, val_main_v10_apply]
  simp only [val_main_v0_apply, val_main_v3_apply, val_main_v9_apply, v19_ia, v19_ib, v19_il, v19_ir,
    Ideal.hostUnary_exp_def, Ideal.mulf_def, Ideal.maximumf_def, Ideal.subf_def, Ideal.addf_def, Ideal.ofBits_def,
    Ideal.ofBits_zero_f32, zero_add]
  rfl

/-- The first operand's squared-norm sum reads row `a`. -/
private theorem v40_ia (a b : Fin 8192) (k : Fin 128) :
    idx_main_v22 (idx_main_v23 (idx_main_v27 (ix2 a b))) k = ix2 a k :=
  funext fun d => Fin.ext (by match d with | ⟨0, _⟩ => rfl | ⟨1, _⟩ => rfl)
/-- The second operand's squared-norm sum reads row `b`. -/
private theorem v40_ib (a b : Fin 8192) (k : Fin 128) :
    idx_main_v25 (idx_main_v26 (idx_main_v28 (ix2 a b))) k = ix2 b k :=
  funext fun d => Fin.ext (by match d with | ⟨0, _⟩ => rfl | ⟨1, _⟩ => rfl)
/-- The product's left factor reads row `a` … -/
private theorem v40_il (a b : Fin 8192) (k : Fin 128) : lidx_main_v31 (ix2 a b) k = ix2 a k :=
  funext fun d => Fin.ext (by match d with | ⟨0, _⟩ => rfl | ⟨1, _⟩ => rfl)
/-- … and its right factor, through the transpose, row `b`. -/
private theorem v40_ir (a b : Fin 8192) (k : Fin 128) : idx_main_v30 (ridx_main_v31 (ix2 a b) k) = ix2 b k :=
  funext fun d => Fin.ext (by match d with | ⟨0, _⟩ => rfl | ⟨1, _⟩ => rfl)

theorem v40_eq (x1 : (⟨S8192x128, .f32⟩ : BufTy).Contents (Elt Ideal)) (i : S_.Idx) :
    val_main_v40 (F := Ideal) x1 i = pairSum x1 x1 := by
  rw [val_main_v40_apply, val_main_cst_11_apply, Ideal.ofBits_def, Ideal.ofBits_zero_f32, zero_add, sum_idx2]
  unfold pairSum
  refine Finset.sum_congr rfl fun a _ => Finset.sum_congr rfl fun b _ => ?_
  rw [val_main_v39_apply, val_main_v38_apply, val_main_v37_apply, val_main_cst_10_apply, val_main_v36_apply, val_main_v35_apply, val_main_cst_9_apply,
    val_main_v34_apply, val_main_v29_apply, val_main_v27_apply, val_main_v23_apply, val_main_v22_apply, val_main_cst_6_apply,
    val_main_v28_apply, val_main_v26_apply, val_main_v25_apply, val_main_cst_7_apply,
    val_main_v33_apply, val_main_v32_apply, val_main_cst_8_apply, val_main_v31_apply]
  simp only [val_main_v21_apply, val_main_v24_apply, val_main_v30_apply, v40_ia, v40_ib, v40_il, v40_ir,
    Ideal.hostUnary_exp_def, Ideal.mulf_def, Ideal.maximumf_def, Ideal.subf_def, Ideal.addf_def, Ideal.ofBits_def,
    Ideal.ofBits_zero_f32, zero_add]
  rfl

/-- The first operand's squared-norm sum reads row `a`. -/
private theorem v61_ia (a b : Fin 8192) (k : Fin 128) :
    idx_main_v43 (idx_main_v44 (idx_main_v48 (ix2 a b))) k = ix2 a k :=
  funext fun d => Fin.ext (by match d with | ⟨0, _⟩ => rfl | ⟨1, _⟩ => rfl)
/-- The second operand's squared-norm sum reads row `b`. -/
private theorem v61_ib (a b : Fin 8192) (k : Fin 128) :
    idx_main_v46 (idx_main_v47 (idx_main_v49 (ix2 a b))) k = ix2 b k :=
  funext fun d => Fin.ext (by match d with | ⟨0, _⟩ => rfl | ⟨1, _⟩ => rfl)
/-- The product's left factor reads row `a` … -/
private theorem v61_il (a b : Fin 8192) (k : Fin 128) : lidx_main_v52 (ix2 a b) k = ix2 a k :=
  funext fun d => Fin.ext (by match d with | ⟨0, _⟩ => rfl | ⟨1, _⟩ => rfl)
/-- … and its right factor, through the transpose, row `b`. -/
private theorem v61_ir (a b : Fin 8192) (k : Fin 128) : idx_main_v51 (ridx_main_v52 (ix2 a b) k) = ix2 b k :=
  funext fun d => Fin.ext (by match d with | ⟨0, _⟩ => rfl | ⟨1, _⟩ => rfl)

theorem v61_eq (x0 x1 : (⟨S8192x128, .f32⟩ : BufTy).Contents (Elt Ideal)) (i : S_.Idx) :
    val_main_v61 (F := Ideal) x0 x1 i = pairSum x0 x1 := by
  rw [val_main_v61_apply, val_main_cst_18_apply, Ideal.ofBits_def, Ideal.ofBits_zero_f32, zero_add, sum_idx2]
  unfold pairSum
  refine Finset.sum_congr rfl fun a _ => Finset.sum_congr rfl fun b _ => ?_
  rw [val_main_v60_apply, val_main_v59_apply, val_main_v58_apply, val_main_cst_17_apply, val_main_v57_apply, val_main_v56_apply, val_main_cst_16_apply,
    val_main_v55_apply, val_main_v50_apply, val_main_v48_apply, val_main_v44_apply, val_main_v43_apply, val_main_cst_13_apply,
    val_main_v49_apply, val_main_v47_apply, val_main_v46_apply, val_main_cst_14_apply,
    val_main_v54_apply, val_main_v53_apply, val_main_cst_15_apply, val_main_v52_apply]
  simp only [val_main_v42_apply, val_main_v45_apply, val_main_v51_apply, v61_ia, v61_ib, v61_il, v61_ir,
    Ideal.hostUnary_exp_def, Ideal.mulf_def, Ideal.maximumf_def, Ideal.subf_def, Ideal.addf_def, Ideal.ofBits_def,
    Ideal.ofBits_zero_f32, zero_add]
  rfl

end Cert.Mmd

end
-- ==== Proof.Claims.lean ====
/-
  The five claims. The kernel computes, three times, the sum over all 8192 x 8192 pairs of rows (i of x, j of y) of
  exp(g * max(|x_i|^2 + |y_j|^2 - 2 <x_i, y_j>, 0)), tile by tile of 1024 x 1024 pairs accumulated in a scalar, and
  closes with sqrt(S11/K - 2 (S12/K) + S22/K); the reference computes the same three sums over whole arrays and closes
  with the same scalar arithmetic. Over the extended reals addition is commutative and associative, so the sum over all
  pairs is the sum of the 64 tiles' sums in the grid's order: the two results are one number. No finiteness is used.
  The frames are the runs with the result dropped; the idealization rewrote nothing.
-/
import proofs.«149046_j33449205301987_1_alg».proof.Defs
import proofs.«149046_j33449205301987_1_alg».proof.Proof.Regs
import proofs.«149046_j33449205301987_1_alg».proof.Proof.BRegs
import proofs.«149046_j33449205301987_1_alg».proof.Proof.Totals
import proofs.«149046_j33449205301987_1_alg».proof.Proof.RefValue
import proofs.«149046_j33449205301987_1_alg».proof.Proof.TailIdeal
import proofs.«149046_j33449205301987_1_alg».proof.Proof.Gen.Pre_finite_inputs
import proofs.«149046_j33449205301987_1_alg».proof.Proof.Gen.ReferenceIdeal.Run
import proofs.«149046_j33449205301987_1_alg».proof.Proof.Gen.ReferenceIdeal.Read

noncomputable section

namespace Cert.Proof.Claims

open Idealize.ShloMosaic Idealize.ShloMosaic.TcCoe Idealize.SL.Sem

theorem frame_k : Cert.frame_Kernel := fun m ρ _ =>
  (θ_run Cert.Kernel.defs _ _).mono (fun _ h c => (h c).2) (Cert.Kernel.Frm.run_main (F := Bits) m ρ)

theorem frame_ki : Cert.frame_KernelIdeal := fun m ρ _ =>
  (θ_run Cert.KernelIdeal.defs _ _).mono (fun _ h c => (h c).2) (Cert.KernelIdeal.Frm.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Frm Cert.Mmd in
/-- Each region is entered with the argument arrays as launched: no earlier item writes them. -/
theorem entry_args (m : (ℓ : Loc nD τ sig) → Buf (Elt Ideal) ℓ) (c : Dev nD) :
    Vv2 m c main_arg1 = m ((c : Thread nD τ).loc main_arg1)
    ∧ Vv4 m c main_arg0 = m ((c : Thread nD τ).loc main_arg0)
    ∧ Vv4 m c main_arg1 = m ((c : Thread nD τ).loc main_arg1) :=
  ⟨(W2_off m (o1 m) c main_arg1 (by decide)).trans (W1_off m (o1 m) c main_arg1 (by decide)),
   (W4_off m (o1 m) (o3 m) c main_arg0 (by decide)).trans ((W3_off m (o1 m) (o3 m) c main_arg0 (by decide)).trans
      ((W2_off m (o1 m) c main_arg0 (by decide)).trans (W1_off m (o1 m) c main_arg0 (by decide)))),
   (W4_off m (o1 m) (o3 m) c main_arg1 (by decide)).trans ((W3_off m (o1 m) (o3 m) c main_arg1 (by decide)).trans
      ((W2_off m (o1 m) c main_arg1 (by decide)).trans (W1_off m (o1 m) c main_arg1 (by decide))))⟩

open Cert.KernelIdeal Cert.KernelIdeal.Frm Cert.Mmd Cert.ReferenceIdeal.Read in
/-- Both programs end with the closing scalar arithmetic of the three sums over all pairs of rows. -/
theorem algebraic : Cert.algebraic_KernelIdeal_ReferenceIdeal := by
  intro m ρ m' ρ' _ hagree
  refine ⟨fun c => W6 m (o1 m) (o3 m) (o5 m) c main_v12, Cert.KernelIdeal.Frm.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, val_main_v66_eq, ref_tail]
  show tail _ _ _ = W6 m (o1 m) (o3 m) (o5 m) c main_v12
  rw [W6_main_v12, tailF_ideal]
  obtain ⟨e1, e2, e3⟩ := entry_args m c
  have t0 := total0 (Vv0 m) c
  have t1 := total1 (Vv2 m) c
  have t2 := total2 (Vv4 m) c
  rw [e1] at t1
  rw [e2, e3] at t2
  have a : val_main_v19 (F := Ideal) (m ((c : Thread nD τ).loc main_arg0)) = rs (o1 m c) := by
    rw [show o1 m c = (dat0 (Vv0 m) c).arrAt 2 cfg0.N from rfl, t0]; funext i; exact v19_eq _ i
  have b : val_main_v40 (F := Ideal) (m ((c : Thread nD τ).loc main_arg1)) = rs (o3 m c) := by
    rw [show o3 m c = (dat1 (Vv2 m) c).arrAt 2 cfg1.N from rfl, t1]; funext i; exact v40_eq _ i
  have d : val_main_v61 (F := Ideal) (m ((c : Thread nD τ).loc main_arg0)) (m ((c : Thread nD τ).loc main_arg1)) = rs (o5 m c) := by
    rw [show o5 m c = (dat2 (Vv4 m) c).arrAt 2 cfg2.N from rfl, t2]; funext i; exact v61_eq _ _ i
  rw [a, b, d]

end Cert.Proof.Claims

end
-- ==== Proof.lean ====
/-
  The certificate's claim: the programs' stated side conditions hold (the generated witnesses), and the five claims
  of Proof/Claims.lean.
-/
import proofs.«149046_j33449205301987_1_alg».proof.Defs
import proofs.«149046_j33449205301987_1_alg».proof.Proof.Gen.Kernel
import proofs.«149046_j33449205301987_1_alg».proof.Proof.Gen.KernelIdeal
import proofs.«149046_j33449205301987_1_alg».proof.Proof.Gen.ReferenceIdeal
import proofs.«149046_j33449205301987_1_alg».proof.Proof.Gen.Pre_finite_inputs
import proofs.«149046_j33449205301987_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
